-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S64x40 .f32) (main_arg10 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x40 .f32) (main_arg9 : FVec F S64x40 .f32) (main_arg10 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1250000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x40 .f32) (main_arg9 : FVec F S64x40 .f32) (main_arg10 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1x64 : Shape := ⟨2, ![1, 64]⟩
abbrev S1x40 : Shape := ⟨2, ![1, 40]⟩
abbrev S1250000x64 : Shape := ⟨2, ![1250000, 64]⟩
abbrev S5000x64 : Shape := ⟨2, ![5000, 64]⟩
abbrev S5000x1 : Shape := ⟨2, ![5000, 1]⟩
abbrev S100000x40 : Shape := ⟨2, ![100000, 40]⟩
abbrev S5000x40 : Shape := ⟨2, ![5000, 40]⟩
abbrev S1250000x40 : Shape := ⟨2, ![1250000, 40]⟩
abbrev S5000 : Shape := ⟨1, ![5000]⟩

abbrev nBuf : Space → Nat
  | .hbm => 74
  | .vmem => 37
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S64x40, .f32⟩
  | .hbm, ⟨10, _⟩ => ⟨S40, .f32⟩
  | .hbm, ⟨11, _⟩ => ⟨S1x1250000, .i32⟩
  | .hbm, ⟨12, _⟩ => ⟨S1250000, .i32⟩
  | .hbm, ⟨13, _⟩ => ⟨S1x1250000, .i32⟩
  | .hbm, ⟨14, _⟩ => ⟨S1250000, .i32⟩
  | .hbm, ⟨15, _⟩ => ⟨S_, .f32⟩
  | .hbm, ⟨16, _⟩ => ⟨S1250000, .f32⟩
  | .hbm, ⟨17, _⟩ => ⟨S_, .f32⟩
  | .hbm, ⟨18, _⟩ => ⟨S100000, .f32⟩
  | .hbm, ⟨19, _⟩ => ⟨S1250000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x64, .f32⟩
  | .hbm, ⟨29, _⟩ => ⟨S1x64, .f32⟩
  | .hbm, ⟨30, _⟩ => ⟨S1x40, .f32⟩
  | .hbm, ⟨31, _⟩ => ⟨S_, .i32⟩
  | .hbm, ⟨32, _⟩ => ⟨S1250000, .i32⟩
  | .hbm, ⟨33, _⟩ => ⟨S1250000, .i1⟩
  | .hbm, ⟨34, _⟩ => ⟨S_, .i32⟩
  | .hbm, ⟨35, _⟩ => ⟨S1250000, .i32⟩
  | .hbm, ⟨36, _⟩ => ⟨S1250000, .i32⟩
  | .hbm, ⟨37, _⟩ => ⟨S1250000, .i32⟩
  | .hbm, ⟨38, _⟩ => ⟨S1250000x1, .i32⟩
  | .hbm, ⟨39, _⟩ => ⟨S1250000x64, .f32⟩
  | .hbm, ⟨40, _⟩ => ⟨S_, .f32⟩
  | .hbm, ⟨41, _⟩ => ⟨S100000x64, .f32⟩
  | .hbm, ⟨42, _⟩ => ⟨S1250000x1, .i32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .f32⟩
  | .hbm, ⟨54, _⟩ => ⟨S_, .f32⟩
  | .hbm, ⟨55, _⟩ => ⟨S100000x64, .f32⟩
  | .hbm, ⟨56, _⟩ => ⟨S1250000x1, .i32⟩
  | .hbm, ⟨57, _⟩ => ⟨S100000x64, .f32⟩
  | .hbm, ⟨58, _⟩ => ⟨S100000x64, .f32⟩
  | .hbm, ⟨59, _⟩ => ⟨S100000x40, .f32⟩
  | .hbm, ⟨60, _⟩ => ⟨S_, .i32⟩
  | .hbm, ⟨61, _⟩ => ⟨S1250000, .i32⟩
  | .hbm, ⟨62, _⟩ => ⟨S1250000, .i1⟩
  | .hbm, ⟨63, _⟩ => ⟨S_, .i32⟩
  | .hbm, ⟨64, _⟩ => ⟨S1250000, .i32⟩
  | .hbm, ⟨65, _⟩ => ⟨S1250000, .i32⟩
  | .hbm, ⟨66, _⟩ => ⟨S1250000, .i32⟩
  | .hbm, ⟨67, _⟩ => ⟨S1250000x1, .i32⟩
  | .hbm, ⟨68, _⟩ => ⟨S1250000x40, .f32⟩
  | .hbm, ⟨69, _⟩ => ⟨S_, .f32⟩
  | .hbm, ⟨70, _⟩ => ⟨S100000x40, .f32⟩
  | .hbm, ⟨71, _⟩ => ⟨S1250000x1, .i32⟩
  | .hbm, ⟨72, _⟩ => ⟨S100000x40, .f32⟩
  | .hbm, ⟨73, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x40, .f32⟩
  | .local _ .vmem, ⟨25, _⟩ => ⟨S5000x40, .f32⟩
  | .local _ .vmem, ⟨26, _⟩ => ⟨S5000x40, .f32⟩
  | .local _ .vmem, ⟨27, _⟩ => ⟨S5000x40, .f32⟩
  | .local _ .vmem, ⟨28, _⟩ => ⟨S5000x40, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S64x40, .f32⟩
  | .local _ .vmem, ⟨34, _⟩ => ⟨S1x40, .f32⟩
  | .local _ .vmem, ⟨35, _⟩ => ⟨S5000x40, .f32⟩
  | .local _ .vmem, ⟨36, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  shapeCasts_S64_S1x64 : S64.ShapeCasts S1x64
  shapeCasts_S40_S1x40 : S40.ShapeCasts S1x40
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  gather_S100000x40_S1250000x1_S1250000x40_1_0_n_n_0_1_140_wf : GatherDims.WF S100000x40 S1250000x1 S1250000x40 [1] [0] [] [0] [] 1 ![1, 40]
  scatter_S100000x40_S1250000x1_S1250000x40_1_0_0_1_wf : ScatterDims.WF S100000x40 S1250000x1 S1250000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x40.size a ≤ S64x40.size a
  hwx3_3 : ∀ i : grid3.Coords, EltTy.bits .f32 = 32 ∨ (Rect.block (s := S64x40) S64x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S100000x40.size a
  hwx3_5 : ∀ i : grid3.Coords, EltTy.bits .f32 = 32 ∨ (Rect.block (s := S100000x40) S5000x40.size (cc3_transform_5 i) (hinb3_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1250000x1_S1250000x40_1_0_n_n_0_1_140 : GatherDims S100000x40 S1250000x1 S1250000x40 where
  offsetDims := [1]
  collapsedSliceDims := [0]
  operandBatchingDims := []
  startIndicesBatchingDims := []
  startIndexMap := [0]
  indexVectorDim := 1
  sliceSizes := ![1, 40]
  wf := gather_S100000x40_S1250000x1_S1250000x40_1_0_n_n_0_1_140_wf
def scatter_S100000x40_S1250000x1_S1250000x40_1_0_0_1 : ScatterDims S100000x40 S1250000x1 S1250000x40 where
  updateWindowDims := [1]
  insertedWindowDims := [0]
  scatterDimsToOperandDims := [0]
  indexVectorDim := 1
  wf := scatter_S100000x40_S1250000x1_S1250000x40_1_0_0_1_wf

abbrev win0_0 : Pipeline.Window sig grid0 :=
  Pipeline.Window.ofSpec (Memref.whole main_v25) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v15) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 112
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S64x40, .f32⟩
  | .hbm, ⟨10, _⟩ => ⟨S40, .f32⟩
  | .hbm, ⟨11, _⟩ => ⟨S1x1250000, .i32⟩
  | .hbm, ⟨12, _⟩ => ⟨S1250000, .i32⟩
  | .hbm, ⟨13, _⟩ => ⟨S1x1250000, .i32⟩
  | .hbm, ⟨14, _⟩ => ⟨S1250000, .i32⟩
  | .hbm, ⟨15, _⟩ => ⟨S_, .f32⟩
  | .hbm, ⟨16, _⟩ => ⟨S1250000, .f32⟩
  | .hbm, ⟨17, _⟩ => ⟨S_, .f32⟩
  | .hbm, ⟨18, _⟩ => ⟨S100000, .f32⟩
  | .hbm, ⟨19, _⟩ => ⟨S1250000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1250000, .i32⟩
  | .hbm, ⟨30, _⟩ => ⟨S1250000, .i1⟩
  | .hbm, ⟨31, _⟩ => ⟨S_, .i32⟩
  | .hbm, ⟨32, _⟩ => ⟨S1250000, .i32⟩
  | .hbm, ⟨33, _⟩ => ⟨S1250000, .i32⟩
  | .hbm, ⟨34, _⟩ => ⟨S1250000, .i32⟩
  | .hbm, ⟨35, _⟩ => ⟨S1250000x1, .i32⟩
  | .hbm, ⟨36, _⟩ => ⟨S1250000x64, .f32⟩
  | .hbm, ⟨37, _⟩ => ⟨S_, .f32⟩
  | .hbm, ⟨38, _⟩ => ⟨S100000x64, .f32⟩
  | .hbm, ⟨39, _⟩ => ⟨S1250000x1, .i32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1250000, .i32⟩
  | .hbm, ⟨54, _⟩ => ⟨S1250000, .i1⟩
  | .hbm, ⟨55, _⟩ => ⟨S_, .i32⟩
  | .hbm, ⟨56, _⟩ => ⟨S1250000, .i32⟩
  | .hbm, ⟨57, _⟩ => ⟨S1250000, .i32⟩
  | .hbm, ⟨58, _⟩ => ⟨S1250000, .i32⟩
  | .hbm, ⟨59, _⟩ => ⟨S1250000x1, .i32⟩
  | .hbm, ⟨60, _⟩ => ⟨S1250000x64, .f32⟩
  | .hbm, ⟨61, _⟩ => ⟨S_, .f32⟩
  | .hbm, ⟨62, _⟩ => ⟨S100000x64, .f32⟩
  | .hbm, ⟨63, _⟩ => ⟨S1250000x1, .i32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1250000, .i32⟩
  | .hbm, ⟨78, _⟩ => ⟨S1250000, .i1⟩
  | .hbm, ⟨79, _⟩ => ⟨S_, .i32⟩
  | .hbm, ⟨80, _⟩ => ⟨S1250000, .i32⟩
  | .hbm, ⟨81, _⟩ => ⟨S1250000, .i32⟩
  | .hbm, ⟨82, _⟩ => ⟨S1250000, .i32⟩
  | .hbm, ⟨83, _⟩ => ⟨S1250000x1, .i32⟩
  | .hbm, ⟨84, _⟩ => ⟨S1250000x64, .f32⟩
  | .hbm, ⟨85, _⟩ => ⟨S_, .f32⟩
  | .hbm, ⟨86, _⟩ => ⟨S100000x64, .f32⟩
  | .hbm, ⟨87, _⟩ => ⟨S1250000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | .hbm, ⟨95, _⟩ => ⟨S100000x40, .f32⟩
  | .hbm, ⟨96, _⟩ => ⟨S100000x40, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x40, .f32⟩
  | .hbm, ⟨104, _⟩ => ⟨S100000x40, .f32⟩
  | .hbm, ⟨105, _⟩ => ⟨S100000x40, .f32⟩
  | .hbm, ⟨106, _⟩ => ⟨S_, .f32⟩
  | .hbm, ⟨107, _⟩ => ⟨S100000, .f32⟩
  | .hbm, ⟨108, _⟩ => ⟨S100000x1, .f32⟩
  | .hbm, ⟨109, _⟩ => ⟨S100000x1, .f32⟩
  | .hbm, ⟨110, _⟩ => ⟨S100000x40, .f32⟩
  | .hbm, ⟨111, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_call2_cst_0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_cst_1 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_v69 : Ref sig .tc := ⟨.hbm, 111, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's run with its result named.

  The program is seven segments: a stretch of host operations, the first hidden layer's call, a second
  stretch, the second hidden layer's call, the projection's call, a third stretch, the last layer's call.
  Every weakly fair execution from a memory with zero counters terminates without a fault, and in its final
  state every buffer that outlives a call holds what the fold of the segments leaves there: the result array
  what the last call's write-backs leave, each argument array what it was launched with.
-/
import proofs.«169150_j15985868276093_2_alg».proof.Proof.Patched.KernelIdeal.Frame

set_option maxRecDepth 16384

noncomputable section

namespace Cert.MeanAgg.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at what the
    last call leaves in it (the fold's last valuation read at the result's buffer) and the arguments as launched. -/
theorem run_result : θ_run defs (onTc (τ := τ) (main (F := F))) ⟨m, fun _ => 0, ρ⟩ (fun r => ∀ c : Dev nD,
      r.2.mem ((c.tc : Thread nD τ).loc main_v49) = W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v49 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.MeanAgg.Run

end
-- ==== Proof.Spec.lean ====
/-
  The mathematics both programs compute, stated once over the extended reals, index by index, at the
  literal shapes: 100000 nodes, 64 hidden features, 40 classes.

  A hidden layer takes the neighbour sums `agg`, the node features `x`, the reciprocal degrees
  `dinv` (one column), two weight matrices and a bias, and gives at node `r`, feature `c`
      max (Σ_k (agg r k · dinv r) · Wl k c  +  Σ_k x r k · Wr k c  +  b c) 0.
  The last layer has two spellings.  Aggregating first and projecting after gives
      Σ_k (agg r k · dinv r) · Wl k c  +  b c  +  Σ_k h r k · Wr k c,
  projecting first (`proj`) and aggregating the 40 projected features gives
      aggp r c · dinv r  +  Σ_k h r k · Wr k c  +  b c.
  They agree when every entry is a real number, because the neighbour sum is linear.  The result is
  the row-wise log-softmax of that array: each entry less the row's maximum, less the logarithm of the
  row's sum of exponentials of the entries less the maximum.
-/
import Idealize.ShloMosaic.PureOps.Ideal
import Idealize.ShloMosaic.Lib.ValueIdx

noncomputable section

open scoped BigOperators

namespace Cert.MeanAgg

open Idealize.ShloMosaic Idealize.ShloMosaic.ValueIdx

/-- Node features: 100000 rows of 64. -/
abbrev NodeFeat : Shape := ⟨2, ![100000, 64]⟩
/-- Class scores: 100000 rows of 40. -/
abbrev NodeCls : Shape := ⟨2, ![100000, 40]⟩
/-- One column per node. -/
abbrev NodeCol : Shape := ⟨2, ![100000, 1]⟩
/-- A square weight matrix. -/
abbrev WSq : Shape := ⟨2, ![64, 64]⟩
/-- The last layer's weight matrix. -/
abbrev WCls : Shape := ⟨2, ![64, 40]⟩
/-- A bias over the hidden features. -/
abbrev BiasH : Shape := ⟨1, ![64]⟩
/-- A bias over the classes. -/
abbrev BiasC : Shape := ⟨1, ![40]⟩

/-- Row `r` of `a` against column `c` of `W`: the sum over the 64 shared features of the products. -/
def rowDot {n : Nat} (a : NodeFeat.Idx → EReal) (W : (⟨2, ![64, n]⟩ : Shape).Idx → EReal) (r : Fin 100000) (c : Fin n) : EReal :=
  ∑ k : Fin 64, a (ix2 r k) * W (ix2 k c)

/-- Row `r` of the neighbour sums scaled by the node's reciprocal degree, against column `c` of `W`. -/
def scaledRowDot {n : Nat} (agg : NodeFeat.Idx → EReal) (dinv : NodeCol.Idx → EReal) (W : (⟨2, ![64, n]⟩ : Shape).Idx → EReal)
    (r : Fin 100000) (c : Fin n) : EReal :=
  ∑ k : Fin 64, (agg (ix2 r k) * dinv (ix2 r (0 : Fin 1))) * W (ix2 k c)

/-- A hidden layer at node `r`, feature `c`. -/
def hiddenAt (agg x : NodeFeat.Idx → EReal) (dinv : NodeCol.Idx → EReal) (Wl Wr : WSq.Idx → EReal) (b : BiasH.Idx → EReal)
    (r : Fin 100000) (c : Fin 64) : EReal :=
  max ((scaledRowDot agg dinv Wl r c + rowDot x Wr r c) + b (ix1 c)) 0

/-- A hidden layer, as an array. -/
def hidden (agg x : NodeFeat.Idx → EReal) (dinv : NodeCol.Idx → EReal) (Wl Wr : WSq.Idx → EReal) (b : BiasH.Idx → EReal) :
    NodeFeat.Idx → EReal :=
  fun i => hiddenAt agg x dinv Wl Wr b (i 0) (i 1)

/-- The node features projected to the 40 classes. -/
def proj (h : NodeFeat.Idx → EReal) (W : WCls.Idx → EReal) : NodeCls.Idx → EReal :=
  fun i => rowDot h W (i 0) (i 1)

/-- The last layer before the softmax, neighbour sums taken over the 64 features and projected after. -/
def scoresAggFirst (agg h : NodeFeat.Idx → EReal) (dinv : NodeCol.Idx → EReal) (Wl Wr : WCls.Idx → EReal) (b : BiasC.Idx → EReal) :
    NodeCls.Idx → EReal :=
  fun i => (scaledRowDot agg dinv Wl (i 0) (i 1) + b (ix1 (i 1))) + rowDot h Wr (i 0) (i 1)

/-- The last layer before the softmax, neighbour sums taken over the 40 projected features. -/
def scoresProjFirst (aggp : NodeCls.Idx → EReal) (h : NodeFeat.Idx → EReal) (dinv : NodeCol.Idx → EReal) (Wr : WCls.Idx → EReal)
    (b : BiasC.Idx → EReal) : NodeCls.Idx → EReal :=
  fun i => ((aggp (ix2 (i 0) (i 1)) * dinv (ix2 (i 0) (0 : Fin 1))) + rowDot h Wr (i 0) (i 1)) + b (ix1 (i 1))

/-- The largest entry of row `r` (the least extended real for an empty row; the rows here have 40 entries). -/
def rowMax (s : NodeCls.Idx → EReal) (r : Fin 100000) : EReal :=
  (Finset.univ : Finset (Fin 40)).fold max ⊥ (fun c => s (ix2 r c))

/-- The row-wise log-softmax. -/
def logSoftmax (s : NodeCls.Idx → EReal) : NodeCls.Idx → EReal :=
  fun i => (s i - rowMax s (i 0)) - Ideal.log (∑ c : Fin 40, Ideal.exp (s (ix2 (i 0) c) - rowMax s (i 0)))

theorem hidden_apply (agg x : NodeFeat.Idx → EReal) (dinv : NodeCol.Idx → EReal) (Wl Wr : WSq.Idx → EReal) (b : BiasH.Idx → EReal)
    (r : Fin 100000) (c : Fin 64) : hidden agg x dinv Wl Wr b (ix2 r c) = hiddenAt agg x dinv Wl Wr b r c := rfl

theorem proj_apply (h : NodeFeat.Idx → EReal) (W : WCls.Idx → EReal) (r : Fin 100000) (c : Fin 40) :
    proj h W (ix2 r c) = rowDot h W r c := rfl

end Cert.MeanAgg

end
-- ==== Proof.KernelBody.lean ====
/-
  The four kernel bodies read at one element of the block they store, at the exact values.

  Each body loads a block of 5000 node rows of its row-wise operands, the whole of each weight matrix and
  the bias row, and stores one block of 5000 result rows.  Read at row `p` of the block and column `q`, a
  matrix product into a zero accumulator is the sum over the 64 shared features of the products, a column
  broadcast along the row reads the column at row `p`, a row broadcast down the block reads the row at
  column `q`, and a change of float format changes nothing.
-/
import proofs.«169150_j15985868276093_2_alg».proof.Proof.Gen.KernelIdeal.Skeleton
import proofs.«169150_j15985868276093_2_alg».proof.Proof.Spec
import Idealize.ShloMosaic.Lib.ValueIdx
import Idealize.ShloMosaic.Lib.Pipeline.Value
import Idealize.ShloMosaic.PureOps.Ideal.Laws

noncomputable section

open scoped BigOperators

namespace Cert.MeanAgg.Body

open Idealize.ShloMosaic Idealize.ShloMosaic.ValueIdx Cert.KernelIdeal Cert.KernelIdeal.Gen

/-! ## The matrix products -/

/-- A block of 5000 rows of 64 against a 64 by 64 matrix, into the zero accumulator, at row `p`, column `q`. -/
theorem matmulSq_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  show FloatOps.matmul dot_S5000x64_S64x64_S5000x64_1_0_0_1_n_n none l r (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ =>
        show (dot_S5000x64_S64x64_S5000x64_1_0_0_1_n_n.lhsIdx (ix2 p q) _ 0).val = p.val
        unfold DotDims.lhsIdx
        rw [dif_neg (show ¬(0 : Fin S5000x64.rank) ∈ dot_S5000x64_S64x64_S5000x64_1_0_0_1_n_n.lhsBatch by decide),
          dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl _ _).trans hk
      | ⟨1, _⟩ =>
        show (dot_S5000x64_S64x64_S5000x64_1_0_0_1_n_n.rhsIdx (ix2 p q) _ 1).val = q.val
        unfold DotDims.rhsIdx
        rw [dif_neg (show ¬(1 : Fin S64x64.rank) ∈ dot_S5000x64_S64x64_S5000x64_1_0_0_1_n_n.rhsBatch by decide),
          dif_pos (show (1 : Fin S64x64.rank) ∈ dot_S5000x64_S64x64_S5000x64_1_0_0_1_n_n.rhsNonContracting by decide)]
        rfl)
  rw [el, er]

/-! ## The two broadcasts -/

/-- One column per row, repeated along the 64 features: row `p`'s entry. -/
theorem colBroadcast64_apply {α : Type} (v : S5000x1.Idx → α) (p : Fin 5000) (q : Fin 64) :
    broadcastTo S5000x64 v broadcasts_S5000x1_S5000x64 (ix2 p q) = v (ix2 p (0 : Fin 1)) :=
  broadcastTo_apply v broadcasts_S5000x1_S5000x64 (ix2 p q) (ix2 p (0 : Fin 1)) (fun a => by
    match a with
    | ⟨0, _⟩ => rfl
    | ⟨1, _⟩ => rfl)

/-- One row of 64, repeated down the 5000 rows: column `q`'s entry. -/
theorem rowBroadcast64_apply {α : Type} (v : S1x64.Idx → α) (p : Fin 5000) (q : Fin 64) :
    broadcastTo S5000x64 v broadcasts_S1x64_S5000x64 (ix2 p q) = v (ix2 (0 : Fin 1) q) :=
  broadcastTo_apply v broadcasts_S1x64_S5000x64 (ix2 p q) (ix2 (0 : Fin 1) q) (fun a => by
    match a with
    | ⟨0, _⟩ => rfl
    | ⟨1, _⟩ => rfl)

/-! ## The first hidden layer's body -/

/-- The first hidden layer's stored block at row `p`, column `q`: the scaled neighbour sums against the
    first matrix, plus the node's own features against the second, plus the bias, cut off below at zero. -/
theorem hidden0_at (x0 : Vec Ideal S5000x64 .f32) (x2 : Vec Ideal S5000x1 .f32) (x7 : Vec Ideal S5000x64 .f32)
    (x9 x11 : Vec Ideal S64x64 .f32) (x16 : Vec Ideal S1x64 .f32) (p : Fin 5000) (q : Fin 64) :
    k0_pay1 (F := Ideal) x0 x2 x7 x9 x11 x16 (ix2 p q)
      = max (((∑ k : Fin 64, (x0 (ix2 p k) * x2 (ix2 p (0 : Fin 1))) * x9 (ix2 k q))
          + ∑ k : Fin 64, x7 (ix2 p k) * x11 (ix2 k q)) + x16 (ix2 (0 : Fin 1) q)) 0 := by
  unfold k0_pay1
  simp only [shapeCast_self]
  rw [maximumf_apply, addf_apply, addf_apply, matmulSq_apply, matmulSq_apply, rowBroadcast64_apply, broadcast_apply]
  simp only [truncf_apply, mulf_apply, colBroadcast64_apply]
  rw [show (Scalar.ofBits .f32 0x00000000#32 : Ideal .f32) = 0 from Ideal.ofBits_zero_f32]

/-! ## The second hidden layer's body -/

/-- The second hidden layer's stored block at row `p`, column `q`: the same expression of its own operands. -/
theorem hidden1_at (x0 : Vec Ideal S5000x64 .f32) (x2 : Vec Ideal S5000x1 .f32) (x7 : Vec Ideal S5000x64 .f32)
    (x10 x12 : Vec Ideal S64x64 .f32) (x17 : Vec Ideal S1x64 .f32) (p : Fin 5000) (q : Fin 64) :
    k1_pay1 (F := Ideal) x0 x2 x7 x10 x12 x17 (ix2 p q)
      = max (((∑ k : Fin 64, (x0 (ix2 p k) * x2 (ix2 p (0 : Fin 1))) * x10 (ix2 k q))
          + ∑ k : Fin 64, x7 (ix2 p k) * x12 (ix2 k q)) + x17 (ix2 (0 : Fin 1) q)) 0 := by
  unfold k1_pay1
  simp only [shapeCast_self]
  rw [maximumf_apply, addf_apply, addf_apply, matmulSq_apply, matmulSq_apply, rowBroadcast64_apply, broadcast_apply]
  simp only [truncf_apply, mulf_apply, colBroadcast64_apply]
  rw [show (Scalar.ofBits .f32 0x00000000#32 : Ideal .f32) = 0 from Ideal.ofBits_zero_f32]

end Cert.MeanAgg.Body

end
-- ==== Proof.KernelBodyCls.lean ====
/-
  The projection's and the last layer's bodies read at one element of the block they store, at the exact
  values.  The projection is one matrix product.  The last layer forms the class scores of a block — the
  scaled sums of projected features, plus the node's own features against the matrix, plus the bias — and
  stores, at row `p` and class `q`, the score less the largest score of the row, less the logarithm of the
  row's sum of the exponentials of the scores less that largest score.
-/
import proofs.«169150_j15985868276093_2_alg».proof.Proof.Gen.KernelIdeal.Skeleton
import proofs.«169150_j15985868276093_2_alg».proof.Proof.Spec
import Idealize.ShloMosaic.Lib.ValueIdx
import Idealize.ShloMosaic.Lib.Pipeline.Value
import Idealize.ShloMosaic.PureOps.Ideal.Laws

noncomputable section

open scoped BigOperators

namespace Cert.MeanAgg.Body

open Idealize.ShloMosaic Idealize.ShloMosaic.ValueIdx Cert.KernelIdeal Cert.KernelIdeal.Gen

/-! ## The projection's body -/

/-- A block of 5000 rows of 64 against the 64 by 40 matrix, into the zero accumulator, at row `p`, column `q`. -/
theorem matmulCls_apply {φ₁ φ₂ : FTy} (l : FVec Ideal S5000x64 φ₁) (r : FVec Ideal S64x40 φ₂) (p : Fin 5000) (q : Fin 40) :
    matmul dot_S5000x64_S64x40_S5000x40_1_0_0_1_n_n none l r (constant S5000x40 .f32 0x00000000#32) (ix2 p q)
      = ∑ k : Fin 64, l (ix2 p k) * r (ix2 k q) := by
  show FloatOps.matmul dot_S5000x64_S64x40_S5000x40_1_0_0_1_n_n none l r (constant S5000x40 .f32 0x00000000#32) (ix2 p q) = _
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k :=
    funext fun a => Fin.ext (by
      match a with
      | ⟨0, _⟩ =>
        show (dot_S5000x64_S64x40_S5000x40_1_0_0_1_n_n.lhsIdx (ix2 p q) _ 0).val = p.val
        unfold DotDims.lhsIdx
        rw [dif_neg (show ¬(0 : Fin S5000x64.rank) ∈ dot_S5000x64_S64x40_S5000x40_1_0_0_1_n_n.lhsBatch by decide),
          dif_pos (show (0 : Fin S5000x64.rank) ∈ dot_S5000x64_S64x40_S5000x40_1_0_0_1_n_n.lhsNonContracting by decide)]
        rfl
      | ⟨1, _⟩ => exact (dot_S5000x64_S64x40_S5000x40_1_0_0_1_n_n.lhsIdx_val_of_single rfl _ _).trans hk)
  have er : dot_S5000x64_S64x40_S5000x40_1_0_0_1_n_n.rhsIdx (ix2 p q) ((contrEquiv1 dot_S5000x64_S64x40_S5000x40_1_0_0_1_n_n 64 rfl rfl).symm k) = ix2 k q :=
    funext fun a => Fin.ext (by
      match a with
      | ⟨0, _⟩ => exact (dot_S5000x64_S64x40_S5000x40_1_0_0_1_n_n.rhsIdx_val_of_single rfl _ _).trans hk
      | ⟨1, _⟩ =>
        show (dot_S5000x64_S64x40_S5000x40_1_0_0_1_n_n.rhsIdx (ix2 p q) _ 1).val = q.val
        unfold DotDims.rhsIdx
        rw [dif_neg (show ¬(1 : Fin S64x40.rank) ∈ dot_S5000x64_S64x40_S5000x40_1_0_0_1_n_n.rhsBatch by decide),
          dif_pos (show (1 : Fin S64x40.rank) ∈ dot_S5000x64_S64x40_S5000x40_1_0_0_1_n_n.rhsNonContracting by decide)]
        rfl)
  rw [el, er]

/-- The projection's stored block at row `p`, column `q`: the row against the column. -/
theorem proj_at (x0 : Vec Ideal S5000x64 .f32) (x3 : Vec Ideal S64x40 .f32) (p : Fin 5000) (q : Fin 40) :
    k2_pay1 (F := Ideal) x0 x3 (ix2 p q) = ∑ k : Fin 64, x0 (ix2 p k) * x3 (ix2 k q) := by
  unfold k2_pay1
  simp only [shapeCast_self]
  rw [matmulCls_apply]
  simp only [truncf_apply]

/-! ## The last layer's body -/

/-- The word of minus infinity is the least extended real. -/
theorem ofBits_negInf : Ideal.ofBits .f32 0xFF800000#32 = (⊥ : EReal) := by
  simp [Ideal.ofBits, Ideal.ieee]

/-- One column per row, repeated along the 40 classes: row `p`'s entry. -/
theorem colBroadcast40_apply {α : Type} (v : S5000x1.Idx → α) (p : Fin 5000) (q : Fin 40) :
    broadcastTo S5000x40 v broadcasts_S5000x1_S5000x40 (ix2 p q) = v (ix2 p (0 : Fin 1)) :=
  broadcastTo_apply v broadcasts_S5000x1_S5000x40 (ix2 p q) (ix2 p (0 : Fin 1)) (fun a => by
    match a with
    | ⟨0, _⟩ => rfl
    | ⟨1, _⟩ => rfl)

/-- One row of 40, repeated down the 5000 rows: column `q`'s entry. -/
theorem rowBroadcast40_apply {α : Type} (v : S1x40.Idx → α) (p : Fin 5000) (q : Fin 40) :
    broadcastTo S5000x40 v broadcasts_S1x40_S5000x40 (ix2 p q) = v (ix2 (0 : Fin 1) q) :=
  broadcastTo_apply v broadcasts_S1x40_S5000x40 (ix2 p q) (ix2 (0 : Fin 1) q) (fun a => by
    match a with
    | ⟨0, _⟩ => rfl
    | ⟨1, _⟩ => rfl)

/-- A vector of 5000 read as one column: row `p`'s entry. -/
theorem asColumn_apply {α : Type} (v : S5000.Idx → α) (p : Fin 5000) :
    shapeCast S5000x1 v shapeCasts_S5000_S5000x1 (ix2 p (0 : Fin 1)) = v (ix1 p) :=
  shapeCast_apply v shapeCasts_S5000_S5000x1 (ix2 p (0 : Fin 1)) (ix1 p) (by
    rw [Shape.rowMajor_val_one, Shape.rowMajor_val_two]
    show p.val = p.val * 1 + 0
    omega)

/-- The class scores of a block before the softmax, at row `p`, column `q`: the scaled sums of projected
    features, plus the node's own features against the matrix, plus the bias. -/
def blockScores (x0 : Vec Ideal S5000x40 .f32) (x2 : Vec Ideal S5000x1 .f32) (x6 : Vec Ideal S5000x64 .f32)
    (x9 : Vec Ideal S64x40 .f32) (x13 : Vec Ideal S1x40 .f32) (p : Fin 5000) (q : Fin 40) : EReal :=
  ((x0 (ix2 p q) * x2 (ix2 p (0 : Fin 1))) + ∑ k : Fin 64, x6 (ix2 p k) * x9 (ix2 k q)) + x13 (ix2 (0 : Fin 1) q)

/-- The largest of a block row's 40 scores. -/
def blockRowMax (x0 : Vec Ideal S5000x40 .f32) (x2 : Vec Ideal S5000x1 .f32) (x6 : Vec Ideal S5000x64 .f32)
    (x9 : Vec Ideal S64x40 .f32) (x13 : Vec Ideal S1x40 .f32) (p : Fin 5000) : EReal :=
  (Finset.univ : Finset (Fin 40)).fold max ⊥ (fun c => blockScores x0 x2 x6 x9 x13 p c)

/-- The block's class scores as the body forms them: one vector of 5000 rows of 40. -/
def scoresVec (x0 : Vec Ideal S5000x40 .f32) (x2 : Vec Ideal S5000x1 .f32) (x6 : Vec Ideal S5000x64 .f32)
    (x9 : Vec Ideal S64x40 .f32) (x13 : Vec Ideal S1x40 .f32) : FVec Ideal S5000x40 .f32 :=
  addf (addf (mulf x0 (broadcastTo S5000x40 x2 broadcasts_S5000x1_S5000x40))
      (matmul dot_S5000x64_S64x40_S5000x40_1_0_0_1_n_n none (truncf .bf16 x6 bitsLt_bf16_f32) (truncf .bf16 x9 bitsLt_bf16_f32)
        (constant S5000x40 .f32 0x00000000#32)))
    (broadcastTo S5000x40 x13 broadcasts_S1x40_S5000x40)

/-- That vector at row `p`, class `c`. -/
theorem scoresVec_apply (x0 : Vec Ideal S5000x40 .f32) (x2 : Vec Ideal S5000x1 .f32) (x6 : Vec Ideal S5000x64 .f32)
    (x9 : Vec Ideal S64x40 .f32) (x13 : Vec Ideal S1x40 .f32) (p : Fin 5000) (c : Fin 40) :
    scoresVec x0 x2 x6 x9 x13 (ix2 p c) = blockScores x0 x2 x6 x9 x13 p c := by
  unfold scoresVec
  rw [addf_apply, addf_apply, mulf_apply, matmulCls_apply, colBroadcast40_apply, rowBroadcast40_apply]
  simp only [truncf_apply]
  rfl

/-- The exponential of a vector, at an entry. -/
theorem exp_apply {s : Shape} (v : FVec Ideal s .f32) (i : s.Idx) : exp v i = Ideal.exp (v i) := rfl

/-- The logarithm of a vector, at an entry. -/
theorem log_apply {s : Shape} (v : FVec Ideal s .f32) (i : s.Idx) : log v i = Ideal.log (v i) := rfl

/-- The entry a row reduction of a block visits at row `p`, position `c` of the reduced axis. -/
theorem lift_row (p : Fin 5000) (c : Fin 40) : reduces_S5000x40_S5000.lift (ix1 p) c = ix2 p c :=
  funext fun a => Fin.ext (by
    match a with
    | ⟨0, _⟩ => rfl
    | ⟨1, _⟩ => rfl)

/-- The largest entry of each row of a block, started from minus infinity: at row `p`, the largest of the row's 40 entries. -/
theorem rowMaxRed_apply (v : FVec Ideal S5000x40 .f32) (hφ : FKind.Formats .f32)
    (hacc : (0xFF800000#32 : BitVec 32) = 0xFF800000#32) (p : Fin 5000) :
    multiReduction .maximumf [1] S5000 v 0xFF800000#32 reduces_S5000x40_S5000 hφ hacc (ix1 p)
      = (Finset.univ : Finset (Fin 40)).fold max ⊥ (fun c => v (ix2 p c)) := by
  refine (Ideal.multiReduction_maximumf_single v 0xFF800000#32 reduces_S5000x40_S5000 hφ hacc (ix1 p)).trans ?_
  show (Finset.univ : Finset (Fin 40)).fold max (Ideal.ofBits .f32 0xFF800000#32) (v ∘ reduces_S5000x40_S5000.lift (ix1 p)) = _
  rw [ofBits_negInf]
  exact congrArg (fun f => (Finset.univ : Finset (Fin 40)).fold max ⊥ f) (funext fun c => congrArg v (lift_row p c))

/-- The sum of each row of a block, started from zero: at row `p`, the sum of the row's 40 entries. -/
theorem rowSumRed_apply (v : FVec Ideal S5000x40 .f32) (hφ : FKind.Formats .f32)
    (hacc : (0x00000000#32 : BitVec 32) = 0x00000000#32) (p : Fin 5000) :
    multiReduction .add [1] S5000 v 0x00000000#32 reduces_S5000x40_S5000 hφ hacc (ix1 p) = ∑ c : Fin 40, v (ix2 p c) := by
  refine (Ideal.multiReduction_add_single v 0x00000000#32 reduces_S5000x40_S5000 hφ hacc (ix1 p)).trans ?_
  exact Finset.sum_congr rfl fun c _ => congrArg v (lift_row p c)

/-- The exponential of an entry less its row's largest entry, as the body forms it, at row `p`, class `c`. -/
theorem expShift_apply (v : FVec Ideal S5000x40 .f32) (hφ : FKind.Formats .f32)
    (hacc : (0xFF800000#32 : BitVec 32) = 0xFF800000#32) (p : Fin 5000) (c : Fin 40) :
    exp (subf v (broadcastTo S5000x40 (shapeCast S5000x1
        (multiReduction .maximumf [1] S5000 v 0xFF800000#32 reduces_S5000x40_S5000 hφ hacc) shapeCasts_S5000_S5000x1)
        broadcasts_S5000x1_S5000x40)) (ix2 p c)
      = Ideal.exp (v (ix2 p c) - (Finset.univ : Finset (Fin 40)).fold max ⊥ (fun c' => v (ix2 p c'))) := by
  rw [exp_apply, subf_apply, colBroadcast40_apply, asColumn_apply, rowMaxRed_apply]

/-- The largest entry of a row of the block's score vector is the block's row maximum. -/
theorem rowMax_scoresVec (x0 : Vec Ideal S5000x40 .f32) (x2 : Vec Ideal S5000x1 .f32) (x6 : Vec Ideal S5000x64 .f32)
    (x9 : Vec Ideal S64x40 .f32) (x13 : Vec Ideal S1x40 .f32) (p : Fin 5000) :
    (Finset.univ : Finset (Fin 40)).fold max ⊥ (fun c => scoresVec x0 x2 x6 x9 x13 (ix2 p c)) = blockRowMax x0 x2 x6 x9 x13 p :=
  congrArg (fun f => (Finset.univ : Finset (Fin 40)).fold max ⊥ f) (funext fun c => scoresVec_apply x0 x2 x6 x9 x13 p c)

/-- The last layer's stored block at row `p`, column `q`: the score less the row's maximum, less the
    logarithm of the row's sum of exponentials of the scores less the maximum. -/
theorem final_at (x0 : Vec Ideal S5000x40 .f32) (x2 : Vec Ideal S5000x1 .f32) (x6 : Vec Ideal S5000x64 .f32)
    (x9 : Vec Ideal S64x40 .f32) (x13 : Vec Ideal S1x40 .f32) (p : Fin 5000) (q : Fin 40) :
    k3_pay1 (F := Ideal) x0 x2 x6 x9 x13 (ix2 p q)
      = (blockScores x0 x2 x6 x9 x13 p q - blockRowMax x0 x2 x6 x9 x13 p)
        - Ideal.log (∑ c : Fin 40, Ideal.exp (blockScores x0 x2 x6 x9 x13 p c - blockRowMax x0 x2 x6 x9 x13 p)) := by
  unfold k3_pay1
  simp only [shapeCast_self]
  rw [show (addf (addf (mulf x0 (broadcastTo S5000x40 x2 broadcasts_S5000x1_S5000x40))
      (matmul dot_S5000x64_S64x40_S5000x40_1_0_0_1_n_n none (truncf .bf16 x6 bitsLt_bf16_f32) (truncf .bf16 x9 bitsLt_bf16_f32)
        (constant S5000x40 .f32 0x00000000#32)))
      (broadcastTo S5000x40 x13 broadcasts_S1x40_S5000x40) : FVec Ideal S5000x40 .f32) = scoresVec x0 x2 x6 x9 x13 from rfl]
  rw [subf_apply, subf_apply, colBroadcast40_apply, colBroadcast40_apply, log_apply, asColumn_apply, asColumn_apply,
    rowMaxRed_apply, rowSumRed_apply, rowMax_scoresVec, scoresVec_apply]
  refine congrArg (fun z => blockScores x0 x2 x6 x9 x13 p q - blockRowMax x0 x2 x6 x9 x13 p - Ideal.log z)
    (Finset.sum_congr rfl fun c _ => ?_)
  rw [expShift_apply, rowMax_scoresVec, scoresVec_apply]

end Cert.MeanAgg.Body

end
-- ==== Proof.KernelRegions.lean ====
/-
  Each of the four kernel calls, from the blocks its grid points write back to the whole array it leaves.

  A call visits 20 grid points.  At point `t` its row-wise operands are staged as the block of rows
  5000·t … 5000·t + 4999, its weight matrices and bias whole, and the block it writes back is rows
  5000·t … 5000·t + 4999 of the result.  Row `p` of a block is row 5000·t + p of the array, so what the body
  computes at row `p` of its block is the layer's formula at that row of the arrays; the 20 blocks tile the
  100000 rows, so the array the call leaves is the layer's formula everywhere.  All of it is stated for any
  contents `V` the buffers may hold when the call is entered.
-/
import proofs.«169150_j15985868276093_2_alg».proof.Proof.Patched.KernelIdeal.Frame
import proofs.«169150_j15985868276093_2_alg».proof.Proof.KernelBody
import proofs.«169150_j15985868276093_2_alg».proof.Proof.KernelBodyCls
import proofs.«169150_j15985868276093_2_alg».proof.Proof.Spec
import Idealize.ShloMosaic.Lib.Pipeline.Value
import Idealize.ShloMosaic.Lib.ValueIdx

set_option maxRecDepth 16384

noncomputable section

open scoped BigOperators

namespace Cert.MeanAgg.Region

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.MeanAgg Cert.MeanAgg.Body

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t`, as a row of the array: row 5000·t + p. -/
def rowAt (tv : Nat) (ht : tv < 20) (p : Fin 5000) : Fin 100000 := ⟨tv * 5000 + p.val, by have := p.isLt; omega⟩

/-- An array's contents, typed as extended reals over its literal shape. -/
abbrev asArr {S : Shape} (f : S.Idx → EReal) : S.Idx → EReal := f

/-- A bias row held as a 1 by 64 array, read as a vector of 64. -/
def biasRow64 (b : S1x64.Idx → EReal) : BiasH.Idx → EReal := fun i => b (ix2 (0 : Fin 1) (i 0))

/-! ## The first hidden layer's call -/

/-- The printed index maps of this call, decided over its 20 points: the row-wise windows are at block `t`,
    the matrices and the bias at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! Where each window's block sits in its array: entry `(p, k)` of block `t`. -/

theorem emb0_0 (t : Fin cfg0.N) (p : Fin 5000) (k : Fin 64) :
    ((cfg0.win 0).blk t).view.emb (ix2 p k) = ix2 (rowAt t.val t.isLt p) k := by
  have hI := idx0 t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

theorem emb0_1 (t : Fin cfg0.N) (p : Fin 5000) (k : Fin 64) :
    ((cfg0.win 1).blk t).view.emb (ix2 p k) = ix2 (rowAt t.val t.isLt p) k := by
  have hI := idx0 t
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

theorem emb0_2 (t : Fin cfg0.N) (p : Fin 5000) (k : Fin 1) :
    ((cfg0.win 2).blk t).view.emb (ix2 p k) = ix2 (rowAt t.val t.isLt p) k := by
  have hI := idx0 t
  funext a; apply Fin.ext
  match a with
  | ⟨0, _⟩ => show win0_2.index t (0 : Fin 2) * 5000 + 1 * p.val = t.val * 5000 + p.val; omega
  | ⟨1, _⟩ => show win0_2.index t (1 : Fin 2) * 1 + 1 * k.val = k.val; omega

theorem emb0_3 (t : Fin cfg0.N) (p : Fin 64) (k : Fin 64) :
    ((cfg0.win 3).blk t).view.emb (ix2 p k) = ix2 (p) k := by
  have hI := idx0 t
  funext a; apply Fin.ext
  match a with
  | ⟨0, _⟩ => show win0_3.index t (0 : Fin 2) * 64 + 1 * p.val = p.val; omega
  | ⟨1, _⟩ => show win0_3.index t (1 : Fin 2) * 64 + 1 * k.val = k.val; omega

theorem emb0_4 (t : Fin cfg0.N) (p : Fin 64) (k : Fin 64) :
    ((cfg0.win 4).blk t).view.emb (ix2 p k) = ix2 (p) k := by
  have hI := idx0 t
  funext a; apply Fin.ext
  match a with
  | ⟨0, _⟩ => show win0_4.index t (0 : Fin 2) * 64 + 1 * p.val = p.val; omega
  | ⟨1, _⟩ => show win0_4.index t (1 : Fin 2) * 64 + 1 * k.val = k.val; omega

theorem emb0_5 (t : Fin cfg0.N) (p : Fin 1) (k : Fin 64) :
    ((cfg0.win 5).blk t).view.emb (ix2 p k) = ix2 (p) k := by
  have hI := idx0 t
  funext a; apply Fin.ext
  match a with
  | ⟨0, _⟩ => show win0_5.index t (0 : Fin 2) * 1 + 1 * p.val = p.val; omega
  | ⟨1, _⟩ => show win0_5.index t (1 : Fin 2) * 64 + 1 * k.val = k.val; omega

theorem emb0_6 (t : Fin cfg0.N) (p : Fin 5000) (k : Fin 64) :
    ((cfg0.win 6).blk t).view.emb (ix2 p k) = ix2 (rowAt t.val t.isLt p) k := by
  have hI := idx0 t
  funext a; apply Fin.ext
  match a with
  | ⟨0, _⟩ => show win0_6.index t (0 : Fin 2) * 5000 + 1 * p.val = t.val * 5000 + p.val; omega
  | ⟨1, _⟩ => show win0_6.index t (1 : Fin 2) * 64 + 1 * k.val = k.val; omega

/-- What this call leaves in its result array: the hidden layer of the arrays it was entered with. -/
def G0 (c : Dev nD) : NodeFeat.Idx → EReal :=
  hidden (V c main_v25) (V c main_arg0) (V c main_v12) (V c main_arg2) (V c main_arg3) (biasRow64 (V c main_v13))

set_option maxHeartbeats 1000000 in
/-- What point `t` of this call writes back is block `t` of that array. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 j⟩
  show k0_pay1 (F := Ideal) (iblk0 V c 0 t) (iblk0 V c 2 t) (iblk0 V c 1 t) (iblk0 V c 3 t) (iblk0 V c 4 t) (iblk0 V c 5 t) (ix2 p q)
      = G0 V c (((cfg0.win 6).blk t).view.emb (ix2 p q))
  refine (hidden0_at (iblk0 V c 0 t) (iblk0 V c 2 t) (iblk0 V c 1 t) (iblk0 V c 3 t) (iblk0 V c 4 t) (iblk0 V c 5 t) p q).trans ?_
  rw [emb0_6]
  show max (((∑ k : Fin 64, (asArr (S := S100000x64) (V c main_v25) (((cfg0.win 0).blk t).view.emb (ix2 p k))
          * asArr (S := S100000x1) (V c main_v12) (((cfg0.win 2).blk t).view.emb (ix2 p (0 : Fin 1))))
        * asArr (S := S64x64) (V c main_arg2) (((cfg0.win 3).blk t).view.emb (ix2 k q)))
      + ∑ k : Fin 64, asArr (S := S100000x64) (V c main_arg0) (((cfg0.win 1).blk t).view.emb (ix2 p k))
          * asArr (S := S64x64) (V c main_arg3) (((cfg0.win 4).blk t).view.emb (ix2 k q)))
      + asArr (S := S1x64) (V c main_v13) (((cfg0.win 5).blk t).view.emb (ix2 (0 : Fin 1) q))) (0 : EReal)
    = max (((∑ k : Fin 64, (asArr (S := S100000x64) (V c main_v25) (ix2 (rowAt t.val t.isLt p) k)
          * asArr (S := S100000x1) (V c main_v12) (ix2 (rowAt t.val t.isLt p) (0 : Fin 1)))
        * asArr (S := S64x64) (V c main_arg2) (ix2 k q))
      + ∑ k : Fin 64, asArr (S := S100000x64) (V c main_arg0) (ix2 (rowAt t.val t.isLt p) k) * asArr (S := S64x64) (V c main_arg3) (ix2 k q))
      + asArr (S := S1x64) (V c main_v13) (ix2 (0 : Fin 1) q)) (0 : EReal)
  refine congrArg (fun z => max z (0 : EReal)) (congrArg₂ (· + ·) (congrArg₂ (· + ·)
    (Finset.sum_congr rfl fun k _ => ?_) (Finset.sum_congr rfl fun k _ => ?_)) ?_)
  · rw [emb0_0, emb0_2, emb0_3]
  · rw [emb0_1, emb0_4]
  · rw [emb0_5]

/-- An index of the result array is in point `t`'s block when each coordinate is in the block's range. -/
theorem mem_blk0 (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v26).slice (win0_6.rect t)).set ↔ _
  rw [View.set_slice_whole, Rect.mem_set_unit]
  exact Iff.rfl

/-- Every row of the result is in some point's block: row `r` in block `r / 5000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 5000 < 20 := by omega
  refine ⟨⟨(i 0).val / 5000, ht⟩, flush0_6 _, ?_⟩
  rw [mem_blk0]
  have hI := idx0 ⟨(i 0).val / 5000, ht⟩
  have e0 : win0_6.index ⟨(i 0).val / 5000, ht⟩ (0 : Fin 2) = (i 0).val / 5000 := hI.2.2.2.2.2.2.2.2.2.2.2.2.1
  have e1 : win0_6.index ⟨(i 0).val / 5000, ht⟩ (1 : Fin 2) = 0 := hI.2.2.2.2.2.2.2.2.2.2.2.2.2
  intro a
  match a with
  | ⟨0, _⟩ => show win0_6.index ⟨(i 0).val / 5000, ht⟩ (0 : Fin 2) * 5000 ≤ (i 0).val ∧ (i 0).val < win0_6.index ⟨(i 0).val / 5000, ht⟩ (0 : Fin 2) * 5000 + 5000; omega
  | ⟨1, _⟩ => show win0_6.index ⟨(i 0).val / 5000, ht⟩ (1 : Fin 2) * 64 ≤ (i 1).val ∧ (i 1).val < win0_6.index ⟨(i 0).val / 5000, ht⟩ (1 : Fin 2) * 64 + 64; omega

/-- The array this call leaves: the hidden layer of the arrays it was entered with. -/
theorem final0 (c : Dev nD) : (dat0 V c).arrAt 6 cfg0.N = G0 V c :=
  (dat0 V c).arrAt_eq_of_cover 6 (G0 V c) (fun t _ => flushed0 V c t) cover0

/-! ## The second hidden layer's call -/

/-- The printed index maps of this call, decided over its 20 points: the row-wise windows are at block `t`,
    the matrices and the bias at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! Where each window's block sits in its array: entry `(p, k)` of block `t`. -/

theorem emb1_0 (t : Fin cfg1.N) (p : Fin 5000) (k : Fin 64) :
    ((cfg1.win 0).blk t).view.emb (ix2 p k) = ix2 (rowAt t.val t.isLt p) k := by
  have hI := idx1 t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

theorem emb1_1 (t : Fin cfg1.N) (p : Fin 5000) (k : Fin 64) :
    ((cfg1.win 1).blk t).view.emb (ix2 p k) = ix2 (rowAt t.val t.isLt p) k := by
  have hI := idx1 t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

theorem emb1_2 (t : Fin cfg1.N) (p : Fin 5000) (k : Fin 1) :
    ((cfg1.win 2).blk t).view.emb (ix2 p k) = ix2 (rowAt t.val t.isLt p) k := by
  have hI := idx1 t
  funext a; apply Fin.ext
  match a with
  | ⟨0, _⟩ => show win1_2.index t (0 : Fin 2) * 5000 + 1 * p.val = t.val * 5000 + p.val; omega
  | ⟨1, _⟩ => show win1_2.index t (1 : Fin 2) * 1 + 1 * k.val = k.val; omega

theorem emb1_3 (t : Fin cfg1.N) (p : Fin 64) (k : Fin 64) :
    ((cfg1.win 3).blk t).view.emb (ix2 p k) = ix2 (p) k := by
  have hI := idx1 t
  funext a; apply Fin.ext
  match a with
  | ⟨0, _⟩ => show win1_3.index t (0 : Fin 2) * 64 + 1 * p.val = p.val; omega
  | ⟨1, _⟩ => show win1_3.index t (1 : Fin 2) * 64 + 1 * k.val = k.val; omega

theorem emb1_4 (t : Fin cfg1.N) (p : Fin 64) (k : Fin 64) :
    ((cfg1.win 4).blk t).view.emb (ix2 p k) = ix2 (p) k := by
  have hI := idx1 t
  funext a; apply Fin.ext
  match a with
  | ⟨0, _⟩ => show win1_4.index t (0 : Fin 2) * 64 + 1 * p.val = p.val; omega
  | ⟨1, _⟩ => show win1_4.index t (1 : Fin 2) * 64 + 1 * k.val = k.val; omega

theorem emb1_5 (t : Fin cfg1.N) (p : Fin 1) (k : Fin 64) :
    ((cfg1.win 5).blk t).view.emb (ix2 p k) = ix2 (p) k := by
  have hI := idx1 t
  funext a; apply Fin.ext
  match a with
  | ⟨0, _⟩ => show win1_5.index t (0 : Fin 2) * 1 + 1 * p.val = p.val; omega
  | ⟨1, _⟩ => show win1_5.index t (1 : Fin 2) * 64 + 1 * k.val = k.val; omega

theorem emb1_6 (t : Fin cfg1.N) (p : Fin 5000) (k : Fin 64) :
    ((cfg1.win 6).blk t).view.emb (ix2 p k) = ix2 (rowAt t.val t.isLt p) k := by
  have hI := idx1 t
  funext a; apply Fin.ext
  match a with
  | ⟨0, _⟩ => show win1_6.index t (0 : Fin 2) * 5000 + 1 * p.val = t.val * 5000 + p.val; omega
  | ⟨1, _⟩ => show win1_6.index t (1 : Fin 2) * 64 + 1 * k.val = k.val; omega

/-- What this call leaves in its result array: the hidden layer of the arrays it was entered with. -/
def G1 (c : Dev nD) : NodeFeat.Idx → EReal :=
  hidden (V c main_v36) (V c main_v26) (V c main_v12) (V c main_arg5) (V c main_arg6) (biasRow64 (V c main_v14))

set_option maxHeartbeats 1000000 in
/-- What point `t` of this call writes back is block `t` of that array. -/
theorem flushed1 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 j⟩
  show k1_pay1 (F := Ideal) (iblk1 V c 0 t) (iblk1 V c 2 t) (iblk1 V c 1 t) (iblk1 V c 3 t) (iblk1 V c 4 t) (iblk1 V c 5 t) (ix2 p q)
      = G1 V c (((cfg1.win 6).blk t).view.emb (ix2 p q))
  refine (hidden1_at (iblk1 V c 0 t) (iblk1 V c 2 t) (iblk1 V c 1 t) (iblk1 V c 3 t) (iblk1 V c 4 t) (iblk1 V c 5 t) p q).trans ?_
  rw [emb1_6]
  show max (((∑ k : Fin 64, (asArr (S := S100000x64) (V c main_v36) (((cfg1.win 0).blk t).view.emb (ix2 p k))
          * asArr (S := S100000x1) (V c main_v12) (((cfg1.win 2).blk t).view.emb (ix2 p (0 : Fin 1))))
        * asArr (S := S64x64) (V c main_arg5) (((cfg1.win 3).blk t).view.emb (ix2 k q)))
      + ∑ k : Fin 64, asArr (S := S100000x64) (V c main_v26) (((cfg1.win 1).blk t).view.emb (ix2 p k))
          * asArr (S := S64x64) (V c main_arg6) (((cfg1.win 4).blk t).view.emb (ix2 k q)))
      + asArr (S := S1x64) (V c main_v14) (((cfg1.win 5).blk t).view.emb (ix2 (0 : Fin 1) q))) (0 : EReal)
    = max (((∑ k : Fin 64, (asArr (S := S100000x64) (V c main_v36) (ix2 (rowAt t.val t.isLt p) k)
          * asArr (S := S100000x1) (V c main_v12) (ix2 (rowAt t.val t.isLt p) (0 : Fin 1)))
        * asArr (S := S64x64) (V c main_arg5) (ix2 k q))
      + ∑ k : Fin 64, asArr (S := S100000x64) (V c main_v26) (ix2 (rowAt t.val t.isLt p) k) * asArr (S := S64x64) (V c main_arg6) (ix2 k q))
      + asArr (S := S1x64) (V c main_v14) (ix2 (0 : Fin 1) q)) (0 : EReal)
  refine congrArg (fun z => max z (0 : EReal)) (congrArg₂ (· + ·) (congrArg₂ (· + ·)
    (Finset.sum_congr rfl fun k _ => ?_) (Finset.sum_congr rfl fun k _ => ?_)) ?_)
  · rw [emb1_0, emb1_2, emb1_3]
  · rw [emb1_1, emb1_4]
  · rw [emb1_5]

/-- An index of the result array is in point `t`'s block when each coordinate is in the block's range. -/
theorem mem_blk1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v37).slice (win1_6.rect t)).set ↔ _
  rw [View.set_slice_whole, Rect.mem_set_unit]
  exact Iff.rfl

/-- Every row of the result is in some point's block: row `r` in block `r / 5000`. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have ht : (i 0).val / 5000 < 20 := by omega
  refine ⟨⟨(i 0).val / 5000, ht⟩, flush1_6 _, ?_⟩
  rw [mem_blk1]
  have hI := idx1 ⟨(i 0).val / 5000, ht⟩
  have e0 : win1_6.index ⟨(i 0).val / 5000, ht⟩ (0 : Fin 2) = (i 0).val / 5000 := hI.2.2.2.2.2.2.2.2.2.2.2.2.1
  have e1 : win1_6.index ⟨(i 0).val / 5000, ht⟩ (1 : Fin 2) = 0 := hI.2.2.2.2.2.2.2.2.2.2.2.2.2
  intro a
  match a with
  | ⟨0, _⟩ => show win1_6.index ⟨(i 0).val / 5000, ht⟩ (0 : Fin 2) * 5000 ≤ (i 0).val ∧ (i 0).val < win1_6.index ⟨(i 0).val / 5000, ht⟩ (0 : Fin 2) * 5000 + 5000; omega
  | ⟨1, _⟩ => show win1_6.index ⟨(i 0).val / 5000, ht⟩ (1 : Fin 2) * 64 ≤ (i 1).val ∧ (i 1).val < win1_6.index ⟨(i 0).val / 5000, ht⟩ (1 : Fin 2) * 64 + 64; omega

/-- The array this call leaves: the hidden layer of the arrays it was entered with. -/
theorem final1 (c : Dev nD) : (dat1 V c).arrAt 6 cfg1.N = G1 V c :=
  (dat1 V c).arrAt_eq_of_cover 6 (G1 V c) (fun t _ => flushed1 V c t) cover1

/-! ## The projection's call -/

/-- The printed index maps of the projection's call, decided over its 20 points: the node rows and the result are at
    block `t`, the matrix at block 0. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem emb2_0 (t : Fin cfg2.N) (p : Fin 5000) (k : Fin 64) :
    ((cfg2.win 0).blk t).view.emb (ix2 p k) = ix2 (rowAt t.val t.isLt p) k := by
  have hI := idx2 t
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

theorem emb2_1 (t : Fin cfg2.N) (p : Fin 64) (k : Fin 40) :
    ((cfg2.win 1).blk t).view.emb (ix2 p k) = ix2 (p) k := by
  have hI := idx2 t
  funext a; apply Fin.ext
  match a with
  | ⟨0, _⟩ => show win2_1.index t (0 : Fin 2) * 64 + 1 * p.val = p.val; omega
  | ⟨1, _⟩ => show win2_1.index t (1 : Fin 2) * 40 + 1 * k.val = k.val; omega

theorem emb2_2 (t : Fin cfg2.N) (p : Fin 5000) (k : Fin 40) :
    ((cfg2.win 2).blk t).view.emb (ix2 p k) = ix2 (rowAt t.val t.isLt p) k := by
  have hI := idx2 t
  funext a; apply Fin.ext
  match a with
  | ⟨0, _⟩ => show win2_2.index t (0 : Fin 2) * 5000 + 1 * p.val = t.val * 5000 + p.val; omega
  | ⟨1, _⟩ => show win2_2.index t (1 : Fin 2) * 40 + 1 * k.val = k.val; omega

/-- What the projection's call leaves in its result array: the node features against the matrix. -/
def G2 (c : Dev nD) : NodeCls.Idx → EReal := proj (V c main_v37) (V c main_arg8)

set_option maxHeartbeats 1000000 in
/-- What point `t` of the projection's call writes back is block `t` of that array. -/
theorem flushed2 (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x40) hz]
  funext j
  obtain ⟨p, q, rfl⟩ : ∃ (p : Fin 5000) (q : Fin 40), j = ix2 p q := ⟨j 0, j 1, eq_ix2 j⟩
  show k2_pay1 (F := Ideal) (iblk2 V c 0 t) (iblk2 V c 1 t) (ix2 p q) = G2 V c (((cfg2.win 2).blk t).view.emb (ix2 p q))
  refine (proj_at (iblk2 V c 0 t) (iblk2 V c 1 t) p q).trans ?_
  rw [emb2_2]
  show (∑ k : Fin 64, asArr (S := S100000x64) (V c main_v37) (((cfg2.win 0).blk t).view.emb (ix2 p k))
      * asArr (S := S64x40) (V c main_arg8) (((cfg2.win 1).blk t).view.emb (ix2 k q)))
    = ∑ k : Fin 64, asArr (S := S100000x64) (V c main_v37) (ix2 (rowAt t.val t.isLt p) k) * asArr (S := S64x40) (V c main_arg8) (ix2 k q)
  refine Finset.sum_congr rfl fun k _ => ?_
  rw [emb2_0, emb2_1]

/-- An index of the result array is in point `t`'s block when each coordinate is in the block's range. -/
theorem mem_blk2 (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v38).slice (win2_2.rect t)).set ↔ _
  rw [View.set_slice_whole, Rect.mem_set_unit]
  exact Iff.rfl

/-- Every row of the result is in some point's block: row `r` in block `r / 5000`. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have ht : (i 0).val / 5000 < 20 := by omega
  refine ⟨⟨(i 0).val / 5000, ht⟩, flush2_2 _, ?_⟩
  rw [mem_blk2]
  have hI := idx2 ⟨(i 0).val / 5000, ht⟩
  have e0 : win2_2.index ⟨(i 0).val / 5000, ht⟩ (0 : Fin 2) = (i 0).val / 5000 := hI.2.2.2.2.1
  have e1 : win2_2.index ⟨(i 0).val / 5000, ht⟩ (1 : Fin 2) = 0 := hI.2.2.2.2.2
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; omega
  | ⟨1, _⟩ => show win2_2.index ⟨(i 0).val / 5000, ht⟩ (1 : Fin 2) * 40 ≤ (i 1).val ∧ (i 1).val < win2_2.index ⟨(i 0).val / 5000, ht⟩ (1 : Fin 2) * 40 + 40; omega

/-- The array the projection's call leaves. -/
theorem final2 (c : Dev nD) : (dat2 V c).arrAt 2 cfg2.N = G2 V c :=
  (dat2 V c).arrAt_eq_of_cover 2 (G2 V c) (fun t _ => flushed2 V c t) cover2

/-! ## The last layer's call -/

/-- A bias row held as a 1 by 40 array, read as a vector of 40. -/
def biasRow40 (b : S1x40.Idx → EReal) : BiasC.Idx → EReal := fun i => b (ix2 (0 : Fin 1) (i 0))

/-- The printed index maps of the last call, decided over its 20 points: the row-wise windows are at block `t`,
    the matrix and the bias at block 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem emb3_0 (t : Fin cfg3.N) (p : Fin 5000) (k : Fin 40) :
    ((cfg3.win 0).blk t).view.emb (ix2 p k) = ix2 (rowAt t.val t.isLt p) k := by
  have hI := idx3 t
  funext a; apply Fin.ext
  match a with
  | ⟨0, _⟩ => show win3_0.index t (0 : Fin 2) * 5000 + 1 * p.val = t.val * 5000 + p.val; omega
  | ⟨1, _⟩ => show win3_0.index t (1 : Fin 2) * 40 + 1 * k.val = k.val; omega

theorem emb3_1 (t : Fin cfg3.N) (p : Fin 5000) (k : Fin 64) :
    ((cfg3.win 1).blk t).view.emb (ix2 p k) = ix2 (rowAt t.val t.isLt p) k := by
  have hI := idx3 t
  funext a; apply Fin.ext
  match a with
  | ⟨0, _⟩ => show win3_1.index t (0 : Fin 2) * 5000 + 1 * p.val = t.val * 5000 + p.val; omega
  | ⟨1, _⟩ => show win3_1.index t (1 : Fin 2) * 64 + 1 * k.val = k.val; omega

theorem emb3_2 (t : Fin cfg3.N) (p : Fin 5000) (k : Fin 1) :
    ((cfg3.win 2).blk t).view.emb (ix2 p k) = ix2 (rowAt t.val t.isLt p) k := by
  have hI := idx3 t
  funext a; apply Fin.ext
  match a with
  | ⟨0, _⟩ => show win3_2.index t (0 : Fin 2) * 5000 + 1 * p.val = t.val * 5000 + p.val; omega
  | ⟨1, _⟩ => show win3_2.index t (1 : Fin 2) * 1 + 1 * k.val = k.val; omega

theorem emb3_3 (t : Fin cfg3.N) (p : Fin 64) (k : Fin 40) :
    ((cfg3.win 3).blk t).view.emb (ix2 p k) = ix2 (p) k := by
  have hI := idx3 t
  funext a; apply Fin.ext
  match a with
  | ⟨0, _⟩ => show win3_3.index t (0 : Fin 2) * 64 + 1 * p.val = p.val; omega
  | ⟨1, _⟩ => show win3_3.index t (1 : Fin 2) * 40 + 1 * k.val = k.val; omega

theorem emb3_4 (t : Fin cfg3.N) (p : Fin 1) (k : Fin 40) :
    ((cfg3.win 4).blk t).view.emb (ix2 p k) = ix2 (p) k := by
  have hI := idx3 t
  funext a; apply Fin.ext
  match a with
  | ⟨0, _⟩ => show win3_4.index t (0 : Fin 2) * 1 + 1 * p.val = p.val; omega
  | ⟨1, _⟩ => show win3_4.index t (1 : Fin 2) * 40 + 1 * k.val = k.val; omega

theorem emb3_5 (t : Fin cfg3.N) (p : Fin 5000) (k : Fin 40) :
    ((cfg3.win 5).blk t).view.emb (ix2 p k) = ix2 (rowAt t.val t.isLt p) k := by
  have hI := idx3 t
  funext a; apply Fin.ext
  match a with
  | ⟨0, _⟩ => show win3_5.index t (0 : Fin 2) * 5000 + 1 * p.val = t.val * 5000 + p.val; omega
  | ⟨1, _⟩ => show win3_5.index t (1 : Fin 2) * 40 + 1 * k.val = k.val; omega

/-- The class scores the last call forms, of the arrays it was entered with. -/
def S3 (c : Dev nD) : NodeCls.Idx → EReal :=
  scoresProjFirst (V c main_v48) (V c main_v37) (V c main_v12) (V c main_arg9) (biasRow40 (V c main_v15))

/-- What the last call leaves in its result array: the row-wise log-softmax of those scores. -/
def G3 (c : Dev nD) : NodeCls.Idx → EReal := logSoftmax (S3 V c)

set_option maxHeartbeats 1000000 in
/-- The scores of block `t` at row `p` are the array's scores at row 5000·t + p. -/
theorem blockScores3 (c : Dev nD) (t : Fin cfg3.N) (p : Fin 5000) (q : Fin 40) :
    blockScores (iblk3 V c 0 t) (iblk3 V c 2 t) (iblk3 V c 1 t) (iblk3 V c 3 t) (iblk3 V c 4 t) p q = S3 V c (ix2 (rowAt t.val t.isLt p) q) := by
  show ((asArr (S := S100000x40) (V c main_v48) (((cfg3.win 0).blk t).view.emb (ix2 p q))
        * asArr (S := S100000x1) (V c main_v12) (((cfg3.win 2).blk t).view.emb (ix2 p (0 : Fin 1))))
      + ∑ k : Fin 64, asArr (S := S100000x64) (V c main_v37) (((cfg3.win 1).blk t).view.emb (ix2 p k))
          * asArr (S := S64x40) (V c main_arg9) (((cfg3.win 3).blk t).view.emb (ix2 k q)))
      + asArr (S := S1x40) (V c main_v15) (((cfg3.win 4).blk t).view.emb (ix2 (0 : Fin 1) q))
    = ((asArr (S := S100000x40) (V c main_v48) (ix2 (rowAt t.val t.isLt p) q) * asArr (S := S100000x1) (V c main_v12) (ix2 (rowAt t.val t.isLt p) (0 : Fin 1)))
      + ∑ k : Fin 64, asArr (S := S100000x64) (V c main_v37) (ix2 (rowAt t.val t.isLt p) k) * asArr (S := S64x40) (V c main_arg9) (ix2 k q))
      + asArr (S := S1x40) (V c main_v15) (ix2 (0 : Fin 1) q)
  refine congrArg₂ (· + ·) (congrArg₂ (· + ·) ?_ (Finset.sum_congr rfl fun k _ => ?_)) ?_
  · rw [emb3_0, emb3_2]
  · rw [emb3_1, emb3_3]
  · rw [emb3_4]

/-- The largest score of row `p` of block `t` is the largest score of row 5000·t + p of the array. -/
theorem blockRowMax3 (c : Dev nD) (t : Fin cfg3.N) (p : Fin 5000) :
    blockRowMax (iblk3 V c 0 t) (iblk3 V c 2 t) (iblk3 V c 1 t) (iblk3 V c 3 t) (iblk3 V c 4 t) p = rowMax (S3 V c) (rowAt t.val t.isLt p) := by
  unfold blockRowMax rowMax
  exact congrArg (fun f => (Finset.univ : Finset (Fin 40)).fold max ⊥ f) (funext fun q' => blockScores3 V c t p q')

set_option maxHeartbeats 1000000 in
/-- What point `t` of the last call writes back is block `t` of that array. -/
theorem flushed3 (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz]
  simp only [View.ld_unit_zero (S := S5000x40) hz, View.ld_unit_zero (S := S5000x1) hz, View.ld_unit_zero (S := S5000x64) hz,
    View.ld_unit_zero (S := S64x40) hz, View.ld_unit_zero (S := S1x40) hz]
  funext j
  obtain ⟨p, q, rfl⟩ : ∃ (p : Fin 5000) (q : Fin 40), j = ix2 p q := ⟨j 0, j 1, eq_ix2 j⟩
  show k3_pay1 (F := Ideal) (iblk3 V c 0 t) (iblk3 V c 2 t) (iblk3 V c 1 t) (iblk3 V c 3 t) (iblk3 V c 4 t) (ix2 p q)
      = G3 V c (((cfg3.win 5).blk t).view.emb (ix2 p q))
  refine (final_at (iblk3 V c 0 t) (iblk3 V c 2 t) (iblk3 V c 1 t) (iblk3 V c 3 t) (iblk3 V c 4 t) p q).trans ?_
  rw [emb3_5, blockRowMax3, blockScores3]
  show _ = (S3 V c (ix2 (rowAt t.val t.isLt p) q) - rowMax (S3 V c) (rowAt t.val t.isLt p))
      - Ideal.log (∑ c' : Fin 40, Ideal.exp (S3 V c (ix2 (rowAt t.val t.isLt p) c') - rowMax (S3 V c) (rowAt t.val t.isLt p)))
  refine congrArg (fun z => S3 V c (ix2 (rowAt t.val t.isLt p) q) - rowMax (S3 V c) (rowAt t.val t.isLt p) - Ideal.log z) (Finset.sum_congr rfl fun c' _ => ?_)
  rw [blockScores3]

/-- An index of the result array is in point `t`'s block when each coordinate is in the block's range. -/
theorem mem_blk3 (t : Fin cfg3.N) (i : S100000x40.Idx) :
    i ∈ ((cfg3.win 5).blk t).view.set ↔ ∀ a : Fin 2, win3_5.index t a * S5000x40.size a ≤ (i a).val
      ∧ (i a).val < win3_5.index t a * S5000x40.size a + S5000x40.size a := by
  show i ∈ ((View.whole main_v49).slice (win3_5.rect t)).set ↔ _
  rw [View.set_slice_whole, Rect.mem_set_unit]
  exact Iff.rfl

/-- Every row of the result is in some point's block: row `r` in block `r / 5000`. -/
theorem cover3 (i : S100000x40.Idx) : ∃ t : Fin cfg3.N, (cfg3.win 5).flush t = true ∧ i ∈ ((cfg3.win 5).blk t).view.set := by
  have hi0 : (i 0).val < 100000 := (i 0).isLt
  have hi1 : (i 1).val < 40 := (i 1).isLt
  have ht : (i 0).val / 5000 < 20 := by omega
  refine ⟨⟨(i 0).val / 5000, ht⟩, flush3_5 _, ?_⟩
  rw [mem_blk3]
  have hI := idx3 ⟨(i 0).val / 5000, ht⟩
  have e0 : win3_5.index ⟨(i 0).val / 5000, ht⟩ (0 : Fin 2) = (i 0).val / 5000 := hI.2.2.2.2.2.2.2.2.2.2.1
  have e1 : win3_5.index ⟨(i 0).val / 5000, ht⟩ (1 : Fin 2) = 0 := hI.2.2.2.2.2.2.2.2.2.2.2
  intro a
  match a with
  | ⟨0, _⟩ => show win3_5.index ⟨(i 0).val / 5000, ht⟩ (0 : Fin 2) * 5000 ≤ (i 0).val ∧ (i 0).val < win3_5.index ⟨(i 0).val / 5000, ht⟩ (0 : Fin 2) * 5000 + 5000; omega
  | ⟨1, _⟩ => show win3_5.index ⟨(i 0).val / 5000, ht⟩ (1 : Fin 2) * 40 ≤ (i 1).val ∧ (i 1).val < win3_5.index ⟨(i 0).val / 5000, ht⟩ (1 : Fin 2) * 40 + 40; omega

/-- The array the last call leaves. -/
theorem final3 (c : Dev nD) : (dat3 V c).arrAt 5 cfg3.N = G3 V c :=
  (dat3 V c).arrAt_eq_of_cover 5 (G3 V c) (fun t _ => flushed3 V c t) cover3

end Cert.MeanAgg.Region

end
-- ==== Proof.KernelHost.lean ====
/-
  The three stretches of host operations between the kernel's calls, read at the buffers the calls take.

  They are the reference's own operations under other buffer names: the edge endpoints cut out of the edge
  array, the degree count and its reciprocal, the bias vectors laid out as rows, and, three times, the
  neighbour sums — rows gathered by source, summed by destination.  So what a stretch leaves in a buffer is
  named by the reference's stage function of the same arrays, for any contents `X` the buffers hold when the
  stretch starts; a buffer a stretch does not write keeps its contents.
-/
import proofs.«169150_j15985868276093_2_alg».proof.Proof.Patched.KernelIdeal.Launch
import proofs.«169150_j15985868276093_2_alg».proof.Proof.Patched.ReferenceIdeal.Read
import Idealize.ShloMosaic.Lib.StableHlo.Run

set_option maxRecDepth 16384

noncomputable section

namespace Cert.MeanAgg.KernelHost

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v12 val_main_v22 val_main_v31 val_main_v41 val_main_v50 val_main_v56 val_main_v59)

variable (X : Valuation τ sig (Elt Ideal))

/-! ## The first stretch: from the launch memory to the first call -/

/-- The destination endpoints. -/
theorem host0_v1 : after hostOps0 X (Proc.devRef .tc main_v1) = val_main_v1 (F := Ideal) (X (Proc.devRef .tc main_arg1)) := by
  after_results_simp; rfl
/-- The source endpoints. -/
theorem host0_v3 : after hostOps0 X (Proc.devRef .tc main_v3) = val_main_v3 (F := Ideal) (X (Proc.devRef .tc main_arg1)) := by
  after_results_simp; rfl
/-- The reciprocal degrees, one column. -/
theorem host0_v12 : after hostOps0 X (Proc.devRef .tc main_v12) = val_main_v12 (F := Ideal) (X (Proc.devRef .tc main_arg1)) := by
  after_results_simp; rfl
/-- The first neighbour sums, of the input features. -/
theorem host0_v25 : after hostOps0 X (Proc.devRef .tc main_v25) = val_main_v22 (F := Ideal) (X (Proc.devRef .tc main_arg0)) (X (Proc.devRef .tc main_arg1)) := by
  after_results_simp; rfl
/-- The first bias as a row. -/
theorem host0_v13 : after hostOps0 X (Proc.devRef .tc main_v13) = shapeCast S1x64 (X (Proc.devRef .tc main_arg4)) shapeCasts_S64_S1x64 := by
  after_results_simp; rfl
/-- The second bias as a row. -/
theorem host0_v14 : after hostOps0 X (Proc.devRef .tc main_v14) = shapeCast S1x64 (X (Proc.devRef .tc main_arg7)) shapeCasts_S64_S1x64 := by
  after_results_simp; rfl
/-- The last bias as a row. -/
theorem host0_v15 : after hostOps0 X (Proc.devRef .tc main_v15) = shapeCast S1x40 (X (Proc.devRef .tc main_arg10)) shapeCasts_S40_S1x40 := by
  after_results_simp; rfl

theorem host0_keeps_main_arg0 : after hostOps0 X (Proc.devRef .tc main_arg0) = X (Proc.devRef .tc main_arg0) := by after_results_simp
theorem host0_keeps_main_arg2 : after hostOps0 X (Proc.devRef .tc main_arg2) = X (Proc.devRef .tc main_arg2) := by after_results_simp
theorem host0_keeps_main_arg3 : after hostOps0 X (Proc.devRef .tc main_arg3) = X (Proc.devRef .tc main_arg3) := by after_results_simp
theorem host0_keeps_main_arg5 : after hostOps0 X (Proc.devRef .tc main_arg5) = X (Proc.devRef .tc main_arg5) := by after_results_simp
theorem host0_keeps_main_arg6 : after hostOps0 X (Proc.devRef .tc main_arg6) = X (Proc.devRef .tc main_arg6) := by after_results_simp
theorem host0_keeps_main_arg8 : after hostOps0 X (Proc.devRef .tc main_arg8) = X (Proc.devRef .tc main_arg8) := by after_results_simp
theorem host0_keeps_main_arg9 : after hostOps0 X (Proc.devRef .tc main_arg9) = X (Proc.devRef .tc main_arg9) := by after_results_simp

/-! ## The second stretch: from the first call to the second -/

/-- The second neighbour sums, of the first hidden layer. -/
theorem host1_v36 (x0 : (⟨S100000x64, .f32⟩ : BufTy).Contents (Elt Ideal)) (x1 : (⟨S2x1250000, .i32⟩ : BufTy).Contents (Elt Ideal))
    (x2 x3 : (⟨S64x64, .f32⟩ : BufTy).Contents (Elt Ideal)) (x4 : (⟨S64, .f32⟩ : BufTy).Contents (Elt Ideal))
    (h26 : X (Proc.devRef .tc main_v26) = val_main_v31 (F := Ideal) x0 x1 x2 x3 x4)
    (h1 : X (Proc.devRef .tc main_v1) = val_main_v1 (F := Ideal) x1) (h3 : X (Proc.devRef .tc main_v3) = val_main_v3 (F := Ideal) x1) :
    after hostOps1 X (Proc.devRef .tc main_v36) = val_main_v41 (F := Ideal) x0 x1 x2 x3 x4 := by
  after_results_simp
  rw [h26, h1, h3]
  rfl

theorem host1_keeps_main_v26 : after hostOps1 X (Proc.devRef .tc main_v26) = X (Proc.devRef .tc main_v26) := by after_results_simp
theorem host1_keeps_main_v12 : after hostOps1 X (Proc.devRef .tc main_v12) = X (Proc.devRef .tc main_v12) := by after_results_simp
theorem host1_keeps_main_v14 : after hostOps1 X (Proc.devRef .tc main_v14) = X (Proc.devRef .tc main_v14) := by after_results_simp
theorem host1_keeps_main_v15 : after hostOps1 X (Proc.devRef .tc main_v15) = X (Proc.devRef .tc main_v15) := by after_results_simp
theorem host1_keeps_main_v1 : after hostOps1 X (Proc.devRef .tc main_v1) = X (Proc.devRef .tc main_v1) := by after_results_simp
theorem host1_keeps_main_v3 : after hostOps1 X (Proc.devRef .tc main_v3) = X (Proc.devRef .tc main_v3) := by after_results_simp
theorem host1_keeps_main_arg5 : after hostOps1 X (Proc.devRef .tc main_arg5) = X (Proc.devRef .tc main_arg5) := by after_results_simp
theorem host1_keeps_main_arg6 : after hostOps1 X (Proc.devRef .tc main_arg6) = X (Proc.devRef .tc main_arg6) := by after_results_simp
theorem host1_keeps_main_arg8 : after hostOps1 X (Proc.devRef .tc main_arg8) = X (Proc.devRef .tc main_arg8) := by after_results_simp
theorem host1_keeps_main_arg9 : after hostOps1 X (Proc.devRef .tc main_arg9) = X (Proc.devRef .tc main_arg9) := by after_results_simp

/-! ## The third stretch: from the projection's call to the last -/

/-- The third neighbour sums, of the 40 projected features `P`. -/
theorem host3_v48 (P : (⟨S100000x40, .f32⟩ : BufTy).Contents (Elt Ideal)) (x1 : (⟨S2x1250000, .i32⟩ : BufTy).Contents (Elt Ideal))
    (h38 : X (Proc.devRef .tc main_v38) = P)
    (h1 : X (Proc.devRef .tc main_v1) = val_main_v1 (F := Ideal) x1) (h3 : X (Proc.devRef .tc main_v3) = val_main_v3 (F := Ideal) x1) :
    after hostOps3 X (Proc.devRef .tc main_v48)
      = Host.scatterAdd (F := Ideal) scatter_S100000x40_S1250000x1_S1250000x40_1_0_0_1
          (broadcastInDim S100000x40 ![] bcast_S_S100000x40 (constant S_ .f32 0x00000000#32))
          (val_main_v59 (F := Ideal) x1)
          (Host.gather gather_S100000x40_S1250000x1_S1250000x40_1_0_n_n_0_1_140 P (val_main_v56 (F := Ideal) x1)) := by
  after_results_simp
  rw [h38, h1, h3]
  rfl

theorem host3_keeps_main_v37 : after hostOps3 X (Proc.devRef .tc main_v37) = X (Proc.devRef .tc main_v37) := by after_results_simp
theorem host3_keeps_main_v12 : after hostOps3 X (Proc.devRef .tc main_v12) = X (Proc.devRef .tc main_v12) := by after_results_simp
theorem host3_keeps_main_v15 : after hostOps3 X (Proc.devRef .tc main_v15) = X (Proc.devRef .tc main_v15) := by after_results_simp
theorem host3_keeps_main_arg9 : after hostOps3 X (Proc.devRef .tc main_arg9) = X (Proc.devRef .tc main_arg9) := by after_results_simp

end Cert.MeanAgg.KernelHost

end
-- ==== Proof.RefRead.lean ====
/-
  The reference program read as the specification's stage functions.

  Each of the reference's three layers is, index by index, a sum over the 64 shared features of
  (neighbour sum times reciprocal degree) times a weight, plus a bias, plus a second such sum of the
  layer's own input times a second weight; the two hidden layers end in a maximum with zero.  Here every layer is stopped at its
  scatter-add: the neighbour sums stay an unopened array read at an index.

  The reference adds the bias before the second product, the specification's hidden layer after it;
  addition on the extended reals is commutative and associative, so the two orders agree with no
  finiteness needed.
-/
import proofs.«169150_j15985868276093_2_alg».proof.Proof.Spec
import proofs.«169150_j15985868276093_2_alg».proof.Proof.Patched.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.MeanAgg.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.MeanAgg

/-! ## The specification's last layer at an index built from coordinates -/

theorem scoresAggFirst_apply (agg h : NodeFeat.Idx → EReal) (dinv : NodeCol.Idx → EReal) (Wl Wr : WCls.Idx → EReal)
    (b : BiasC.Idx → EReal) (r : Fin 100000) (c : Fin 40) :
    scoresAggFirst agg h dinv Wl Wr b (ix2 r c) = (scaledRowDot agg dinv Wl r c + b (ix1 c)) + rowDot h Wr r c := rfl

/-! ## The arguments of the reference's entry function, as the generated stage functions take them -/

variable (x0 : (⟨S100000x64, .f32⟩ : BufTy).Contents (Elt Ideal)) (x1 : (⟨S2x1250000, .i32⟩ : BufTy).Contents (Elt Ideal))
  (x2 x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64, .f32⟩ : BufTy).Contents (Elt Ideal))
  (x8 x9 : (⟨S64x40, .f32⟩ : BufTy).Contents (Elt Ideal)) (x10 : (⟨S40, .f32⟩ : BufTy).Contents (Elt Ideal))

/-! ## The composed index functions of the layout operations, as coordinates

  A product's left operand is read at (row, k) and its right operand at (k, column); the reciprocal-degree column
  broadcast along the features is read at (row, 0); a bias broadcast along the rows is read at its column. -/

section Indices
variable (r : Fin 100000) (c k : Fin 64) (d : Fin 40) (z : Fin 1)

theorem l25 : lidx_main_v25 (ix2 r c) k = ix2 r k := funext fun a => Fin.ext (by match a with | ⟨0, _⟩ => rfl | ⟨1, _⟩ => rfl)
theorem r25 : ridx_main_v25 (ix2 r c) k = ix2 k c := funext fun a => Fin.ext (by match a with | ⟨0, _⟩ => rfl | ⟨1, _⟩ => rfl)
theorem l29 : lidx_main_v29 (ix2 r c) k = ix2 r k := funext fun a => Fin.ext (by match a with | ⟨0, _⟩ => rfl | ⟨1, _⟩ => rfl)
theorem r29 : ridx_main_v29 (ix2 r c) k = ix2 k c := funext fun a => Fin.ext (by match a with | ⟨0, _⟩ => rfl | ⟨1, _⟩ => rfl)
theorem i23 : idx_main_v23 (ix2 r c) = ix2 r (0 : Fin 1) := funext fun a => Fin.ext (by match a with | ⟨0, _⟩ => rfl | ⟨1, _⟩ => rfl)
theorem i27 : idx_main_v27 (ix2 r c) = ix2 (0 : Fin 1) c := funext fun a => Fin.ext (by match a with | ⟨0, _⟩ => rfl | ⟨1, _⟩ => rfl)
theorem i26 : idx_main_v26 (ix2 z c) = ix1 c := funext fun a => Fin.ext (by match a with | ⟨0, _⟩ => rfl)

theorem l44 : lidx_main_v44 (ix2 r c) k = ix2 r k := funext fun a => Fin.ext (by match a with | ⟨0, _⟩ => rfl | ⟨1, _⟩ => rfl)
theorem r44 : ridx_main_v44 (ix2 r c) k = ix2 k c := funext fun a => Fin.ext (by match a with | ⟨0, _⟩ => rfl | ⟨1, _⟩ => rfl)
theorem l48 : lidx_main_v48 (ix2 r c) k = ix2 r k := funext fun a => Fin.ext (by match a with | ⟨0, _⟩ => rfl | ⟨1, _⟩ => rfl)
theorem r48 : ridx_main_v48 (ix2 r c) k = ix2 k c := funext fun a => Fin.ext (by match a with | ⟨0, _⟩ => rfl | ⟨1, _⟩ => rfl)
theorem i42 : idx_main_v42 (ix2 r c) = ix2 r (0 : Fin 1) := funext fun a => Fin.ext (by match a with | ⟨0, _⟩ => rfl | ⟨1, _⟩ => rfl)
theorem i46 : idx_main_v46 (ix2 r c) = ix2 (0 : Fin 1) c := funext fun a => Fin.ext (by match a with | ⟨0, _⟩ => rfl | ⟨1, _⟩ => rfl)
theorem i45 : idx_main_v45 (ix2 z c) = ix1 c := funext fun a => Fin.ext (by match a with | ⟨0, _⟩ => rfl)

theorem l63 : lidx_main_v63 (ix2 r d) k = ix2 r k := funext fun a => Fin.ext (by match a with | ⟨0, _⟩ => rfl | ⟨1, _⟩ => rfl)
theorem r63 : ridx_main_v63 (ix2 r d) k = ix2 k d := funext fun a => Fin.ext (by match a with | ⟨0, _⟩ => rfl | ⟨1, _⟩ => rfl)
theorem l67 : lidx_main_v67 (ix2 r d) k = ix2 r k := funext fun a => Fin.ext (by match a with | ⟨0, _⟩ => rfl | ⟨1, _⟩ => rfl)
theorem r67 : ridx_main_v67 (ix2 r d) k = ix2 k d := funext fun a => Fin.ext (by match a with | ⟨0, _⟩ => rfl | ⟨1, _⟩ => rfl)
theorem i61 : idx_main_v61 (ix2 r c) = ix2 r (0 : Fin 1) := funext fun a => Fin.ext (by match a with | ⟨0, _⟩ => rfl | ⟨1, _⟩ => rfl)
theorem i65 : idx_main_v65 (ix2 r d) = ix2 (0 : Fin 1) d := funext fun a => Fin.ext (by match a with | ⟨0, _⟩ => rfl | ⟨1, _⟩ => rfl)
theorem i64 : idx_main_v64 (ix2 z d) = ix1 d := funext fun a => Fin.ext (by match a with | ⟨0, _⟩ => rfl)

end Indices

/-! ## The three layers -/

/-- The first hidden layer: the specification's hidden layer of the first neighbour sums, the input features and the
    reciprocal degrees. -/
theorem hidden1 :
    val_main_v31 (F := Ideal) x0 x1 x2 x3 x4
      = hidden (val_main_v22 (F := Ideal) x0 x1) x0 (val_main_v12 (F := Ideal) x1) x2 x3 x4 := by
  funext i
  obtain ⟨r, c, rfl⟩ : ∃ (r : Fin 100000) (c : Fin 64), i = ix2 r c := ⟨i 0, i 1, eq_ix2 i⟩
  rw [hidden_apply, val_main_v31_apply, val_main_v30_apply, val_main_v28_apply, val_main_v25_apply, val_main_v29_apply,
    val_main_v27_apply, val_main_v26_apply, val_main_call0_v0_apply, val_main_call0_cst_apply]
  have e24 := val_main_v24_apply (F := Ideal) x0 x1
  have e23 := val_main_v23_apply (F := Ideal) x1
  have hmul : ∀ a b : Ideal .f32, FloatOps.mulf a b = a * b := fun _ _ => rfl
  have hadd : ∀ a b : Ideal .f32, FloatOps.addf a b = a + b := fun _ _ => rfl
  have hmax : ∀ a b : Ideal .f32, FloatOps.maximumf a b = max a b := fun _ _ => rfl
  have hz : FloatOps.ofBits (F := Ideal) .f32 0x00000000#32 = (0 : EReal) := Ideal.ofBits_zero_f32
  simp only [e24, e23, l25, r25, l29, r29, i23, i27, i26, hmul, hadd, hmax, hz]
  unfold hiddenAt scaledRowDot rowDot
  rw [add_right_comm]

/-- The second hidden layer: the same of the second neighbour sums and the first hidden layer. -/
theorem hidden2 :
    val_main_v50 (F := Ideal) x0 x1 x2 x3 x4 x5 x6 x7
      = hidden (val_main_v41 (F := Ideal) x0 x1 x2 x3 x4) (val_main_v31 (F := Ideal) x0 x1 x2 x3 x4)
          (val_main_v12 (F := Ideal) x1) x5 x6 x7 := by
  funext i
  obtain ⟨r, c, rfl⟩ : ∃ (r : Fin 100000) (c : Fin 64), i = ix2 r c := ⟨i 0, i 1, eq_ix2 i⟩
  rw [hidden_apply, val_main_v50_apply, val_main_v49_apply, val_main_v47_apply, val_main_v44_apply, val_main_v48_apply,
    val_main_v46_apply, val_main_v45_apply, val_main_call1_v0_apply, val_main_call1_cst_apply]
  have e43 := val_main_v43_apply (F := Ideal) x0 x1 x2 x3 x4
  have e42 := val_main_v42_apply (F := Ideal) x1
  have hmul : ∀ a b : Ideal .f32, FloatOps.mulf a b = a * b := fun _ _ => rfl
  have hadd : ∀ a b : Ideal .f32, FloatOps.addf a b = a + b := fun _ _ => rfl
  have hmax : ∀ a b : Ideal .f32, FloatOps.maximumf a b = max a b := fun _ _ => rfl
  have hz : FloatOps.ofBits (F := Ideal) .f32 0x00000000#32 = (0 : EReal) := Ideal.ofBits_zero_f32
  simp only [e43, e42, l44, r44, l48, r48, i42, i46, i45, hmul, hadd, hmax, hz]
  unfold hiddenAt scaledRowDot rowDot
  rw [add_right_comm]

/-- The class scores before the softmax: the specification's last layer in the order "aggregate, then project", of the
    third neighbour sums and the second hidden layer. -/
theorem scores :
    val_main_v68 (F := Ideal) x0 x1 x2 x3 x4 x5 x6 x7 x8 x9 x10
      = scoresAggFirst (val_main_v60 (F := Ideal) x0 x1 x2 x3 x4 x5 x6 x7) (val_main_v50 (F := Ideal) x0 x1 x2 x3 x4 x5 x6 x7)
          (val_main_v12 (F := Ideal) x1) x8 x9 x10 := by
  funext i
  obtain ⟨r, c, rfl⟩ : ∃ (r : Fin 100000) (c : Fin 40), i = ix2 r c := ⟨i 0, i 1, eq_ix2 i⟩
  rw [scoresAggFirst_apply, val_main_v68_apply, val_main_v66_apply, val_main_v63_apply, val_main_v67_apply,
    val_main_v65_apply, val_main_v64_apply]
  have e62 := val_main_v62_apply (F := Ideal) x0 x1 x2 x3 x4 x5 x6 x7
  have e61 := val_main_v61_apply (F := Ideal) x1
  have hmul : ∀ a b : Ideal .f32, FloatOps.mulf a b = a * b := fun _ _ => rfl
  have hadd : ∀ a b : Ideal .f32, FloatOps.addf a b = a + b := fun _ _ => rfl
  simp only [e62, e61, l63, r63, l67, r67, i61, i65, i64, hmul, hadd]
  unfold scaledRowDot rowDot
  with_reducible rfl

/-! ## The stages the layers stop at, unfolded one step

  The neighbour sums are a scatter-add, into zeros and by destination index, of the rows gathered by source index; the
  reciprocal-degree column is the broadcast of one over the larger of the in-degree (a scatter-add of ones) and one. -/

theorem v22_unfold :
    val_main_v22 (F := Ideal) x0 x1
      = Host.scatterAdd (F := Ideal) (φ := .f32) scatter_S100000x64_S1250000x1_S1250000x64_1_0_0_1 (val_main_v20 (F := Ideal))
          (val_main_v21 (F := Ideal) x1)
          (Host.gather (α := Ideal .f32) gather_S100000x64_S1250000x1_S1250000x64_1_0_n_n_0_1_164 x0 (val_main_v18 (F := Ideal) x1)) := by
  unfold val_main_v22 val_main_v19
  with_reducible rfl

theorem v41_unfold :
    val_main_v41 (F := Ideal) x0 x1 x2 x3 x4
      = Host.scatterAdd (F := Ideal) (φ := .f32) scatter_S100000x64_S1250000x1_S1250000x64_1_0_0_1 (val_main_v39 (F := Ideal))
          (val_main_v40 (F := Ideal) x1)
          (Host.gather (α := Ideal .f32) gather_S100000x64_S1250000x1_S1250000x64_1_0_n_n_0_1_164 (val_main_v31 (F := Ideal) x0 x1 x2 x3 x4)
            (val_main_v37 (F := Ideal) x1)) := by
  unfold val_main_v41 val_main_v38
  with_reducible rfl

theorem v60_unfold :
    val_main_v60 (F := Ideal) x0 x1 x2 x3 x4 x5 x6 x7
      = Host.scatterAdd (F := Ideal) (φ := .f32) scatter_S100000x64_S1250000x1_S1250000x64_1_0_0_1 (val_main_v58 (F := Ideal))
          (val_main_v59 (F := Ideal) x1)
          (Host.gather (α := Ideal .f32) gather_S100000x64_S1250000x1_S1250000x64_1_0_n_n_0_1_164 (val_main_v50 (F := Ideal) x0 x1 x2 x3 x4 x5 x6 x7)
            (val_main_v56 (F := Ideal) x1)) := by
  unfold val_main_v60 val_main_v57
  with_reducible rfl

theorem v12_unfold :
    val_main_v12 (F := Ideal) x1
      = broadcastInDim S100000x1 ![0] bcast_S100000_S100000x1_0 (val_main_v11 (F := Ideal) x1) := by
  unfold val_main_v12
  with_reducible rfl

/-- The reciprocal-degree column at row `r` is the reciprocal-degree vector's entry `r`. -/
theorem v12_apply (r : Fin 100000) (z : Fin 1) :
    val_main_v12 (F := Ideal) x1 (ix2 r z) = val_main_v11 (F := Ideal) x1 (ix1 r) := by
  rw [val_main_v12_apply]
  exact congrArg (val_main_v11 (F := Ideal) x1) (funext fun a => Fin.ext (by match a with | ⟨0, _⟩ => rfl))

theorem v11_unfold :
    val_main_v11 (F := Ideal) x1
      = Host.divf (F := Ideal) (φ := .f32) (val_main_v10 (F := Ideal))
          (maximumf (φ := .f32) (val_main_v7 (F := Ideal) x1) (val_main_v8 (F := Ideal))) := by
  unfold val_main_v11 val_main_v9
  with_reducible rfl

theorem v7_unfold :
    val_main_v7 (F := Ideal) x1
      = Host.scatterAdd (F := Ideal) (φ := .f32) scatter_S100000_S1250000x1_S1250000_n_0_0_1 (val_main_v5 (F := Ideal))
          (val_main_v6 (F := Ideal) x1) (val_main_v4 (F := Ideal)) := by
  unfold val_main_v7
  with_reducible rfl

end Cert.MeanAgg.Ref

end
-- ==== Proof.KernelValue.lean ====
/-
  What the idealized kernel's result array holds, as a term of the argument arrays.

  The run leaves at every buffer what the fold of the seven segments leaves there.  Walking the fold: the
  first call's result is the first hidden layer, which is the reference's first hidden layer of the same
  arguments; the second call's is the second hidden layer; the projection's call leaves those features
  against the last layer's first matrix; the last stretch of host operations sums the 40 projected features
  over each node's neighbours; and the last call leaves the row-wise log-softmax of the scores formed from
  those sums.  A buffer that a segment does not write, or only reads through an input window, keeps its
  contents across the segment, so each call finds the reciprocal degrees, the edge endpoints and the
  arguments as the first stretch left them.
-/
import proofs.«169150_j15985868276093_2_alg».proof.Proof.KernelRegions
import proofs.«169150_j15985868276093_2_alg».proof.Proof.KernelHost
import proofs.«169150_j15985868276093_2_alg».proof.Proof.RefRead

set_option maxRecDepth 16384

noncomputable section

namespace Cert.MeanAgg.KernelValue

open Idealize.ShloMosaic Idealize.ShloMosaic.ValueIdx Idealize.ShloMosaic.TcCoe Idealize.SL.Sem Idealize.ShloMosaic.StableHlo
open Idealize.ShloMosaic.Pipeline (Dat Cfg Window)
open Cert.KernelIdeal Cert.KernelIdeal.Gen Cert.MeanAgg Cert.MeanAgg.Region Cert.MeanAgg.KernelHost
open Cert.ReferenceIdeal.Read (val_main_v1 val_main_v3 val_main_v12 val_main_v22 val_main_v31 val_main_v41 val_main_v50 val_main_v56 val_main_v59)

variable (m : (ℓ : Loc nD τ sig) → Buf (Elt Ideal) ℓ) (ρ : Dev nD → PrngReg) (c : Dev nD)

/-! ## A bias laid out as a row and read back as a vector is the bias -/

theorem biasRow64_cast (b : S64.Idx → EReal) : biasRow64 (shapeCast S1x64 b shapeCasts_S64_S1x64) = b := by
  funext i
  obtain ⟨q, rfl⟩ : ∃ q : Fin 64, i = ix1 q := ⟨i 0, eq_ix1 i⟩
  show shapeCast S1x64 b shapeCasts_S64_S1x64 (ix2 (0 : Fin 1) q) = b (ix1 q)
  exact shapeCast_apply b shapeCasts_S64_S1x64 (ix2 (0 : Fin 1) q) (ix1 q) (by
    rw [Shape.rowMajor_val_one, Shape.rowMajor_val_two]; show q.val = 0 * 64 + q.val; omega)

theorem biasRow40_cast (b : S40.Idx → EReal) : biasRow40 (shapeCast S1x40 b shapeCasts_S40_S1x40) = b := by
  funext i
  obtain ⟨q, rfl⟩ : ∃ q : Fin 40, i = ix1 q := ⟨i 0, eq_ix1 i⟩
  show shapeCast S1x40 b shapeCasts_S40_S1x40 (ix2 (0 : Fin 1) q) = b (ix1 q)
  exact shapeCast_apply b shapeCasts_S40_S1x40 (ix2 (0 : Fin 1) q) (ix1 q) (by
    rw [Shape.rowMajor_val_one, Shape.rowMajor_val_two]; show q.val = 0 * 40 + q.val; omega)

/-! ## After the first stretch and the first call -/

/-- The first call leaves the reference's first hidden layer. -/
theorem W2_v26 : W2 m ρ c (Proc.devRef .tc main_v26) = (val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine ((W2_arr m ρ c 6).trans (final0 (V1 m ρ) c)).trans ?_
  show hidden (after hostOps0 (W0 m ρ c) (Proc.devRef .tc main_v25)) (after hostOps0 (W0 m ρ c) (Proc.devRef .tc main_arg0))
      (after hostOps0 (W0 m ρ c) (Proc.devRef .tc main_v12)) (after hostOps0 (W0 m ρ c) (Proc.devRef .tc main_arg2))
      (after hostOps0 (W0 m ρ c) (Proc.devRef .tc main_arg3)) (biasRow64 (after hostOps0 (W0 m ρ c) (Proc.devRef .tc main_v13))) = _
  rw [host0_v25, host0_keeps_main_arg0, host0_v12, host0_keeps_main_arg2, host0_keeps_main_arg3, host0_v13, biasRow64_cast]
  exact (Cert.MeanAgg.Ref.hidden1 _ _ _ _ _).symm

/-- The destination endpoints, as the first stretch left them. -/
theorem W2_v1 : W2 m ρ c (Proc.devRef .tc main_v1) = val_main_v1 (F := Ideal) (m ((c.tc : Thread nD τ).loc main_arg1)) :=
  (W2_of_ne m ρ c main_v1 (by decide)).trans (host0_v1 (W0 m ρ c))
/-- The source endpoints. -/
theorem W2_v3 : W2 m ρ c (Proc.devRef .tc main_v3) = val_main_v3 (F := Ideal) (m ((c.tc : Thread nD τ).loc main_arg1)) :=
  (W2_of_ne m ρ c main_v3 (by decide)).trans (host0_v3 (W0 m ρ c))
/-- The reciprocal degrees: the first call only reads them. -/
theorem W2_v12 : W2 m ρ c (Proc.devRef .tc main_v12) = (val_main_v12 (F := Ideal) (m ((c.tc : Thread nD τ).loc main_arg1))) :=
  ((W2_arr m ρ c 2).trans (((dat0 (V1 m ρ) c).arrAt_in 2 rfl _).trans (A_eq0 (V1 m ρ) c 2))).trans (host0_v12 (W0 m ρ c))
theorem W2_v14 : W2 m ρ c (Proc.devRef .tc main_v14) = shapeCast S1x64 (m ((c.tc : Thread nD τ).loc main_arg7)) shapeCasts_S64_S1x64 :=
  (W2_of_ne m ρ c main_v14 (by decide)).trans (host0_v14 (W0 m ρ c))
theorem W2_v15 : W2 m ρ c (Proc.devRef .tc main_v15) = shapeCast S1x40 (m ((c.tc : Thread nD τ).loc main_arg10)) shapeCasts_S40_S1x40 :=
  (W2_of_ne m ρ c main_v15 (by decide)).trans (host0_v15 (W0 m ρ c))
theorem W2_arg5 : W2 m ρ c (Proc.devRef .tc main_arg5) = (m ((c.tc : Thread nD τ).loc main_arg5)) :=
  (W2_of_ne m ρ c main_arg5 (by decide)).trans (host0_keeps_main_arg5 (W0 m ρ c))
theorem W2_arg6 : W2 m ρ c (Proc.devRef .tc main_arg6) = (m ((c.tc : Thread nD τ).loc main_arg6)) :=
  (W2_of_ne m ρ c main_arg6 (by decide)).trans (host0_keeps_main_arg6 (W0 m ρ c))
theorem W2_arg8 : W2 m ρ c (Proc.devRef .tc main_arg8) = (m ((c.tc : Thread nD τ).loc main_arg8)) :=
  (W2_of_ne m ρ c main_arg8 (by decide)).trans (host0_keeps_main_arg8 (W0 m ρ c))
theorem W2_arg9 : W2 m ρ c (Proc.devRef .tc main_arg9) = (m ((c.tc : Thread nD τ).loc main_arg9)) :=
  (W2_of_ne m ρ c main_arg9 (by decide)).trans (host0_keeps_main_arg9 (W0 m ρ c))

/-! ## After the second stretch and the second call -/

/-- The second call leaves the reference's second hidden layer. -/
theorem W4_v37 : W4 m ρ c (Proc.devRef .tc main_v37) = (val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  refine ((W4_arr m ρ c 6).trans (final1 (V3 m ρ) c)).trans ?_
  show hidden (after hostOps1 (W2 m ρ c) (Proc.devRef .tc main_v36)) (after hostOps1 (W2 m ρ c) (Proc.devRef .tc main_v26))
      (after hostOps1 (W2 m ρ c) (Proc.devRef .tc main_v12)) (after hostOps1 (W2 m ρ c) (Proc.devRef .tc main_arg5))
      (after hostOps1 (W2 m ρ c) (Proc.devRef .tc main_arg6)) (biasRow64 (after hostOps1 (W2 m ρ c) (Proc.devRef .tc main_v14))) = _
  rw [host1_v36 (W2 m ρ c) _ _ _ _ _ (W2_v26 m ρ c) (W2_v1 m ρ c) (W2_v3 m ρ c), host1_keeps_main_v26, host1_keeps_main_v12,
    host1_keeps_main_arg5, host1_keeps_main_arg6, host1_keeps_main_v14, W2_v26, W2_v12, W2_arg5, W2_arg6, W2_v14, biasRow64_cast]
  exact (Cert.MeanAgg.Ref.hidden2 _ _ _ _ _ _ _ _).symm

theorem W4_v1 : W4 m ρ c (Proc.devRef .tc main_v1) = val_main_v1 (F := Ideal) (m ((c.tc : Thread nD τ).loc main_arg1)) :=
  (W4_of_ne m ρ c main_v1 (by decide)).trans ((host1_keeps_main_v1 (W2 m ρ c)).trans (W2_v1 m ρ c))
theorem W4_v3 : W4 m ρ c (Proc.devRef .tc main_v3) = val_main_v3 (F := Ideal) (m ((c.tc : Thread nD τ).loc main_arg1)) :=
  (W4_of_ne m ρ c main_v3 (by decide)).trans ((host1_keeps_main_v3 (W2 m ρ c)).trans (W2_v3 m ρ c))
/-- The reciprocal degrees: the second call only reads them. -/
theorem W4_v12 : W4 m ρ c (Proc.devRef .tc main_v12) = (val_main_v12 (F := Ideal) (m ((c.tc : Thread nD τ).loc main_arg1))) :=
  ((W4_arr m ρ c 2).trans (((dat1 (V3 m ρ) c).arrAt_in 2 rfl _).trans (A_eq1 (V3 m ρ) c 2))).trans
    ((host1_keeps_main_v12 (W2 m ρ c)).trans (W2_v12 m ρ c))
theorem W4_v15 : W4 m ρ c (Proc.devRef .tc main_v15) = shapeCast S1x40 (m ((c.tc : Thread nD τ).loc main_arg10)) shapeCasts_S40_S1x40 :=
  (W4_of_ne m ρ c main_v15 (by decide)).trans ((host1_keeps_main_v15 (W2 m ρ c)).trans (W2_v15 m ρ c))
theorem W4_arg8 : W4 m ρ c (Proc.devRef .tc main_arg8) = (m ((c.tc : Thread nD τ).loc main_arg8)) :=
  (W4_of_ne m ρ c main_arg8 (by decide)).trans ((host1_keeps_main_arg8 (W2 m ρ c)).trans (W2_arg8 m ρ c))
theorem W4_arg9 : W4 m ρ c (Proc.devRef .tc main_arg9) = (m ((c.tc : Thread nD τ).loc main_arg9)) :=
  (W4_of_ne m ρ c main_arg9 (by decide)).trans ((host1_keeps_main_arg9 (W2 m ρ c)).trans (W2_arg9 m ρ c))

/-! ## After the projection's call -/

/-- The projection's call leaves the second hidden layer against the last layer's first matrix. -/
theorem W5_v38 : W5 m ρ c (Proc.devRef .tc main_v38) = proj (val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) := by
  refine ((W5_arr m ρ c 2).trans (final2 (V4 m ρ) c)).trans ?_
  show proj (W4 m ρ c (Proc.devRef .tc main_v37)) (W4 m ρ c (Proc.devRef .tc main_arg8)) = _
  rw [W4_v37, W4_arg8]

/-- The second hidden layer: the projection's call only reads it. -/
theorem W5_v37 : W5 m ρ c (Proc.devRef .tc main_v37) = (val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  ((W5_arr m ρ c 0).trans (((dat2 (V4 m ρ) c).arrAt_in 0 rfl _).trans (A_eq2 (V4 m ρ) c 0))).trans (W4_v37 m ρ c)
theorem W5_v1 : W5 m ρ c (Proc.devRef .tc main_v1) = val_main_v1 (F := Ideal) (m ((c.tc : Thread nD τ).loc main_arg1)) :=
  (W5_of_ne m ρ c main_v1 (by decide)).trans (W4_v1 m ρ c)
theorem W5_v3 : W5 m ρ c (Proc.devRef .tc main_v3) = val_main_v3 (F := Ideal) (m ((c.tc : Thread nD τ).loc main_arg1)) :=
  (W5_of_ne m ρ c main_v3 (by decide)).trans (W4_v3 m ρ c)
theorem W5_v12 : W5 m ρ c (Proc.devRef .tc main_v12) = (val_main_v12 (F := Ideal) (m ((c.tc : Thread nD τ).loc main_arg1))) :=
  (W5_of_ne m ρ c main_v12 (by decide)).trans (W4_v12 m ρ c)
theorem W5_v15 : W5 m ρ c (Proc.devRef .tc main_v15) = shapeCast S1x40 (m ((c.tc : Thread nD τ).loc main_arg10)) shapeCasts_S40_S1x40 :=
  (W5_of_ne m ρ c main_v15 (by decide)).trans (W4_v15 m ρ c)
theorem W5_arg9 : W5 m ρ c (Proc.devRef .tc main_arg9) = (m ((c.tc : Thread nD τ).loc main_arg9)) :=
  (W5_of_ne m ρ c main_arg9 (by decide)).trans (W4_arg9 m ρ c)

/-! ## After the third stretch and the last call -/

/-- The neighbour sums of the 40 projected features, as the kernel's program spells them. -/
def aggProjected : S100000x40.Idx → EReal :=
  Host.scatterAdd (F := Ideal) scatter_S100000x40_S1250000x1_S1250000x40_1_0_0_1
    (broadcastInDim S100000x40 ![] bcast_S_S100000x40 (constant S_ .f32 0x00000000#32))
    (val_main_v59 (F := Ideal) (m ((c.tc : Thread nD τ).loc main_arg1)))
    (Host.gather gather_S100000x40_S1250000x1_S1250000x40_1_0_n_n_0_1_140 (proj (val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (val_main_v56 (F := Ideal) (m ((c.tc : Thread nD τ).loc main_arg1))))

/-- THE KERNEL'S RESULT: the row-wise log-softmax of the scores formed from the neighbour sums of the projected
    features, the reference's second hidden layer, its reciprocal degrees, and the last matrix and bias. -/
theorem result : W7 m ρ c (Proc.devRef .tc main_v49)
    = logSoftmax (scoresProjFirst (aggProjected m c) (val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (val_main_v12 (F := Ideal) (m ((c.tc : Thread nD τ).loc main_arg1))) (m ((c.tc : Thread nD τ).loc main_arg9)) (m ((c.tc : Thread nD τ).loc main_arg10))) := by
  refine ((W7_arr m ρ c 5).trans (final3 (V6 m ρ) c)).trans ?_
  show logSoftmax (scoresProjFirst (after hostOps3 (W5 m ρ c) (Proc.devRef .tc main_v48)) (after hostOps3 (W5 m ρ c) (Proc.devRef .tc main_v37))
      (after hostOps3 (W5 m ρ c) (Proc.devRef .tc main_v12)) (after hostOps3 (W5 m ρ c) (Proc.devRef .tc main_arg9))
      (biasRow40 (after hostOps3 (W5 m ρ c) (Proc.devRef .tc main_v15)))) = _
  rw [host3_v48 (W5 m ρ c) _ _ (W5_v38 m ρ c) (W5_v1 m ρ c) (W5_v3 m ρ c), host3_keeps_main_v37, host3_keeps_main_v12,
    host3_keeps_main_arg9, host3_keeps_main_v15, W5_v37, W5_v12, W5_arg9, W5_v15, biasRow40_cast]
  rfl

end Cert.MeanAgg.KernelValue

end
-- ==== Proof.RefSoftmax.lean ====
/-
  The reference's last stage is the row-wise log-softmax of its class scores.

  The row maximum is a reduce with a maximum body from negative infinity over the 40 columns: at row r it is the fold
  of `max` from the least extended real over that row's entries, and the further maximum with negative infinity that
  the program takes changes nothing.  The row sum starts from zero.  So each entry of the result is the score less its
  row's maximum, less the logarithm of the row's sum of exponentials of the scores less the maximum.
-/
import proofs.«169150_j15985868276093_2_alg».proof.Proof.Spec
import proofs.«169150_j15985868276093_2_alg».proof.Proof.Patched.ReferenceIdeal.Read
import Idealize.ShloMosaic.Lib.ValueIdx
import Idealize.ShloMosaic.PureOps.Ideal.Laws
import Idealize.ShloMosaic.PureOps.Reduce

noncomputable section

open scoped BigOperators

namespace Cert.MeanAgg.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.MeanAgg

/-! ## The specification's log-softmax at an index built from coordinates -/

theorem logSoftmax_apply (s : NodeCls.Idx → EReal) (r : Fin 100000) (c : Fin 40) :
    logSoftmax s (ix2 r c)
      = (s (ix2 r c) - rowMax s r) - Ideal.log (∑ c' : Fin 40, Ideal.exp (s (ix2 r c') - rowMax s r)) := rfl

/-! ## Two float words -/

/-- The word of negative infinity is the least extended real. -/
theorem ofBits_negInf : Ideal.ofBits .f32 0xFF800000#32 = (⊥ : EReal) := by simp [Ideal.ofBits, Ideal.ieee]

/-! ## The row maximum: a one-axis reduce with a maximum body, read at a row -/

/-- Putting column `k` back into the row index `r` gives the entry (r, k). -/
theorem lift_row (h : (⟨2, ![100000, 40]⟩ : Shape).Reduces [1] (⟨1, ![100000]⟩ : Shape)) (r : Fin 100000)
    (k : Fin ((⟨2, ![100000, 40]⟩ : Shape).size 1)) :
    h.lift (ix1 r) k = ix2 r (⟨k.val, k.isLt⟩ : Fin 40) := by
  funext c; apply Fin.ext
  fin_cases c <;> rfl

/-- From negative infinity, the reduce with a maximum body over the 40 columns is, at row `r`, the fold of `max`
    from the least extended real over that row's entries. -/
theorem reduce_max_row (x : (⟨2, ![100000, 40]⟩ : Shape).Idx → Ideal .f32)
    (h' : (⟨2, ![100000, 40]⟩ : Shape).ReducesTo [1] (⟨1, ![100000]⟩ : Shape))
    (hu : 0 < (⟨0, ![]⟩ : Shape).numel) (r : Fin 100000) :
    Host.reduce FloatOps.maximumf x (constant (F := Ideal) (⟨0, ![]⟩ : Shape) .f32 0xFF800000#32) h' hu (ix1 r)
      = (Finset.univ : Finset (Fin 40)).fold max (⊥ : EReal) (fun c => x (ix2 r c)) := by
  have h : (⟨2, ![100000, 40]⟩ : Shape).Reduces [1] (⟨1, ![100000]⟩ : Shape) := by decide
  rw [Host.reduce_eq_fold_single FloatOps.maximumf x _ h' h hu]
  have hf : (x ∘ h.lift (ix1 r)) = fun k : Fin 40 => x (ix2 r k) := funext fun k => congrArg x (lift_row h r k)
  have hi : (constant (F := Ideal) (⟨0, ![]⟩ : Shape) .f32 0xFF800000#32) (Shape.Idx.first hu) = (⊥ : EReal) := ofBits_negInf
  rw [hi]
  exact congrArg (fun f => Finset.fold max (⊥ : EReal) f (Finset.univ : Finset (Fin 40))) hf

/-! ## The arguments of the reference's entry function, as the generated stage functions take them -/

variable (x0 : (⟨S100000x64, .f32⟩ : BufTy).Contents (Elt Ideal)) (x1 : (⟨S2x1250000, .i32⟩ : BufTy).Contents (Elt Ideal))
  (x2 x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64, .f32⟩ : BufTy).Contents (Elt Ideal))
  (x8 x9 : (⟨S64x40, .f32⟩ : BufTy).Contents (Elt Ideal)) (x10 : (⟨S40, .f32⟩ : BufTy).Contents (Elt Ideal))

/-! ## The composed index functions of the softmax's broadcasts, as coordinates

  A per-row value broadcast along the columns is read at (row, 0), the column at its row; the row sum reads (row, k). -/

section Indices
variable (r : Fin 100000) (d : Fin 40) (z : Fin 1)

theorem s4 : idx_main_call2_v4 (ix2 r d) = ix2 r (0 : Fin 1) := funext fun a => Fin.ext (by match a with | ⟨0, _⟩ => rfl | ⟨1, _⟩ => rfl)
theorem s3 : idx_main_call2_v3 (ix2 r z) = ix1 r := funext fun a => Fin.ext (by match a with | ⟨0, _⟩ => rfl)
theorem s10 : idx_main_call2_v10 (ix2 r d) = ix2 r (0 : Fin 1) := funext fun a => Fin.ext (by match a with | ⟨0, _⟩ => rfl | ⟨1, _⟩ => rfl)
theorem s8 : idx_main_call2_v8 (ix2 r z) = ix1 r := funext fun a => Fin.ext (by match a with | ⟨0, _⟩ => rfl)
theorem s7 : idx_main_call2_v7 (ix1 r) d = ix2 r d := funext fun a => Fin.ext (by match a with | ⟨0, _⟩ => rfl | ⟨1, _⟩ => rfl)

end Indices

/-! ## The log-softmax -/

/-- The reference's row maximum (a reduce with a maximum body from negative infinity) is the specification's. -/
theorem rowMax_read (r : Fin 100000) :
    val_main_call2_v0 (F := Ideal) x0 x1 x2 x3 x4 x5 x6 x7 x8 x9 x10 (ix1 r) = rowMax (val_main_v68 (F := Ideal) x0 x1 x2 x3 x4 x5 x6 x7 x8 x9 x10) r := by
  unfold val_main_call2_v0 rowMax
  generalize val_main_v68 (F := Ideal) x0 x1 x2 x3 x4 x5 x6 x7 x8 x9 x10 = s
  exact reduce_max_row s reducesTo_S100000x40_S100000_d1 h_S_ r

/-- The reference's result is the row-wise log-softmax of the class scores. -/
theorem logSoftmax_read :
    val_main_v69 (F := Ideal) x0 x1 x2 x3 x4 x5 x6 x7 x8 x9 x10 = logSoftmax (val_main_v68 (F := Ideal) x0 x1 x2 x3 x4 x5 x6 x7 x8 x9 x10) := by
  funext i
  obtain ⟨r, c, rfl⟩ : ∃ (r : Fin 100000) (c : Fin 40), i = ix2 r c := ⟨i 0, i 1, eq_ix2 i⟩
  rw [logSoftmax_apply, val_main_v69_apply, val_main_call2_v10_apply, val_main_call2_v9_apply, val_main_call2_v8_apply,
    val_main_call2_v7_apply, val_main_call2_cst_1_apply]
  have e6 := val_main_call2_v6_apply (F := Ideal) x0 x1 x2 x3 x4 x5 x6 x7 x8 x9 x10
  have e5 := val_main_call2_v5_apply (F := Ideal) x0 x1 x2 x3 x4 x5 x6 x7 x8 x9 x10
  have e4 := val_main_call2_v4_apply (F := Ideal) x0 x1 x2 x3 x4 x5 x6 x7 x8 x9 x10
  have e3 := val_main_call2_v3_apply (F := Ideal) x0 x1 x2 x3 x4 x5 x6 x7 x8 x9 x10
  have e2 := val_main_call2_v2_apply (F := Ideal) x0 x1 x2 x3 x4 x5 x6 x7 x8 x9 x10
  have e1 := val_main_call2_v1_apply (F := Ideal)
  have ec := val_main_call2_cst_0_apply (F := Ideal)
  have e0 := rowMax_read x0 x1 x2 x3 x4 x5 x6 x7 x8 x9 x10
  have hsub : ∀ a b : Ideal .f32, FloatOps.subf a b = a - b := fun _ _ => rfl
  have hmax : ∀ a b : Ideal .f32, FloatOps.maximumf a b = max a b := fun _ _ => rfl
  have hexp : ∀ a : Ideal .f32, FloatOps.hostUnary .exp a = Ideal.exp a := fun _ => rfl
  have hlog : ∀ a : Ideal .f32, FloatOps.hostUnary .log a = Ideal.log a := fun _ => rfl
  have hz : FloatOps.ofBits (F := Ideal) .f32 0x00000000#32 = (0 : EReal) := Ideal.ofBits_zero_f32
  have hb : FloatOps.ofBits (F := Ideal) .f32 0xFF800000#32 = (⊥ : EReal) := ofBits_negInf
  simp only [e6, e5, e4, e3, e2, e1, ec, s10, s8, s7, s4, s3, e0, hsub, hmax, hexp, hlog, hz, hb, zero_add, max_bot_left]

end Cert.MeanAgg.Ref

end
-- ==== Proof.Aggregate.lean ====
/-
  The neighbour gather and the scatter-add of the graph network, read at one index.

  A gather of rows: result row `e` is the operand's row at the start index of edge `e`, read as a signed
  integer and clamped into the rows of the operand.  A scatter-add of rows: row `r` of the result is row `r`
  of the operand plus the sum of the update rows of the edges whose destination, read as a signed integer,
  is exactly `r`; an edge whose destination is no row of the operand adds nothing.
-/
import proofs.«169150_j15985868276093_2_alg».proof.Proof.Spec
import Idealize.ShloMosaic.PureOps.Ideal
import Idealize.ShloMosaic.PureOps.Ideal.Laws
import Idealize.ShloMosaic.Lib.ValueIdx

noncomputable section

open scoped BigOperators

namespace Cert.MeanAgg

open Idealize.ShloMosaic Idealize.ShloMosaic.ValueIdx

/-- One index word per edge, as a column. -/
abbrev EdgeCol : Shape := ⟨2, ![1250000, 1]⟩
/-- One row of 64 features per edge. -/
abbrev EdgeFeat : Shape := ⟨2, ![1250000, 64]⟩
/-- One row of 40 class scores per edge. -/
abbrev EdgeCls : Shape := ⟨2, ![1250000, 40]⟩
/-- One number per node. -/
abbrev NodeVec : Shape := ⟨1, ![100000]⟩
/-- One number per edge. -/
abbrev EdgeVec : Shape := ⟨1, ![1250000]⟩

/-! ## The dimension numbers -/

/-- A gather of whole rows of width `n`: one start row per edge. -/
abbrev gathN (n : Nat)
    (wf : GatherDims.WF ⟨2, ![100000, n]⟩ ⟨2, ![1250000, 1]⟩ ⟨2, ![1250000, n]⟩ [1] [0] [] [0] [] 1 ![1, n]) :
    GatherDims ⟨2, ![100000, n]⟩ ⟨2, ![1250000, 1]⟩ ⟨2, ![1250000, n]⟩ where
  offsetDims := [1]
  collapsedSliceDims := [0]
  operandBatchingDims := []
  startIndicesBatchingDims := []
  startIndexMap := [0]
  indexVectorDim := 1
  sliceSizes := ![1, n]
  wf := wf

/-- The gather of rows of 64 features. -/
abbrev gath64 : GatherDims NodeFeat EdgeCol EdgeFeat where
  offsetDims := [1]
  collapsedSliceDims := [0]
  operandBatchingDims := []
  startIndicesBatchingDims := []
  startIndexMap := [0]
  indexVectorDim := 1
  sliceSizes := ![1, 64]
  wf := by decide

/-- The gather of rows of 40 class scores. -/
abbrev gath40 : GatherDims NodeCls EdgeCol EdgeCls where
  offsetDims := [1]
  collapsedSliceDims := [0]
  operandBatchingDims := []
  startIndicesBatchingDims := []
  startIndexMap := [0]
  indexVectorDim := 1
  sliceSizes := ![1, 40]
  wf := by decide

/-- A scatter of whole rows of width `n`: one destination row per edge. -/
abbrev scatN (n : Nat)
    (wf : ScatterDims.WF ⟨2, ![100000, n]⟩ ⟨2, ![1250000, 1]⟩ ⟨2, ![1250000, n]⟩ [1] [0] [0] 1) :
    ScatterDims ⟨2, ![100000, n]⟩ ⟨2, ![1250000, 1]⟩ ⟨2, ![1250000, n]⟩ where
  updateWindowDims := [1]
  insertedWindowDims := [0]
  scatterDimsToOperandDims := [0]
  indexVectorDim := 1
  wf := wf

/-- The scatter of rows of 64 features. -/
abbrev scat64 : ScatterDims NodeFeat EdgeCol EdgeFeat where
  updateWindowDims := [1]
  insertedWindowDims := [0]
  scatterDimsToOperandDims := [0]
  indexVectorDim := 1
  wf := by decide

/-- The scatter of rows of 40 class scores. -/
abbrev scat40 : ScatterDims NodeCls EdgeCol EdgeCls where
  updateWindowDims := [1]
  insertedWindowDims := [0]
  scatterDimsToOperandDims := [0]
  indexVectorDim := 1
  wf := by decide

/-- The scatter of one number per edge (the degree count). -/
abbrev scat1 : ScatterDims NodeVec EdgeCol EdgeVec where
  updateWindowDims := []
  insertedWindowDims := [0]
  scatterDimsToOperandDims := [0]
  indexVectorDim := 1
  wf := by decide

/-! ## The gather at an index -/

/-- The row an edge reads: its start word as a signed integer, clamped into the 100000 rows. -/
def srcRow (idx : IVec EdgeCol 32) (e : Fin 1250000) : Fin 100000 :=
  ⟨min (idx (ix2 e (0 : Fin 1))).toInt.toNat 99999, by omega⟩

theorem gatherN_apply {α : Type} {n : Nat}
    (wf : GatherDims.WF ⟨2, ![100000, n]⟩ ⟨2, ![1250000, 1]⟩ ⟨2, ![1250000, n]⟩ [1] [0] [] [0] [] 1 ![1, n])
    (x : (⟨2, ![100000, n]⟩ : Shape).Idx → α) (idx : IVec EdgeCol 32) (e : Fin 1250000) (k : Fin n) :
    Host.gather (gathN n wf) x idx (ix2 e k) = x (ix2 (srcRow idx e) k) := by
  unfold Host.gather
  congr 1
  funext a
  refine Fin.ext ?_
  match a with
  | ⟨0, _⟩ =>
    show (gathN n wf).start (ix2 e k) idx 0 + (gathN n wf).batchCoord (ix2 e k) 0 + (gathN n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathN n wf).startIndexMap from List.mem_singleton.mpr rfl)]
    have hsi : (gathN n wf).siIdx (ix2 e k) ⟨List.idxOf (0 : Fin 2) (gathN n wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gathN n wf).start (ix2 e k) idx 1 + (gathN n wf).batchCoord (ix2 e k) 1 + (gathN n wf).offCoord (ix2 e k) 1 = _
    rw [GatherDims.batchCoord_eq_zero _ _ _ List.not_mem_nil]
    unfold GatherDims.start
    rw [dif_neg (show ¬ (1 : Fin 2) ∈ (gathN n wf).startIndexMap from fun h => absurd (List.mem_singleton.mp h) (show ¬ (1 : Fin 2) = 0 by decide))]
    simp only [Nat.add_zero, Nat.zero_add]
    rfl

theorem gather64_apply {α : Type} (x : NodeFeat.Idx → α) (idx : IVec EdgeCol 32) (e : Fin 1250000) (k : Fin 64) :
    Host.gather gath64 x idx (ix2 e k) = x (ix2 (srcRow idx e) k) :=
  gatherN_apply (n := 64) gath64.wf x idx e k

theorem gather40_apply {α : Type} (x : NodeCls.Idx → α) (idx : IVec EdgeCol 32) (e : Fin 1250000) (k : Fin 40) :
    Host.gather gath40 x idx (ix2 e k) = x (ix2 (srcRow idx e) k) :=
  gatherN_apply (n := 40) gath40.wf x idx e k

/-! ## The scatter-add at an index -/

/-- The edges whose destination word, read as a signed integer, is exactly the row `r`.  (Nothing is clamped:
    an edge whose destination is no row adds to no row.) -/
def lands (idx : IVec EdgeCol 32) (r : Fin 100000) : Finset (Fin 1250000) :=
  Finset.univ.filter fun e => (idx (ix2 e (0 : Fin 1))).toInt = (r.val : Int)

section ScatN
variable {n : Nat} (wf : ScatterDims.WF ⟨2, ![100000, n]⟩ ⟨2, ![1250000, 1]⟩ ⟨2, ![1250000, n]⟩ [1] [0] [0] 1)

/-- On the row axis the window of update `(e, k)` starts at the edge's destination word, read signed. -/
theorem scatN_start0 (idx : IVec EdgeCol 32) (e : Fin 1250000) (k : Fin n) :
    (scatN n wf).start (ix2 e k) idx 0 = (idx (ix2 e (0 : Fin 1))).toInt := by
  unfold ScatterDims.start
  rw [dif_pos (show (0 : Fin 2) ∈ (scatN n wf).scatterDimsToOperandDims from List.mem_singleton.mpr rfl)]
  have hsi : (scatN n wf).siIdx (ix2 e k) ⟨List.idxOf (0 : Fin 2) (scatN n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0. -/
theorem scatN_start1 (idx : IVec EdgeCol 32) (e : Fin 1250000) (k : Fin n) :
    (scatN n wf).start (ix2 e k) idx 1 = 0 := by
  unfold ScatterDims.start
  rw [dif_neg (show ¬ (1 : Fin 2) ∈ (scatN n wf).scatterDimsToOperandDims from
    fun h => absurd (List.mem_singleton.mp h) (show ¬ (1 : Fin 2) = 0 by decide))]

/-- The row axis is inserted: no window coordinate. -/
theorem scatN_window0 (e : Fin 1250000) (k : Fin n) : (scatN n wf).window (ix2 e k) 0 = 0 := by
  unfold ScatterDims.window
  rw [dif_neg (show ¬ (0 : Fin 2) ∈ (scatN n wf).sKept by simp [ScatterDims.sKept, Shape.kept])]

/-- The column axis carries the update's column. -/
theorem scatN_window1 (e : Fin 1250000) (k : Fin n) : (scatN n wf).window (ix2 e k) 1 = k.val := by
  unfold ScatterDims.window
  rw [dif_pos (show (1 : Fin 2) ∈ (scatN n wf).sKept by simp [ScatterDims.sKept, Shape.kept])]
  rfl

/-- Update `(e, k)` lands at `(r, k')` exactly when the edge's destination is `r` and the columns agree. -/
theorem scatN_resultIdx?_eq_some_iff (idx : IVec EdgeCol 32) (e : Fin 1250000) (k k' : Fin n) (r : Fin 100000) :
    (scatN n wf).resultIdx? (ix2 e k) idx = some (ix2 r k')
      ↔ (idx (ix2 e (0 : Fin 1))).toInt = (r.val : Int) ∧ k = k' := by
  unfold ScatterDims.resultIdx?
  split
  · rename_i h
    have h0 := h 0
    rw [scatN_start0, scatN_window0] at h0
    constructor
    · intro hf
      have hf' := Option.some.inj hf
      have e0 : ((scatN n wf).start (ix2 e k) idx 0 + ((scatN n wf).window (ix2 e k) 0 : Int)).toNat = r.val :=
        congrArg Fin.val (congrFun hf' 0)
      have e1 : ((scatN n wf).start (ix2 e k) idx 1 + ((scatN n wf).window (ix2 e k) 1 : Int)).toNat = k'.val :=
        congrArg Fin.val (congrFun hf' 1)
      rw [scatN_start0, scatN_window0] at e0
      rw [scatN_start1, scatN_window1] at e1
      exact ⟨by omega, Fin.ext (by omega)⟩
    · rintro ⟨ht, rfl⟩
      congr 1
      funext a
      refine Fin.ext ?_
      match a with
      | ⟨0, _⟩ =>
        show ((scatN n wf).start (ix2 e k) idx 0 + ((scatN n wf).window (ix2 e k) 0 : Int)).toNat = r.val
        rw [scatN_start0, scatN_window0]; omega
      | ⟨1, _⟩ =>
        show ((scatN n wf).start (ix2 e k) idx 1 + ((scatN n wf).window (ix2 e k) 1 : Int)).toNat = k.val
        rw [scatN_start1, scatN_window1]; omega
  · rename_i h
    constructor
    · intro hf; exact absurd hf (by simp)
    · rintro ⟨ht, rfl⟩
      refine absurd ?_ h
      intro a
      match a with
      | ⟨0, _⟩ =>
        show 0 ≤ (scatN n wf).start (ix2 e k) idx 0 + ((scatN n wf).window (ix2 e k) 0 : Int) ∧
          (scatN n wf).start (ix2 e k) idx 0 + ((scatN n wf).window (ix2 e k) 0 : Int) < ((100000 : Nat) : Int)
        rw [scatN_start0, scatN_window0]
        have := r.isLt
        omega
      | ⟨1, _⟩ =>
        show 0 ≤ (scatN n wf).start (ix2 e k) idx 1 + ((scatN n wf).window (ix2 e k) 1 : Int) ∧
          (scatN n wf).start (ix2 e k) idx 1 + ((scatN n wf).window (ix2 e k) 1 : Int) < ((n : Nat) : Int)
        rw [scatN_start1, scatN_window1]
        have := k.isLt
        omega

/-- THE SCATTER-ADD OF ROWS READ AT `(r, k)`: the operand there plus the sum, over the edges whose destination is
    `r`, of column `k` of their update rows. -/
theorem scatterAddN_apply (x : (⟨2, ![100000, n]⟩ : Shape).Idx → EReal) (idx : IVec EdgeCol 32)
    (upd : (⟨2, ![1250000, n]⟩ : Shape).Idx → EReal) (r : Fin 100000) (k : Fin n) :
    Ideal.hostScatterAdd (scatN n wf) x idx upd (ix2 r k) = x (ix2 r k) + ∑ e ∈ lands idx r, upd (ix2 e k) := by
  unfold Ideal.hostScatterAdd
  refine congrArg (fun s => x (ix2 r k) + s) ?_
  rw [Finset.sum_filter, sum_idx2]
  unfold lands
  rw [Finset.sum_filter]
  refine Finset.sum_congr rfl fun e _ => ?_
  simp only [scatN_resultIdx?_eq_some_iff]
  by_cases ht : (idx (ix2 e (0 : Fin 1))).toInt = (r.val : Int)
  · simp [ht]
  · simp [ht]

end ScatN

theorem scatterAdd64_apply (x : NodeFeat.Idx → EReal) (idx : IVec EdgeCol 32) (upd : EdgeFeat.Idx → EReal)
    (r : Fin 100000) (k : Fin 64) :
    Ideal.hostScatterAdd scat64 x idx upd (ix2 r k) = x (ix2 r k) + ∑ e ∈ lands idx r, upd (ix2 e k) :=
  scatterAddN_apply (n := 64) scat64.wf x idx upd r k

theorem scatterAdd40_apply (x : NodeCls.Idx → EReal) (idx : IVec EdgeCol 32) (upd : EdgeCls.Idx → EReal)
    (r : Fin 100000) (k : Fin 40) :
    Ideal.hostScatterAdd scat40 x idx upd (ix2 r k) = x (ix2 r k) + ∑ e ∈ lands idx r, upd (ix2 e k) :=
  scatterAddN_apply (n := 40) scat40.wf x idx upd r k

/-! ## The scatter-add of one number per edge -/

/-- A rank-1 index set is its one coordinate range … -/
def idxEquiv1 {m : Nat} : (⟨1, ![m]⟩ : Shape).Idx ≃ Fin m where
  toFun i := i 0
  invFun a := ix1 a
  left_inv i := (eq_ix1 i).symm
  right_inv _ := rfl

/-- … so a sum over it is the sum over the coordinate. -/
theorem sum_idx1 {M : Type*} [AddCommMonoid M] {m : Nat} (f : (⟨1, ![m]⟩ : Shape).Idx → M) :
    ∑ i, f i = ∑ a : Fin m, f (ix1 a) := by
  rw [← Equiv.sum_comp (idxEquiv1 (m := m)).symm f]
  rfl

/-- The window of update `e` starts at the edge's destination word, read signed. -/
theorem scat1_start0 (idx : IVec EdgeCol 32) (e : Fin 1250000) :
    scat1.start (ix1 e) idx 0 = (idx (ix2 e (0 : Fin 1))).toInt := by
  unfold ScatterDims.start
  rw [dif_pos (show (0 : Fin 1) ∈ scat1.scatterDimsToOperandDims from List.mem_singleton.mpr rfl)]
  have hsi : scat1.siIdx (ix1 e) ⟨List.idxOf (0 : Fin 1) scat1.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem scat1_window0 (e : Fin 1250000) : scat1.window (ix1 e) 0 = 0 := by
  unfold ScatterDims.window
  rw [dif_neg (show ¬ (0 : Fin 1) ∈ scat1.sKept by simp [ScatterDims.sKept, Shape.kept])]

/-- Update `e` lands at `r` exactly when the edge's destination is `r`. -/
theorem scat1_resultIdx?_eq_some_iff (idx : IVec EdgeCol 32) (e : Fin 1250000) (r : Fin 100000) :
    scat1.resultIdx? (ix1 e) idx = some (ix1 r) ↔ (idx (ix2 e (0 : Fin 1))).toInt = (r.val : Int) := by
  unfold ScatterDims.resultIdx?
  split
  · rename_i h
    have h0 := h 0
    rw [scat1_start0, scat1_window0] at h0
    constructor
    · intro hf
      have hf' := Option.some.inj hf
      have e0 : (scat1.start (ix1 e) idx 0 + (scat1.window (ix1 e) 0 : Int)).toNat = r.val :=
        congrArg Fin.val (congrFun hf' 0)
      rw [scat1_start0, scat1_window0] at e0
      omega
    · intro ht
      congr 1
      funext a
      refine Fin.ext ?_
      match a with
      | ⟨0, _⟩ =>
        show (scat1.start (ix1 e) idx 0 + (scat1.window (ix1 e) 0 : Int)).toNat = r.val
        rw [scat1_start0, scat1_window0]; omega
  · rename_i h
    constructor
    · intro hf; exact absurd hf (by simp)
    · intro ht
      refine absurd ?_ h
      intro a
      match a with
      | ⟨0, _⟩ =>
        show 0 ≤ scat1.start (ix1 e) idx 0 + (scat1.window (ix1 e) 0 : Int) ∧
          scat1.start (ix1 e) idx 0 + (scat1.window (ix1 e) 0 : Int) < ((100000 : Nat) : Int)
        rw [scat1_start0, scat1_window0]
        have := r.isLt
        omega

/-- THE SCATTER-ADD OF ONE NUMBER PER EDGE READ AT `r`: the operand there plus the sum of the updates of the edges
    whose destination is `r`. -/
theorem scatterAdd1_apply (x : NodeVec.Idx → EReal) (idx : IVec EdgeCol 32) (upd : EdgeVec.Idx → EReal)
    (r : Fin 100000) :
    Ideal.hostScatterAdd scat1 x idx upd (ix1 r) = x (ix1 r) + ∑ e ∈ lands idx r, upd (ix1 e) := by
  unfold Ideal.hostScatterAdd
  refine congrArg (fun s => x (ix1 r) + s) ?_
  rw [Finset.sum_filter, sum_idx1]
  unfold lands
  rw [Finset.sum_filter]
  refine Finset.sum_congr rfl fun e _ => ?_
  simp only [scat1_resultIdx?_eq_some_iff]

end Cert.MeanAgg

end
-- ==== Proof.Linear.lean ====
/-
  Real-valued arrays, and the linearity of the neighbour sum.

  An array over the extended reals is real-valued when every entry is a real number.  Real-valued operands
  give a real-valued hidden layer, projection, gather and scatter-add, and a real-valued degree count gives
  real-valued reciprocal degrees.  On real-valued arrays the neighbour sum commutes with the projection to
  the classes: summing the 64 features of the neighbours and projecting the sum is projecting each neighbour
  to the 40 classes and summing the projections, because both are the same finite double sum of reals.
-/
import proofs.«169150_j15985868276093_2_alg».proof.Proof.Aggregate

noncomputable section

open scoped BigOperators

namespace Cert.MeanAgg

open Idealize.ShloMosaic Idealize.ShloMosaic.ValueIdx

/-! ## Real numbers among the extended reals -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The coercion of the reals keeps maxima. -/
theorem coe_max_real (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx; obtain ⟨b, rfl⟩ := hy
  exact ⟨Max.max a b, (coe_max_real a b).symm⟩

/-- The coercion of the reals keeps finite sums. -/
theorem coe_sum_real {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem IsReal.sum {ι : Type*} (s : Finset ι) {f : ι → EReal} (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-! ## Real-valued arrays -/

/-- Every entry of the array is a real number: the array is the coercion of an array of reals. -/
def RealValued {S : Shape} (a : S.Idx → EReal) : Prop := ∃ f : S.Idx → ℝ, a = fun i => ((f i : ℝ) : EReal)

/-- An array is real-valued exactly when each of its entries is a real number. -/
theorem realValued_iff {S : Shape} (a : S.Idx → EReal) : RealValued a ↔ ∀ i, IsReal (a i) := by
  constructor
  · rintro ⟨f, rfl⟩ i; exact ⟨f i, rfl⟩
  · intro h; exact ⟨fun i => (h i).choose, funext fun i => (h i).choose_spec⟩

theorem RealValued.apply {S : Shape} {a : S.Idx → EReal} (h : RealValued a) (i : S.Idx) : IsReal (a i) :=
  (realValued_iff a).mp h i

/-- A constant real array. -/
theorem realValued_const {S : Shape} (r : ℝ) : RealValued (fun _ : S.Idx => (r : EReal)) := ⟨fun _ => r, rfl⟩

/-- An array that is 0 everywhere. -/
theorem realValued_of_zero {S : Shape} {z : S.Idx → EReal} (hz : ∀ i, z i = 0) : RealValued z :=
  (realValued_iff z).mpr fun i => by rw [hz i]; exact IsReal.zero

/-- A real number is an extended real that is neither infinity. -/
theorem isReal_iff (x : EReal) : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- An array none of whose entries is an infinity is real-valued. -/
theorem realValued_of_finite {S : Shape} {a : S.Idx → EReal} (h : ∀ i, a i ≠ ⊥ ∧ a i ≠ ⊤) : RealValued a :=
  (realValued_iff a).mpr fun i => (isReal_iff _).mpr (h i)

/-- Reading a real-valued array through any map of indices (a reshape, a broadcast, a slice) is real-valued. -/
theorem realValued_comp {S T : Shape} {a : S.Idx → EReal} (ha : RealValued a) (g : T.Idx → S.Idx) :
    RealValued (fun j => a (g j)) :=
  (realValued_iff _).mpr fun j => ha.apply (g j)

/-- The entrywise sum of real-valued arrays is real-valued … -/
theorem realValued_add {S : Shape} {a b : S.Idx → EReal} (ha : RealValued a) (hb : RealValued b) :
    RealValued (fun i => a i + b i) :=
  (realValued_iff _).mpr fun i => (ha.apply i).add (hb.apply i)

/-- … and so are the entrywise product … -/
theorem realValued_mul {S : Shape} {a b : S.Idx → EReal} (ha : RealValued a) (hb : RealValued b) :
    RealValued (fun i => a i * b i) :=
  (realValued_iff _).mpr fun i => (ha.apply i).mul (hb.apply i)

/-- … and the entrywise maximum. -/
theorem realValued_max {S : Shape} {a b : S.Idx → EReal} (ha : RealValued a) (hb : RealValued b) :
    RealValued (fun i => max (a i) (b i)) :=
  (realValued_iff _).mpr fun i => (ha.apply i).max (hb.apply i)

theorem isReal_rowDot {n : Nat} {a : NodeFeat.Idx → EReal} {W : (⟨2, ![64, n]⟩ : Shape).Idx → EReal}
    (ha : RealValued a) (hW : RealValued W) (r : Fin 100000) (c : Fin n) : IsReal (rowDot a W r c) :=
  IsReal.sum _ fun k _ => (ha.apply _).mul (hW.apply _)

theorem isReal_scaledRowDot {n : Nat} {agg : NodeFeat.Idx → EReal} {dinv : NodeCol.Idx → EReal}
    {W : (⟨2, ![64, n]⟩ : Shape).Idx → EReal} (hagg : RealValued agg) (hd : RealValued dinv) (hW : RealValued W)
    (r : Fin 100000) (c : Fin n) : IsReal (scaledRowDot agg dinv W r c) :=
  IsReal.sum _ fun k _ => ((hagg.apply _).mul (hd.apply _)).mul (hW.apply _)

/-- A hidden layer of real-valued operands is real-valued. -/
theorem realValued_hidden {agg x : NodeFeat.Idx → EReal} {dinv : NodeCol.Idx → EReal} {Wl Wr : WSq.Idx → EReal}
    {b : BiasH.Idx → EReal} (hagg : RealValued agg) (hx : RealValued x) (hd : RealValued dinv)
    (hWl : RealValued Wl) (hWr : RealValued Wr) (hb : RealValued b) : RealValued (hidden agg x dinv Wl Wr b) :=
  (realValued_iff _).mpr fun i =>
    (((isReal_scaledRowDot hagg hd hWl (i 0) (i 1)).add (isReal_rowDot hx hWr (i 0) (i 1))).add (hb.apply _)).max
      IsReal.zero

/-- The projection of real-valued features by a real-valued matrix is real-valued. -/
theorem realValued_proj {h : NodeFeat.Idx → EReal} {W : WCls.Idx → EReal} (hh : RealValued h) (hW : RealValued W) :
    RealValued (proj h W) :=
  (realValued_iff _).mpr fun i => isReal_rowDot hh hW (i 0) (i 1)

/-- A gather only moves entries: of a real-valued array it is real-valued, whatever the dimension numbers and the
    start indices. -/
theorem realValued_gather {s si t : Shape} {w : Nat} (d : GatherDims s si t) {x : s.Idx → EReal} (hx : RealValued x)
    (idx : IVec si w) : RealValued (Host.gather d x idx) :=
  (realValued_iff _).mpr fun j => hx.apply (d.operandIdx j idx)

/-- A scatter-add of real-valued updates into a real-valued array is real-valued, whatever the dimension numbers and
    the indices: each entry is a real plus a finite sum of reals. -/
theorem realValued_scatterAdd {s si su : Shape} {w : Nat} (d : ScatterDims s si su) {x : s.Idx → EReal}
    (hx : RealValued x) (idx : IVec si w) {upd : su.Idx → EReal} (hu : RealValued upd) :
    RealValued (Ideal.hostScatterAdd d x idx upd) :=
  (realValued_iff _).mpr fun i => (hx.apply i).add (IsReal.sum _ fun j _ => hu.apply j)

/-- The reciprocal of a real-valued degree count, the count raised to at least 1, is real-valued. -/
theorem realValued_recipDeg {deg : NodeVec.Idx → EReal} (hdeg : RealValued deg) :
    RealValued (fun i => Ideal.div 1 (max (deg i) 1)) := by
  refine (realValued_iff _).mpr fun i => ?_
  obtain ⟨x, hx⟩ := hdeg.apply i
  have hpos : (0 : ℝ) < Max.max x 1 := lt_of_lt_of_le one_pos (le_max_right x 1)
  show IsReal (Ideal.div 1 (max (deg i) 1))
  rw [hx, ← EReal.coe_one, ← coe_max_real, Ideal.div_coe (ne_of_gt hpos), ← EReal.coe_mul]
  exact IsReal.coe _

/-! ## The law: the neighbour sum commutes with the projection -/

/-- Over the reals, the finite double sum read in its two orders: scale each summed feature and project, or project
    each summand, sum, and scale. -/
theorem sum_scale_project {ι : Type*} (L : Finset ι) (a : ι → Fin 64 → ℝ) (w : Fin 64 → ℝ) (d : ℝ) :
    ∑ k : Fin 64, ((∑ e ∈ L, a e k) * d) * w k = (∑ e ∈ L, ∑ k : Fin 64, a e k * w k) * d := by
  simp only [Finset.sum_mul]
  rw [Finset.sum_comm]
  refine Finset.sum_congr rfl fun e _ => Finset.sum_congr rfl fun k _ => ?_
  ring

/-- THE LAW at node `r`, class `c`.  Summing the neighbours' 64 features into an array of zeros, scaling by the
    reciprocal degree and projecting to class `c` is projecting every node's features first, summing the
    neighbours' projected class-`c` entries into an array of zeros, and scaling: with every entry real both are
    `(Σ_{e into r} Σ_k h(source of e, k) · Wl(k, c)) · dinv r`. -/
theorem aggregate_project_comm {h : NodeFeat.Idx → EReal} {Wl : WCls.Idx → EReal} {dinv : NodeCol.Idx → EReal}
    (hh : RealValued h) (hWl : RealValued Wl) (hd : RealValued dinv) (idxD idxS : IVec EdgeCol 32)
    {z64 : NodeFeat.Idx → EReal} {z40 : NodeCls.Idx → EReal} (hz64 : ∀ i, z64 i = 0) (hz40 : ∀ i, z40 i = 0)
    (r : Fin 100000) (c : Fin 40) :
    scaledRowDot (Ideal.hostScatterAdd scat64 z64 idxD (Host.gather gath64 h idxS)) dinv Wl r c
      = Ideal.hostScatterAdd scat40 z40 idxD (Host.gather gath40 (proj h Wl) idxS) (ix2 r c)
          * dinv (ix2 r (0 : Fin 1)) := by
  obtain ⟨fh, rfl⟩ := hh; obtain ⟨fW, rfl⟩ := hWl; obtain ⟨fd, rfl⟩ := hd
  unfold scaledRowDot
  rw [scatterAdd40_apply, hz40, zero_add]
  simp only [scatterAdd64_apply, hz64, zero_add, gather64_apply, gather40_apply, proj_apply]
  unfold rowDot
  simp only [← EReal.coe_mul, ← coe_sum_real]
  exact congrArg (fun x : ℝ => (x : EReal))
    (sum_scale_project (lands idxD r) (fun e k => fh (ix2 (srcRow idxS e) k)) (fun k => fW (ix2 k c)) (fd (ix2 r (0 : Fin 1))))

/-- The two spellings of the last layer agree as soon as their neighbour sums obey the law: what is left is the
    order of three summands. -/
theorem scoresAggFirst_eq_scoresProjFirst_of {A64 : NodeFeat.Idx → EReal} {A40 : NodeCls.Idx → EReal}
    {h : NodeFeat.Idx → EReal} {dinv : NodeCol.Idx → EReal} {Wl Wr : WCls.Idx → EReal} {b : BiasC.Idx → EReal}
    (hlaw : ∀ (r : Fin 100000) (c : Fin 40), scaledRowDot A64 dinv Wl r c = A40 (ix2 r c) * dinv (ix2 r (0 : Fin 1))) :
    scoresAggFirst A64 h dinv Wl Wr b = scoresProjFirst A40 h dinv Wr b := by
  funext i
  obtain ⟨r, c, rfl⟩ : ∃ (r : Fin 100000) (c : Fin 40), i = ix2 r c := ⟨i 0, i 1, eq_ix2 i⟩
  show (scaledRowDot A64 dinv Wl r c + b (ix1 c)) + rowDot h Wr r c
    = ((A40 (ix2 r c) * dinv (ix2 r (0 : Fin 1))) + rowDot h Wr r c) + b (ix1 c)
  rw [hlaw]
  exact add_right_comm _ _ _

/-- The last layer before the softmax: aggregating the 64 features and projecting after is projecting first and
    aggregating the 40 projected features, for real-valued features, left weights and reciprocal degrees; the right
    weights and the bias are arbitrary. -/
theorem scoresAggFirst_eq_scoresProjFirst {h : NodeFeat.Idx → EReal} {Wl : WCls.Idx → EReal}
    {dinv : NodeCol.Idx → EReal} (hh : RealValued h) (hWl : RealValued Wl) (hd : RealValued dinv)
    (idxD idxS : IVec EdgeCol 32) {z64 : NodeFeat.Idx → EReal} {z40 : NodeCls.Idx → EReal}
    (hz64 : ∀ i, z64 i = 0) (hz40 : ∀ i, z40 i = 0) (Wr : WCls.Idx → EReal) (b : BiasC.Idx → EReal) :
    scoresAggFirst (Ideal.hostScatterAdd scat64 z64 idxD (Host.gather gath64 h idxS)) h dinv Wl Wr b
      = scoresProjFirst (Ideal.hostScatterAdd scat40 z40 idxD (Host.gather gath40 (proj h Wl) idxS)) h dinv Wr b :=
  scoresAggFirst_eq_scoresProjFirst_of fun r c => aggregate_project_comm hh hWl hd idxD idxS hz64 hz40 r c

end Cert.MeanAgg

end
-- ==== Proof.Bridge.lean ====
/-
  The two spellings of the network agree on real-valued arguments.

  The reference takes, in the last layer, each node's neighbour sums of the 64 hidden features, scales them by
  the node's reciprocal degree and projects them to the 40 classes; the kernel projects the hidden features
  first and sums the 40 projected features over the neighbours.  The neighbour sum is linear, so the two class
  scores are one array as soon as every entry involved is a real number; the row-wise log-softmax of equal
  arrays is equal.  Every entry is real because the arguments are: a neighbour sum of reals is real, the degree
  is a count, its reciprocal divides by a real at least one, and a hidden layer takes reals to reals.
-/
import proofs.«169150_j15985868276093_2_alg».proof.Proof.RefRead
import proofs.«169150_j15985868276093_2_alg».proof.Proof.RefSoftmax
import proofs.«169150_j15985868276093_2_alg».proof.Proof.Linear

set_option maxRecDepth 16384

noncomputable section

namespace Cert.MeanAgg.Bridge

open Idealize.ShloMosaic Idealize.ShloMosaic.ValueIdx Idealize.ShloMosaic.TcCoe
open Cert.ReferenceIdeal Cert.ReferenceIdeal.Gen Cert.ReferenceIdeal.Read Cert.MeanAgg

variable (x0 : (⟨S100000x64, .f32⟩ : BufTy).Contents (Elt Ideal)) (x1 : (⟨S2x1250000, .i32⟩ : BufTy).Contents (Elt Ideal))
  (x2 x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64, .f32⟩ : BufTy).Contents (Elt Ideal))
  (x8 x9 : (⟨S64x40, .f32⟩ : BufTy).Contents (Elt Ideal)) (x10 : (⟨S40, .f32⟩ : BufTy).Contents (Elt Ideal))

/-- The word of one is the real number one. -/
theorem ofBits_one : Ideal.ofBits .f32 0x3F800000#32 = (1 : EReal) := by
  simp [Ideal.ofBits, Ideal.ieee, -EReal.coe_mul]; norm_num

/-- The host's quotient of two arrays, at an entry. -/
theorem hostDivf_at {s : Shape} (a b : FVec Ideal s .f32) (i : s.Idx) :
    Host.divf (F := Ideal) (φ := .f32) a b i = Ideal.div (a i) (b i) := rfl

/-- The larger of two arrays, at an entry. -/
theorem maximumf_at {s : Shape} (a b : FVec Ideal s .f32) (i : s.Idx) :
    maximumf (φ := .f32) a b i = max (a i) (b i) := rfl

/-! ## Every intermediate array is real-valued -/

/-- The degree: a count of the edges that land on the node. -/
theorem realValued_deg : RealValued (val_main_v7 (F := Ideal) x1) := by
  rw [Cert.MeanAgg.Ref.v7_unfold]
  refine realValued_scatterAdd _ (realValued_of_zero fun i => ?_) _ ((realValued_iff _).2 fun i => ?_)
  · show Ideal.ofBits .f32 0x00000000#32 = 0
    exact Ideal.ofBits_zero_f32
  · show IsReal (Ideal.ofBits .f32 0x3F800000#32)
    rw [ofBits_one]; exact ⟨1, EReal.coe_one.symm⟩

/-- The reciprocal degree: one over the larger of the degree and one. -/
theorem realValued_recip : RealValued (val_main_v11 (F := Ideal) x1) := by
  have h10 : ∀ i, val_main_v10 (F := Ideal) i = (1 : EReal) := fun i => ofBits_one
  have h8 : ∀ i, val_main_v8 (F := Ideal) i = (1 : EReal) := fun i => ofBits_one
  have e : val_main_v11 (F := Ideal) x1 = fun i => Ideal.div 1 (max (val_main_v7 (F := Ideal) x1 i) 1) := by
    rw [Cert.MeanAgg.Ref.v11_unfold]
    funext i
    rw [hostDivf_at, maximumf_at, h10, h8]
  rw [e]
  exact realValued_recipDeg (realValued_deg x1)

/-- The same as one column per node. -/
theorem realValued_dinv : RealValued (val_main_v12 (F := Ideal) x1) :=
  (realValued_iff _).2 fun i => by
    obtain ⟨r, z, rfl⟩ : ∃ (r : Fin 100000) (z : Fin 1), i = ix2 r z := ⟨i 0, i 1, eq_ix2 i⟩
    rw [Cert.MeanAgg.Ref.v12_apply]
    exact (realValued_recip x1).apply (ix1 r)

/-- The first hidden layer. -/
theorem realValued_hidden1 (h0 : RealValued x0) (h2 : RealValued x2) (h3 : RealValued x3) (h4 : RealValued x4) :
    RealValued (val_main_v31 (F := Ideal) x0 x1 x2 x3 x4) := by
  rw [Cert.MeanAgg.Ref.hidden1]
  refine realValued_hidden ?_ h0 (realValued_dinv x1) h2 h3 h4
  rw [Cert.MeanAgg.Ref.v22_unfold]
  refine realValued_scatterAdd _ (realValued_of_zero fun i => ?_) _ (realValued_gather _ h0 _)
  show Ideal.ofBits .f32 0x00000000#32 = 0
  exact Ideal.ofBits_zero_f32

/-- The second hidden layer. -/
theorem realValued_hidden2 (h0 : RealValued x0) (h2 : RealValued x2) (h3 : RealValued x3) (h4 : RealValued x4)
    (h5 : RealValued x5) (h6 : RealValued x6) (h7 : RealValued x7) :
    RealValued (val_main_v50 (F := Ideal) x0 x1 x2 x3 x4 x5 x6 x7) := by
  rw [Cert.MeanAgg.Ref.hidden2]
  refine realValued_hidden ?_ (realValued_hidden1 x0 x1 x2 x3 x4 h0 h2 h3 h4) (realValued_dinv x1) h5 h6 h7
  rw [Cert.MeanAgg.Ref.v41_unfold]
  refine realValued_scatterAdd _ (realValued_of_zero fun i => ?_) _ (realValued_gather _ (realValued_hidden1 x0 x1 x2 x3 x4 h0 h2 h3 h4) _)
  show Ideal.ofBits .f32 0x00000000#32 = 0
  exact Ideal.ofBits_zero_f32

/-! ## The bridge -/

/-- The log-softmax of the scores formed from the neighbour sums of the PROJECTED features is the reference's
    result, whose scores are formed from the neighbour sums of the hidden features projected afterwards. -/
theorem projected_eq_reference (h0 : RealValued x0) (h2 : RealValued x2) (h3 : RealValued x3) (h4 : RealValued x4)
    (h5 : RealValued x5) (h6 : RealValued x6) (h7 : RealValued x7) (h8 : RealValued x8)
    (z40 : NodeCls.Idx → EReal) (hz40 : ∀ i, z40 i = 0) :
    logSoftmax (scoresProjFirst
        (Ideal.hostScatterAdd scat40 z40 (val_main_v59 (F := Ideal) x1)
          (Host.gather gath40 (proj (val_main_v50 (F := Ideal) x0 x1 x2 x3 x4 x5 x6 x7) x8) (val_main_v56 (F := Ideal) x1)))
        (val_main_v50 (F := Ideal) x0 x1 x2 x3 x4 x5 x6 x7) (val_main_v12 (F := Ideal) x1) x9 x10)
      = val_main_v69 (F := Ideal) x0 x1 x2 x3 x4 x5 x6 x7 x8 x9 x10 := by
  rw [Cert.MeanAgg.Ref.logSoftmax_read, Cert.MeanAgg.Ref.scores, Cert.MeanAgg.Ref.v60_unfold]
  refine congrArg logSoftmax ?_
  have hz64 : ∀ i, val_main_v58 (F := Ideal) i = 0 := fun i => by
    show Ideal.ofBits .f32 0x00000000#32 = 0
    exact Ideal.ofBits_zero_f32
  exact (scoresAggFirst_eq_scoresProjFirst (realValued_hidden2 x0 x1 x2 x3 x4 x5 x6 x7 h0 h2 h3 h4 h5 h6 h7) h8
    (realValued_dinv x1) (val_main_v59 (F := Ideal) x1) (val_main_v56 (F := Ideal) x1) hz64 hz40 x9 x10).symm

end Cert.MeanAgg.Bridge

end
-- ==== Proof.RefValue.lean ====
/-
  What the reference's run leaves in its result buffer, as a term of the argument arrays.

  The reference is a straight line of 101 host operations, and its run leaves at every buffer the value the
  fold of those operations leaves there.  The line is cut where the network's layers end: the degree count,
  the reciprocal degrees and the first hidden layer; the second hidden layer; the class scores; the row-wise
  log-softmax.  Each stretch, started from ANY contents of the buffers, leaves in its last buffer its stage's
  function of what it read, and leaves alone the buffers it does not write; chaining the four gives the result
  as the last stage's function of the arguments.  No step compares more than one stretch's worth of
  operations.
-/
import proofs.«169150_j15985868276093_2_alg».proof.Proof.Patched.ReferenceIdeal.Read
import Idealize.ShloMosaic.Lib.StableHlo.Run

set_option maxRecDepth 16384

noncomputable section

namespace Cert.MeanAgg.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running one list of operations and then another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The endpoints, the degrees and their reciprocals, and the first hidden layer: operations 1 to 41. -/
abbrev opsA : List (HloOp τ sig (Elt F)) :=
  [ unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    nullary main_cst (constant S_ .f32 0x3F800000#32),
    unary main_cst main_v4 (broadcastInDim S1250000 ![] bcast_S_S1250000 : (⟨S_, .f32⟩ : BufTy).Contents (Elt F) → (⟨S1250000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1250000x1 ![0] bcast_S1250000_S1250000x1_0 : (⟨S1250000, .i32⟩ : BufTy).Contents (Elt F) → (⟨S1250000x1, .i32⟩ : BufTy).Contents (Elt F)),
    ternary main_v5 main_v6 main_v4 main_v7 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    unary main_v11 main_v12 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v13 (broadcastInDim S1250000 ![] bcast_S_S1250000 : (⟨S_, .i32⟩ : BufTy).Contents (Elt F) → (⟨S1250000, .i32⟩ : BufTy).Contents (Elt F)),
    binary main_v3 main_v13 main_v14 (cmpi .slt : (⟨S1250000, .i32⟩ : BufTy).Contents (Elt F) → (⟨S1250000, .i32⟩ : BufTy).Contents (Elt F) → (⟨S1250000, .i1⟩ : BufTy).Contents (Elt F)),
    nullary main_c_3 (constantI S_ 32 100000#32),
    unary main_c_3 main_v15 (broadcastInDim S1250000 ![] bcast_S_S1250000 : (⟨S_, .i32⟩ : BufTy).Contents (Elt F) → (⟨S1250000, .i32⟩ : BufTy).Contents (Elt F)),
    binary main_v3 main_v15 main_v16 (addi : (⟨S1250000, .i32⟩ : BufTy).Contents (Elt F) → (⟨S1250000, .i32⟩ : BufTy).Contents (Elt F) → (⟨S1250000, .i32⟩ : BufTy).Contents (Elt F)),
    ternary main_v14 main_v16 main_v3 main_v17 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v17 main_v18 (broadcastInDim S1250000x1 ![0] bcast_S1250000_S1250000x1_0 : (⟨S1250000, .i32⟩ : BufTy).Contents (Elt F) → (⟨S1250000x1, .i32⟩ : BufTy).Contents (Elt F)),
    binary main_arg0 main_v18 main_v19 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_4 (constant S_ .f32 0x00000000#32),
    unary main_cst_4 main_v20 (broadcastInDim S100000x64 ![] bcast_S_S100000x64 : (⟨S_, .f32⟩ : BufTy).Contents (Elt F) → (⟨S100000x64, .f32⟩ : BufTy).Contents (Elt F)),
    unary main_v1 main_v21 (broadcastInDim S1250000x1 ![0] bcast_S1250000_S1250000x1_0 : (⟨S1250000, .i32⟩ : BufTy).Contents (Elt F) → (⟨S1250000x1, .i32⟩ : BufTy).Contents (Elt F)),
    ternary main_v20 main_v21 main_v19 main_v22 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    unary main_v12 main_v23 (broadcastInDim S100000x64 ![0, 1] bcast_S100000x1_S100000x64_0_1 : (⟨S100000x1, .f32⟩ : BufTy).Contents (Elt F) → (⟨S100000x64, .f32⟩ : BufTy).Contents (Elt F)),
    binary main_v22 main_v23 main_v24 (mulf : (⟨S100000x64, .f32⟩ : BufTy).Contents (Elt F) → (⟨S100000x64, .f32⟩ : BufTy).Contents (Elt F) → (⟨S100000x64, .f32⟩ : BufTy).Contents (Elt F)),
    binary main_v24 main_arg2 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v25 main_v27 main_v28 (addf : (⟨S100000x64, .f32⟩ : BufTy).Contents (Elt F) → (⟨S100000x64, .f32⟩ : BufTy).Contents (Elt F) → (⟨S100000x64, .f32⟩ : BufTy).Contents (Elt F)),
    binary main_arg0 main_arg3 main_v29 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v28 main_v29 main_v30 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v30) (TRef.of (T := ⟨S100000x64, .f32⟩) main_call0_v0) (TRef.of (T := ⟨S100000x64, .f32⟩) main_v31) maximumf ]

/-- The second hidden layer: operations 42 to 65. -/
abbrev opsB : List (HloOp τ sig (Elt F)) :=
  [ nullary main_c_5 (constantI S_ 32 0#32),
    unary main_c_5 main_v32 (broadcastInDim S1250000 ![] bcast_S_S1250000 : (⟨S_, .i32⟩ : BufTy).Contents (Elt F) → (⟨S1250000, .i32⟩ : BufTy).Contents (Elt F)),
    binary main_v3 main_v32 main_v33 (cmpi .slt : (⟨S1250000, .i32⟩ : BufTy).Contents (Elt F) → (⟨S1250000, .i32⟩ : BufTy).Contents (Elt F) → (⟨S1250000, .i1⟩ : BufTy).Contents (Elt F)),
    nullary main_c_6 (constantI S_ 32 100000#32),
    unary main_c_6 main_v34 (broadcastInDim S1250000 ![] bcast_S_S1250000 : (⟨S_, .i32⟩ : BufTy).Contents (Elt F) → (⟨S1250000, .i32⟩ : BufTy).Contents (Elt F)),
    binary main_v3 main_v34 main_v35 (addi : (⟨S1250000, .i32⟩ : BufTy).Contents (Elt F) → (⟨S1250000, .i32⟩ : BufTy).Contents (Elt F) → (⟨S1250000, .i32⟩ : BufTy).Contents (Elt F)),
    ternary main_v33 main_v35 main_v3 main_v36 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v36 main_v37 (broadcastInDim S1250000x1 ![0] bcast_S1250000_S1250000x1_0 : (⟨S1250000, .i32⟩ : BufTy).Contents (Elt F) → (⟨S1250000x1, .i32⟩ : BufTy).Contents (Elt F)),
    binary main_v31 main_v37 main_v38 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_7 (constant S_ .f32 0x00000000#32),
    unary main_cst_7 main_v39 (broadcastInDim S100000x64 ![] bcast_S_S100000x64 : (⟨S_, .f32⟩ : BufTy).Contents (Elt F) → (⟨S100000x64, .f32⟩ : BufTy).Contents (Elt F)),
    unary main_v1 main_v40 (broadcastInDim S1250000x1 ![0] bcast_S1250000_S1250000x1_0 : (⟨S1250000, .i32⟩ : BufTy).Contents (Elt F) → (⟨S1250000x1, .i32⟩ : BufTy).Contents (Elt F)),
    ternary main_v39 main_v40 main_v38 main_v41 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    unary main_v12 main_v42 (broadcastInDim S100000x64 ![0, 1] bcast_S100000x1_S100000x64_0_1 : (⟨S100000x1, .f32⟩ : BufTy).Contents (Elt F) → (⟨S100000x64, .f32⟩ : BufTy).Contents (Elt F)),
    binary main_v41 main_v42 main_v43 (mulf : (⟨S100000x64, .f32⟩ : BufTy).Contents (Elt F) → (⟨S100000x64, .f32⟩ : BufTy).Contents (Elt F) → (⟨S100000x64, .f32⟩ : BufTy).Contents (Elt F)),
    binary main_v43 main_arg5 main_v44 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    binary main_v31 main_arg6 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v47 main_v48 main_v49 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v49) (TRef.of (T := ⟨S100000x64, .f32⟩) main_call1_v0) (TRef.of (T := ⟨S100000x64, .f32⟩) main_v50) maximumf ]

/-- The class scores: operations 66 to 86. -/
abbrev opsC : List (HloOp τ sig (Elt F)) :=
  [ nullary main_c_8 (constantI S_ 32 0#32),
    unary main_c_8 main_v51 (broadcastInDim S1250000 ![] bcast_S_S1250000 : (⟨S_, .i32⟩ : BufTy).Contents (Elt F) → (⟨S1250000, .i32⟩ : BufTy).Contents (Elt F)),
    binary main_v3 main_v51 main_v52 (cmpi .slt : (⟨S1250000, .i32⟩ : BufTy).Contents (Elt F) → (⟨S1250000, .i32⟩ : BufTy).Contents (Elt F) → (⟨S1250000, .i1⟩ : BufTy).Contents (Elt F)),
    nullary main_c_9 (constantI S_ 32 100000#32),
    unary main_c_9 main_v53 (broadcastInDim S1250000 ![] bcast_S_S1250000 : (⟨S_, .i32⟩ : BufTy).Contents (Elt F) → (⟨S1250000, .i32⟩ : BufTy).Contents (Elt F)),
    binary main_v3 main_v53 main_v54 (addi : (⟨S1250000, .i32⟩ : BufTy).Contents (Elt F) → (⟨S1250000, .i32⟩ : BufTy).Contents (Elt F) → (⟨S1250000, .i32⟩ : BufTy).Contents (Elt F)),
    ternary main_v52 main_v54 main_v3 main_v55 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v55 main_v56 (broadcastInDim S1250000x1 ![0] bcast_S1250000_S1250000x1_0 : (⟨S1250000, .i32⟩ : BufTy).Contents (Elt F) → (⟨S1250000x1, .i32⟩ : BufTy).Contents (Elt F)),
    binary main_v50 main_v56 main_v57 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_10 (constant S_ .f32 0x00000000#32),
    unary main_cst_10 main_v58 (broadcastInDim S100000x64 ![] bcast_S_S100000x64 : (⟨S_, .f32⟩ : BufTy).Contents (Elt F) → (⟨S100000x64, .f32⟩ : BufTy).Contents (Elt F)),
    unary main_v1 main_v59 (broadcastInDim S1250000x1 ![0] bcast_S1250000_S1250000x1_0 : (⟨S1250000, .i32⟩ : BufTy).Contents (Elt F) → (⟨S1250000x1, .i32⟩ : BufTy).Contents (Elt F)),
    ternary main_v58 main_v59 main_v57 main_v60 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    unary main_v12 main_v61 (broadcastInDim S100000x64 ![0, 1] bcast_S100000x1_S100000x64_0_1 : (⟨S100000x1, .f32⟩ : BufTy).Contents (Elt F) → (⟨S100000x64, .f32⟩ : BufTy).Contents (Elt F)),
    binary main_v60 main_v61 main_v62 (mulf : (⟨S100000x64, .f32⟩ : BufTy).Contents (Elt F) → (⟨S100000x64, .f32⟩ : BufTy).Contents (Elt F) → (⟨S100000x64, .f32⟩ : BufTy).Contents (Elt F)),
    binary main_v62 main_arg8 main_v63 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg10 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)),
    binary main_v50 main_arg9 main_v67 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v66 main_v67 main_v68 (addf : (⟨S100000x40, .f32⟩ : BufTy).Contents (Elt F) → (⟨S100000x40, .f32⟩ : BufTy).Contents (Elt F) → (⟨S100000x40, .f32⟩ : BufTy).Contents (Elt F)) ]

/-- The row-wise log-softmax: operations 87 to 101. -/
abbrev opsD : List (HloOp τ sig (Elt F)) :=
  [ TRef.nullary (TRef.of (T := ⟨S_, .f32⟩) main_call2_cst) (constant S_ .f32 0xFF800000#32),
    TRef.binary (TRef.of (T := ⟨S100000x40, .f32⟩) main_v68) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v68) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v69) subf ]

/-- The reference's operations are those four stretches in order. -/
theorem ops_cut : (ops : List (HloOp τ sig (Elt F))) = opsA ++ (opsB ++ (opsC ++ opsD)) := rfl

variable (X : Valuation τ sig (Elt F))

/-! ## The first stretch -/

theorem A_v31 : after opsA X (Proc.devRef .tc main_v31) = val_main_v31 (F := F) (X (Proc.devRef .tc main_arg0)) (X (Proc.devRef .tc main_arg1)) (X (Proc.devRef .tc main_arg2)) (X (Proc.devRef .tc main_arg3)) (X (Proc.devRef .tc main_arg4)) := by
  after_results_simp; rfl
theorem A_v12 : after opsA X (Proc.devRef .tc main_v12) = val_main_v12 (F := F) (X (Proc.devRef .tc main_arg1)) := by
  after_results_simp; rfl
theorem A_v1 : after opsA X (Proc.devRef .tc main_v1) = val_main_v1 (F := F) (X (Proc.devRef .tc main_arg1)) := by
  after_results_simp; rfl
theorem A_v3 : after opsA X (Proc.devRef .tc main_v3) = val_main_v3 (F := F) (X (Proc.devRef .tc main_arg1)) := by
  after_results_simp; rfl
theorem A_keeps_main_arg5 : after opsA X (Proc.devRef .tc main_arg5) = X (Proc.devRef .tc main_arg5) := by after_results_simp
theorem A_keeps_main_arg6 : after opsA X (Proc.devRef .tc main_arg6) = X (Proc.devRef .tc main_arg6) := by after_results_simp
theorem A_keeps_main_arg7 : after opsA X (Proc.devRef .tc main_arg7) = X (Proc.devRef .tc main_arg7) := by after_results_simp
theorem A_keeps_main_arg8 : after opsA X (Proc.devRef .tc main_arg8) = X (Proc.devRef .tc main_arg8) := by after_results_simp
theorem A_keeps_main_arg9 : after opsA X (Proc.devRef .tc main_arg9) = X (Proc.devRef .tc main_arg9) := by after_results_simp
theorem A_keeps_main_arg10 : after opsA X (Proc.devRef .tc main_arg10) = X (Proc.devRef .tc main_arg10) := by after_results_simp

/-! ## The second stretch -/

theorem B_v50 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (h31 : X (Proc.devRef .tc main_v31) = val_main_v31 (F := F) x0 x1 x2 x3 x4) (h12 : X (Proc.devRef .tc main_v12) = val_main_v12 (F := F) x1)
    (h1 : X (Proc.devRef .tc main_v1) = val_main_v1 (F := F) x1) (h3 : X (Proc.devRef .tc main_v3) = val_main_v3 (F := F) x1) :
    after opsB X (Proc.devRef .tc main_v50) = val_main_v50 (F := F) x0 x1 x2 x3 x4 (X (Proc.devRef .tc main_arg5)) (X (Proc.devRef .tc main_arg6)) (X (Proc.devRef .tc main_arg7)) := by
  after_results_simp
  rw [h31, h12, h1, h3]
  rfl
theorem B_keeps_main_v12 : after opsB X (Proc.devRef .tc main_v12) = X (Proc.devRef .tc main_v12) := by after_results_simp
theorem B_keeps_main_v1 : after opsB X (Proc.devRef .tc main_v1) = X (Proc.devRef .tc main_v1) := by after_results_simp
theorem B_keeps_main_v3 : after opsB X (Proc.devRef .tc main_v3) = X (Proc.devRef .tc main_v3) := by after_results_simp
theorem B_keeps_main_arg8 : after opsB X (Proc.devRef .tc main_arg8) = X (Proc.devRef .tc main_arg8) := by after_results_simp
theorem B_keeps_main_arg9 : after opsB X (Proc.devRef .tc main_arg9) = X (Proc.devRef .tc main_arg9) := by after_results_simp
theorem B_keeps_main_arg10 : after opsB X (Proc.devRef .tc main_arg10) = X (Proc.devRef .tc main_arg10) := by after_results_simp

/-! ## The third stretch -/

theorem C_v68 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (h50 : X (Proc.devRef .tc main_v50) = val_main_v50 (F := F) x0 x1 x2 x3 x4 x5 x6 x7) (h12 : X (Proc.devRef .tc main_v12) = val_main_v12 (F := F) x1)
    (h1 : X (Proc.devRef .tc main_v1) = val_main_v1 (F := F) x1) (h3 : X (Proc.devRef .tc main_v3) = val_main_v3 (F := F) x1) :
    after opsC X (Proc.devRef .tc main_v68) = val_main_v68 (F := F) x0 x1 x2 x3 x4 x5 x6 x7 (X (Proc.devRef .tc main_arg8)) (X (Proc.devRef .tc main_arg9)) (X (Proc.devRef .tc main_arg10)) := by
  after_results_simp
  rw [h50, h12, h1, h3]
  rfl

/-! ## The last stretch, one operation at a time

The log-softmax is spelt as an inlined call: fifteen operations whose values are carried between typed references,
each a transport along an equation of buffer types.  Each operation is read alone — its value is its stage
function of the values it reads — and a buffer an operation does not write keeps its contents. -/

/-! Each stage function is its one operation applied to the stage functions before it. -/

theorem eq_call2_cst :
    val_main_call2_cst (F := F) = constant S_ .f32 0xFF800000#32 := rfl
theorem eq_call2_v0 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v0 (F := F) x0 x1 x2 x3 x4 x5 x6 x7 x8 x9 x10 = Host.reduce FloatOps.maximumf (val_main_v68 (F := F) x0 x1 x2 x3 x4 x5 x6 x7 x8 x9 x10) (val_main_call2_cst (F := F)) reducesTo_S100000x40_S100000_d1 h_S_ := rfl
theorem eq_call2_cst_0 :
    val_main_call2_cst_0 (F := F) = constant S_ .f32 0xFF800000#32 := rfl
theorem eq_call2_v1 :
    val_main_call2_v1 (F := F) = broadcastInDim S100000 ![] bcast_S_S100000 (val_main_call2_cst_0 (F := F)) := rfl
theorem eq_call2_v2 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v2 (F := F) x0 x1 x2 x3 x4 x5 x6 x7 x8 x9 x10 = maximumf (val_main_call2_v1 (F := F)) (val_main_call2_v0 (F := F) x0 x1 x2 x3 x4 x5 x6 x7 x8 x9 x10) := rfl
theorem eq_call2_v3 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v3 (F := F) x0 x1 x2 x3 x4 x5 x6 x7 x8 x9 x10 = broadcastInDim S100000x1 ![0] bcast_S100000_S100000x1_0 (val_main_call2_v2 (F := F) x0 x1 x2 x3 x4 x5 x6 x7 x8 x9 x10) := rfl
theorem eq_call2_v4 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v4 (F := F) x0 x1 x2 x3 x4 x5 x6 x7 x8 x9 x10 = broadcastInDim S100000x40 ![0, 1] bcast_S100000x1_S100000x40_0_1 (val_main_call2_v3 (F := F) x0 x1 x2 x3 x4 x5 x6 x7 x8 x9 x10) := rfl
theorem eq_call2_v5 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v5 (F := F) x0 x1 x2 x3 x4 x5 x6 x7 x8 x9 x10 = subf (val_main_v68 (F := F) x0 x1 x2 x3 x4 x5 x6 x7 x8 x9 x10) (val_main_call2_v4 (F := F) x0 x1 x2 x3 x4 x5 x6 x7 x8 x9 x10) := rfl
theorem eq_call2_v6 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v6 (F := F) x0 x1 x2 x3 x4 x5 x6 x7 x8 x9 x10 = Host.exp (val_main_call2_v5 (F := F) x0 x1 x2 x3 x4 x5 x6 x7 x8 x9 x10) := rfl
theorem eq_call2_cst_1 :
    val_main_call2_cst_1 (F := F) = constant S_ .f32 0x00000000#32 := rfl
theorem eq_call2_v7 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v7 (F := F) x0 x1 x2 x3 x4 x5 x6 x7 x8 x9 x10 = Host.reduceAdd (val_main_call2_v6 (F := F) x0 x1 x2 x3 x4 x5 x6 x7 x8 x9 x10) (val_main_call2_cst_1 (F := F)) reducesTo_S100000x40_S100000_d1 h_S_ := rfl
theorem eq_call2_v8 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v8 (F := F) x0 x1 x2 x3 x4 x5 x6 x7 x8 x9 x10 = broadcastInDim S100000x1 ![0] bcast_S100000_S100000x1_0 (val_main_call2_v7 (F := F) x0 x1 x2 x3 x4 x5 x6 x7 x8 x9 x10) := rfl
theorem eq_call2_v9 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v9 (F := F) x0 x1 x2 x3 x4 x5 x6 x7 x8 x9 x10 = Host.log (val_main_call2_v8 (F := F) x0 x1 x2 x3 x4 x5 x6 x7 x8 x9 x10) := rfl
theorem eq_call2_v10 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_call2_v10 (F := F) x0 x1 x2 x3 x4 x5 x6 x7 x8 x9 x10 = broadcastInDim S100000x40 ![0, 1] bcast_S100000x1_S100000x40_0_1 (val_main_call2_v9 (F := F) x0 x1 x2 x3 x4 x5 x6 x7 x8 x9 x10) := rfl
theorem eq_v69 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F)) :
    val_main_v69 (F := F) x0 x1 x2 x3 x4 x5 x6 x7 x8 x9 x10 = subf (val_main_call2_v5 (F := F) x0 x1 x2 x3 x4 x5 x6 x7 x8 x9 x10) (val_main_call2_v10 (F := F) x0 x1 x2 x3 x4 x5 x6 x7 x8 x9 x10) := rfl

/-! One operation, from any contents of the buffers it reads. -/

theorem D86 :
    after ([ TRef.nullary (TRef.of (T := ⟨S_, .f32⟩) main_call2_cst) (constant S_ .f32 0xFF800000#32) ] : List (HloOp τ sig (Elt F))) X (Proc.devRef .tc main_call2_cst) = val_main_call2_cst (F := F) := by
  after_results_simp
  simp only [TRef.ofBuf, TRef.toBuf, cast_cast, cast_eq]
  rw [eq_call2_cst]
theorem D87 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_v68 : X (Proc.devRef .tc main_v68) = val_main_v68 (F := F) x0 x1 x2 x3 x4 x5 x6 x7 x8 x9 x10)
    (h_call2_cst : X (Proc.devRef .tc main_call2_cst) = val_main_call2_cst (F := F)) :
    after ([ TRef.binary (TRef.of (T := ⟨S100000x40, .f32⟩) main_v68) (TRef.of (T := ⟨S_, .f32⟩) main_call2_cst) (TRef.of (T := ⟨S100000, .f32⟩) main_call2_v0) (fun x v => Host.reduce FloatOps.maximumf x v reducesTo_S100000x40_S100000_d1 h_S_) ] : List (HloOp τ sig (Elt F))) X (Proc.devRef .tc main_call2_v0) = val_main_call2_v0 (F := F) x0 x1 x2 x3 x4 x5 x6 x7 x8 x9 x10 := by
  after_results_simp
  simp only [TRef.ofBuf, TRef.toBuf, cast_cast, cast_eq]
  rw [h_v68, h_call2_cst, eq_call2_v0 x0 x1 x2 x3 x4 x5 x6 x7 x8 x9 x10]
theorem D88 :
    after ([ TRef.nullary (TRef.of (T := ⟨S_, .f32⟩) main_call2_cst_0) (constant S_ .f32 0xFF800000#32) ] : List (HloOp τ sig (Elt F))) X (Proc.devRef .tc main_call2_cst_0) = val_main_call2_cst_0 (F := F) := by
  after_results_simp
  simp only [TRef.ofBuf, TRef.toBuf, cast_cast, cast_eq]
  rw [eq_call2_cst_0]
theorem D89 (h_call2_cst_0 : X (Proc.devRef .tc main_call2_cst_0) = val_main_call2_cst_0 (F := F)) :
    after ([ TRef.unary (TRef.of (T := ⟨S_, .f32⟩) main_call2_cst_0) (TRef.of (T := ⟨S100000, .f32⟩) main_call2_v1) (broadcastInDim S100000 ![] bcast_S_S100000) ] : List (HloOp τ sig (Elt F))) X (Proc.devRef .tc main_call2_v1) = val_main_call2_v1 (F := F) := by
  after_results_simp
  simp only [TRef.ofBuf, TRef.toBuf, cast_cast, cast_eq]
  rw [h_call2_cst_0, eq_call2_v1]
theorem D90 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_call2_v1 : X (Proc.devRef .tc main_call2_v1) = val_main_call2_v1 (F := F))
    (h_call2_v0 : X (Proc.devRef .tc main_call2_v0) = val_main_call2_v0 (F := F) x0 x1 x2 x3 x4 x5 x6 x7 x8 x9 x10) :
    after ([ TRef.binary (TRef.of (T := ⟨S100000, .f32⟩) main_call2_v1) (TRef.of (T := ⟨S100000, .f32⟩) main_call2_v0) (TRef.of (T := ⟨S100000, .f32⟩) main_call2_v2) maximumf ] : List (HloOp τ sig (Elt F))) X (Proc.devRef .tc main_call2_v2) = val_main_call2_v2 (F := F) x0 x1 x2 x3 x4 x5 x6 x7 x8 x9 x10 := by
  after_results_simp
  simp only [TRef.ofBuf, TRef.toBuf, cast_cast, cast_eq]
  rw [h_call2_v1, h_call2_v0, eq_call2_v2 x0 x1 x2 x3 x4 x5 x6 x7 x8 x9 x10]
theorem D91 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_call2_v2 : X (Proc.devRef .tc main_call2_v2) = val_main_call2_v2 (F := F) x0 x1 x2 x3 x4 x5 x6 x7 x8 x9 x10) :
    after ([ TRef.unary (TRef.of (T := ⟨S100000, .f32⟩) main_call2_v2) (TRef.of (T := ⟨S100000x1, .f32⟩) main_call2_v3) (broadcastInDim S100000x1 ![0] bcast_S100000_S100000x1_0) ] : List (HloOp τ sig (Elt F))) X (Proc.devRef .tc main_call2_v3) = val_main_call2_v3 (F := F) x0 x1 x2 x3 x4 x5 x6 x7 x8 x9 x10 := by
  after_results_simp
  simp only [TRef.ofBuf, TRef.toBuf, cast_cast, cast_eq]
  rw [h_call2_v2, eq_call2_v3 x0 x1 x2 x3 x4 x5 x6 x7 x8 x9 x10]
theorem D92 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_call2_v3 : X (Proc.devRef .tc main_call2_v3) = val_main_call2_v3 (F := F) x0 x1 x2 x3 x4 x5 x6 x7 x8 x9 x10) :
    after ([ TRef.unary (TRef.of (T := ⟨S100000x1, .f32⟩) main_call2_v3) (TRef.of (T := ⟨S100000x40, .f32⟩) main_call2_v4) (broadcastInDim S100000x40 ![0, 1] bcast_S100000x1_S100000x40_0_1) ] : List (HloOp τ sig (Elt F))) X (Proc.devRef .tc main_call2_v4) = val_main_call2_v4 (F := F) x0 x1 x2 x3 x4 x5 x6 x7 x8 x9 x10 := by
  after_results_simp
  simp only [TRef.ofBuf, TRef.toBuf, cast_cast, cast_eq]
  rw [h_call2_v3, eq_call2_v4 x0 x1 x2 x3 x4 x5 x6 x7 x8 x9 x10]
theorem D93 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_v68 : X (Proc.devRef .tc main_v68) = val_main_v68 (F := F) x0 x1 x2 x3 x4 x5 x6 x7 x8 x9 x10)
    (h_call2_v4 : X (Proc.devRef .tc main_call2_v4) = val_main_call2_v4 (F := F) x0 x1 x2 x3 x4 x5 x6 x7 x8 x9 x10) :
    after ([ TRef.binary (TRef.of (T := ⟨S100000x40, .f32⟩) main_v68) (TRef.of (T := ⟨S100000x40, .f32⟩) main_call2_v4) (TRef.of (T := ⟨S100000x40, .f32⟩) main_call2_v5) subf ] : List (HloOp τ sig (Elt F))) X (Proc.devRef .tc main_call2_v5) = val_main_call2_v5 (F := F) x0 x1 x2 x3 x4 x5 x6 x7 x8 x9 x10 := by
  after_results_simp
  simp only [TRef.ofBuf, TRef.toBuf, cast_cast, cast_eq]
  rw [h_v68, h_call2_v4, eq_call2_v5 x0 x1 x2 x3 x4 x5 x6 x7 x8 x9 x10]
theorem D94 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_call2_v5 : X (Proc.devRef .tc main_call2_v5) = val_main_call2_v5 (F := F) x0 x1 x2 x3 x4 x5 x6 x7 x8 x9 x10) :
    after ([ TRef.unary (TRef.of (T := ⟨S100000x40, .f32⟩) main_call2_v5) (TRef.of (T := ⟨S100000x40, .f32⟩) main_call2_v6) Host.exp ] : List (HloOp τ sig (Elt F))) X (Proc.devRef .tc main_call2_v6) = val_main_call2_v6 (F := F) x0 x1 x2 x3 x4 x5 x6 x7 x8 x9 x10 := by
  after_results_simp
  simp only [TRef.ofBuf, TRef.toBuf, cast_cast, cast_eq]
  rw [h_call2_v5, eq_call2_v6 x0 x1 x2 x3 x4 x5 x6 x7 x8 x9 x10]
theorem D95 :
    after ([ TRef.nullary (TRef.of (T := ⟨S_, .f32⟩) main_call2_cst_1) (constant S_ .f32 0x00000000#32) ] : List (HloOp τ sig (Elt F))) X (Proc.devRef .tc main_call2_cst_1) = val_main_call2_cst_1 (F := F) := by
  after_results_simp
  simp only [TRef.ofBuf, TRef.toBuf, cast_cast, cast_eq]
  rw [eq_call2_cst_1]
theorem D96 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_call2_v6 : X (Proc.devRef .tc main_call2_v6) = val_main_call2_v6 (F := F) x0 x1 x2 x3 x4 x5 x6 x7 x8 x9 x10)
    (h_call2_cst_1 : X (Proc.devRef .tc main_call2_cst_1) = val_main_call2_cst_1 (F := F)) :
    after ([ TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_) ] : List (HloOp τ sig (Elt F))) X (Proc.devRef .tc main_call2_v7) = val_main_call2_v7 (F := F) x0 x1 x2 x3 x4 x5 x6 x7 x8 x9 x10 := by
  after_results_simp
  simp only [TRef.ofBuf, TRef.toBuf, cast_cast, cast_eq]
  rw [h_call2_v6, h_call2_cst_1, eq_call2_v7 x0 x1 x2 x3 x4 x5 x6 x7 x8 x9 x10]
theorem D97 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_call2_v7 : X (Proc.devRef .tc main_call2_v7) = val_main_call2_v7 (F := F) x0 x1 x2 x3 x4 x5 x6 x7 x8 x9 x10) :
    after ([ TRef.unary (TRef.of (T := ⟨S100000, .f32⟩) main_call2_v7) (TRef.of (T := ⟨S100000x1, .f32⟩) main_call2_v8) (broadcastInDim S100000x1 ![0] bcast_S100000_S100000x1_0) ] : List (HloOp τ sig (Elt F))) X (Proc.devRef .tc main_call2_v8) = val_main_call2_v8 (F := F) x0 x1 x2 x3 x4 x5 x6 x7 x8 x9 x10 := by
  after_results_simp
  simp only [TRef.ofBuf, TRef.toBuf, cast_cast, cast_eq]
  rw [h_call2_v7, eq_call2_v8 x0 x1 x2 x3 x4 x5 x6 x7 x8 x9 x10]
theorem D98 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_call2_v8 : X (Proc.devRef .tc main_call2_v8) = val_main_call2_v8 (F := F) x0 x1 x2 x3 x4 x5 x6 x7 x8 x9 x10) :
    after ([ TRef.unary (TRef.of (T := ⟨S100000x1, .f32⟩) main_call2_v8) (TRef.of (T := ⟨S100000x1, .f32⟩) main_call2_v9) Host.log ] : List (HloOp τ sig (Elt F))) X (Proc.devRef .tc main_call2_v9) = val_main_call2_v9 (F := F) x0 x1 x2 x3 x4 x5 x6 x7 x8 x9 x10 := by
  after_results_simp
  simp only [TRef.ofBuf, TRef.toBuf, cast_cast, cast_eq]
  rw [h_call2_v8, eq_call2_v9 x0 x1 x2 x3 x4 x5 x6 x7 x8 x9 x10]
theorem D99 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_call2_v9 : X (Proc.devRef .tc main_call2_v9) = val_main_call2_v9 (F := F) x0 x1 x2 x3 x4 x5 x6 x7 x8 x9 x10) :
    after ([ TRef.unary (TRef.of (T := ⟨S100000x1, .f32⟩) main_call2_v9) (TRef.of (T := ⟨S100000x40, .f32⟩) main_call2_v10) (broadcastInDim S100000x40 ![0, 1] bcast_S100000x1_S100000x40_0_1) ] : List (HloOp τ sig (Elt F))) X (Proc.devRef .tc main_call2_v10) = val_main_call2_v10 (F := F) x0 x1 x2 x3 x4 x5 x6 x7 x8 x9 x10 := by
  after_results_simp
  simp only [TRef.ofBuf, TRef.toBuf, cast_cast, cast_eq]
  rw [h_call2_v9, eq_call2_v10 x0 x1 x2 x3 x4 x5 x6 x7 x8 x9 x10]
theorem D100 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h_call2_v5 : X (Proc.devRef .tc main_call2_v5) = val_main_call2_v5 (F := F) x0 x1 x2 x3 x4 x5 x6 x7 x8 x9 x10)
    (h_call2_v10 : X (Proc.devRef .tc main_call2_v10) = val_main_call2_v10 (F := F) x0 x1 x2 x3 x4 x5 x6 x7 x8 x9 x10) :
    after ([ TRef.binary (TRef.of (T := ⟨S100000x40, .f32⟩) main_call2_v5) (TRef.of (T := ⟨S100000x40, .f32⟩) main_call2_v10) (TRef.of (T := ⟨S100000x40, .f32⟩) main_v69) subf ] : List (HloOp τ sig (Elt F))) X (Proc.devRef .tc main_v69) = val_main_v69 (F := F) x0 x1 x2 x3 x4 x5 x6 x7 x8 x9 x10 := by
  after_results_simp
  simp only [TRef.ofBuf, TRef.toBuf, cast_cast, cast_eq]
  rw [h_call2_v5, h_call2_v10, eq_v69 x0 x1 x2 x3 x4 x5 x6 x7 x8 x9 x10]

/-! What an operation does not write, it keeps. -/

theorem K86_v68 : after ([ TRef.nullary (TRef.of (T := ⟨S_, .f32⟩) main_call2_cst) (constant S_ .f32 0xFF800000#32) ] : List (HloOp τ sig (Elt F))) X (Proc.devRef .tc main_v68) = X (Proc.devRef .tc main_v68) := by after_results_simp
theorem K87_v68 : after ([ TRef.binary (TRef.of (T := ⟨S100000x40, .f32⟩) main_v68) (TRef.of (T := ⟨S_, .f32⟩) main_call2_cst) (TRef.of (T := ⟨S100000, .f32⟩) main_call2_v0) (fun x v => Host.reduce FloatOps.maximumf x v reducesTo_S100000x40_S100000_d1 h_S_) ] : List (HloOp τ sig (Elt F))) X (Proc.devRef .tc main_v68) = X (Proc.devRef .tc main_v68) := by after_results_simp
theorem K88_call2_v0 : after ([ TRef.nullary (TRef.of (T := ⟨S_, .f32⟩) main_call2_cst_0) (constant S_ .f32 0xFF800000#32) ] : List (HloOp τ sig (Elt F))) X (Proc.devRef .tc main_call2_v0) = X (Proc.devRef .tc main_call2_v0) := by after_results_simp
theorem K88_v68 : after ([ TRef.nullary (TRef.of (T := ⟨S_, .f32⟩) main_call2_cst_0) (constant S_ .f32 0xFF800000#32) ] : List (HloOp τ sig (Elt F))) X (Proc.devRef .tc main_v68) = X (Proc.devRef .tc main_v68) := by after_results_simp
theorem K89_call2_v0 : after ([ TRef.unary (TRef.of (T := ⟨S_, .f32⟩) main_call2_cst_0) (TRef.of (T := ⟨S100000, .f32⟩) main_call2_v1) (broadcastInDim S100000 ![] bcast_S_S100000) ] : List (HloOp τ sig (Elt F))) X (Proc.devRef .tc main_call2_v0) = X (Proc.devRef .tc main_call2_v0) := by after_results_simp
theorem K89_v68 : after ([ TRef.unary (TRef.of (T := ⟨S_, .f32⟩) main_call2_cst_0) (TRef.of (T := ⟨S100000, .f32⟩) main_call2_v1) (broadcastInDim S100000 ![] bcast_S_S100000) ] : List (HloOp τ sig (Elt F))) X (Proc.devRef .tc main_v68) = X (Proc.devRef .tc main_v68) := by after_results_simp
theorem K90_v68 : after ([ TRef.binary (TRef.of (T := ⟨S100000, .f32⟩) main_call2_v1) (TRef.of (T := ⟨S100000, .f32⟩) main_call2_v0) (TRef.of (T := ⟨S100000, .f32⟩) main_call2_v2) maximumf ] : List (HloOp τ sig (Elt F))) X (Proc.devRef .tc main_v68) = X (Proc.devRef .tc main_v68) := by after_results_simp
theorem K91_v68 : after ([ TRef.unary (TRef.of (T := ⟨S100000, .f32⟩) main_call2_v2) (TRef.of (T := ⟨S100000x1, .f32⟩) main_call2_v3) (broadcastInDim S100000x1 ![0] bcast_S100000_S100000x1_0) ] : List (HloOp τ sig (Elt F))) X (Proc.devRef .tc main_v68) = X (Proc.devRef .tc main_v68) := by after_results_simp
theorem K92_v68 : after ([ TRef.unary (TRef.of (T := ⟨S100000x1, .f32⟩) main_call2_v3) (TRef.of (T := ⟨S100000x40, .f32⟩) main_call2_v4) (broadcastInDim S100000x40 ![0, 1] bcast_S100000x1_S100000x40_0_1) ] : List (HloOp τ sig (Elt F))) X (Proc.devRef .tc main_v68) = X (Proc.devRef .tc main_v68) := by after_results_simp
theorem K94_call2_v5 : after ([ TRef.unary (TRef.of (T := ⟨S100000x40, .f32⟩) main_call2_v5) (TRef.of (T := ⟨S100000x40, .f32⟩) main_call2_v6) Host.exp ] : List (HloOp τ sig (Elt F))) X (Proc.devRef .tc main_call2_v5) = X (Proc.devRef .tc main_call2_v5) := by after_results_simp
theorem K95_call2_v5 : after ([ TRef.nullary (TRef.of (T := ⟨S_, .f32⟩) main_call2_cst_1) (constant S_ .f32 0x00000000#32) ] : List (HloOp τ sig (Elt F))) X (Proc.devRef .tc main_call2_v5) = X (Proc.devRef .tc main_call2_v5) := by after_results_simp
theorem K95_call2_v6 : after ([ TRef.nullary (TRef.of (T := ⟨S_, .f32⟩) main_call2_cst_1) (constant S_ .f32 0x00000000#32) ] : List (HloOp τ sig (Elt F))) X (Proc.devRef .tc main_call2_v6) = X (Proc.devRef .tc main_call2_v6) := by after_results_simp
theorem K96_call2_v5 : after ([ TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_) ] : List (HloOp τ sig (Elt F))) X (Proc.devRef .tc main_call2_v5) = X (Proc.devRef .tc main_call2_v5) := by after_results_simp
theorem K97_call2_v5 : after ([ TRef.unary (TRef.of (T := ⟨S100000, .f32⟩) main_call2_v7) (TRef.of (T := ⟨S100000x1, .f32⟩) main_call2_v8) (broadcastInDim S100000x1 ![0] bcast_S100000_S100000x1_0) ] : List (HloOp τ sig (Elt F))) X (Proc.devRef .tc main_call2_v5) = X (Proc.devRef .tc main_call2_v5) := by after_results_simp
theorem K98_call2_v5 : after ([ TRef.unary (TRef.of (T := ⟨S100000x1, .f32⟩) main_call2_v8) (TRef.of (T := ⟨S100000x1, .f32⟩) main_call2_v9) Host.log ] : List (HloOp τ sig (Elt F))) X (Proc.devRef .tc main_call2_v5) = X (Proc.devRef .tc main_call2_v5) := by after_results_simp
theorem K99_call2_v5 : after ([ TRef.unary (TRef.of (T := ⟨S100000x1, .f32⟩) main_call2_v9) (TRef.of (T := ⟨S100000x40, .f32⟩) main_call2_v10) (broadcastInDim S100000x40 ![0, 1] bcast_S100000x1_S100000x40_0_1) ] : List (HloOp τ sig (Elt F))) X (Proc.devRef .tc main_call2_v5) = X (Proc.devRef .tc main_call2_v5) := by after_results_simp

/-- The fifteen operations in a row are the last stretch. -/
theorem opsD_nested :
    after opsD X = after ([ TRef.binary (TRef.of (T := ⟨S100000x40, .f32⟩) main_call2_v5) (TRef.of (T := ⟨S100000x40, .f32⟩) main_call2_v10) (TRef.of (T := ⟨S100000x40, .f32⟩) main_v69) subf ] : List (HloOp τ sig (Elt F))) (after ([ TRef.unary (TRef.of (T := ⟨S100000x1, .f32⟩) main_call2_v9) (TRef.of (T := ⟨S100000x40, .f32⟩) main_call2_v10) (broadcastInDim S100000x40 ![0, 1] bcast_S100000x1_S100000x40_0_1) ] : List (HloOp τ sig (Elt F))) (after ([ TRef.unary (TRef.of (T := ⟨S100000x1, .f32⟩) main_call2_v8) (TRef.of (T := ⟨S100000x1, .f32⟩) main_call2_v9) Host.log ] : List (HloOp τ sig (Elt F))) (after ([ TRef.unary (TRef.of (T := ⟨S100000, .f32⟩) main_call2_v7) (TRef.of (T := ⟨S100000x1, .f32⟩) main_call2_v8) (broadcastInDim S100000x1 ![0] bcast_S100000_S100000x1_0) ] : List (HloOp τ sig (Elt F))) (after ([ TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_) ] : List (HloOp τ sig (Elt F))) (after ([ TRef.nullary (TRef.of (T := ⟨S_, .f32⟩) main_call2_cst_1) (constant S_ .f32 0x00000000#32) ] : List (HloOp τ sig (Elt F))) (after ([ TRef.unary (TRef.of (T := ⟨S100000x40, .f32⟩) main_call2_v5) (TRef.of (T := ⟨S100000x40, .f32⟩) main_call2_v6) Host.exp ] : List (HloOp τ sig (Elt F))) (after ([ TRef.binary (TRef.of (T := ⟨S100000x40, .f32⟩) main_v68) (TRef.of (T := ⟨S100000x40, .f32⟩) main_call2_v4) (TRef.of (T := ⟨S100000x40, .f32⟩) main_call2_v5) subf ] : List (HloOp τ sig (Elt F))) (after ([ TRef.unary (TRef.of (T := ⟨S100000x1, .f32⟩) main_call2_v3) (TRef.of (T := ⟨S100000x40, .f32⟩) main_call2_v4) (broadcastInDim S100000x40 ![0, 1] bcast_S100000x1_S100000x40_0_1) ] : List (HloOp τ sig (Elt F))) (after ([ TRef.unary (TRef.of (T := ⟨S100000, .f32⟩) main_call2_v2) (TRef.of (T := ⟨S100000x1, .f32⟩) main_call2_v3) (broadcastInDim S100000x1 ![0] bcast_S100000_S100000x1_0) ] : List (HloOp τ sig (Elt F))) (after ([ TRef.binary (TRef.of (T := ⟨S100000, .f32⟩) main_call2_v1) (TRef.of (T := ⟨S100000, .f32⟩) main_call2_v0) (TRef.of (T := ⟨S100000, .f32⟩) main_call2_v2) maximumf ] : List (HloOp τ sig (Elt F))) (after ([ TRef.unary (TRef.of (T := ⟨S_, .f32⟩) main_call2_cst_0) (TRef.of (T := ⟨S100000, .f32⟩) main_call2_v1) (broadcastInDim S100000 ![] bcast_S_S100000) ] : List (HloOp τ sig (Elt F))) (after ([ TRef.nullary (TRef.of (T := ⟨S_, .f32⟩) main_call2_cst_0) (constant S_ .f32 0xFF800000#32) ] : List (HloOp τ sig (Elt F))) (after ([ TRef.binary (TRef.of (T := ⟨S100000x40, .f32⟩) main_v68) (TRef.of (T := ⟨S_, .f32⟩) main_call2_cst) (TRef.of (T := ⟨S100000, .f32⟩) main_call2_v0) (fun x v => Host.reduce FloatOps.maximumf x v reducesTo_S100000x40_S100000_d1 h_S_) ] : List (HloOp τ sig (Elt F))) (after ([ TRef.nullary (TRef.of (T := ⟨S_, .f32⟩) main_call2_cst) (constant S_ .f32 0xFF800000#32) ] : List (HloOp τ sig (Elt F))) (X))))))))))))))) := rfl

theorem D_v69 (x0 : (⟨S100000x64, .f32⟩ : BufTy).Contents (Elt F)) (x1 : (⟨S2x1250000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 x9 : (⟨S64x40, .f32⟩ : BufTy).Contents (Elt F)) (x10 : (⟨S40, .f32⟩ : BufTy).Contents (Elt F))
    (h68 : X (Proc.devRef .tc main_v68) = val_main_v68 (F := F) x0 x1 x2 x3 x4 x5 x6 x7 x8 x9 x10) :
    after opsD X (Proc.devRef .tc main_v69) = val_main_v69 (F := F) x0 x1 x2 x3 x4 x5 x6 x7 x8 x9 x10 := by
  rw [opsD_nested]
  refine D100 _ x0 x1 x2 x3 x4 x5 x6 x7 x8 x9 x10 ?_ ?_
  ·
    refine (K99_call2_v5 _).trans ?_
    refine (K98_call2_v5 _).trans ?_
    refine (K97_call2_v5 _).trans ?_
    refine (K96_call2_v5 _).trans ?_
    refine (K95_call2_v5 _).trans ?_
    refine (K94_call2_v5 _).trans ?_
    refine D93 _ x0 x1 x2 x3 x4 x5 x6 x7 x8 x9 x10 ?_ ?_
    ·
      refine (K92_v68 _).trans ?_
      refine (K91_v68 _).trans ?_
      refine (K90_v68 _).trans ?_
      refine (K89_v68 _).trans ?_
      refine (K88_v68 _).trans ?_
      refine (K87_v68 _).trans ?_
      refine (K86_v68 _).trans ?_
      exact h68
    ·
      refine D92 _ x0 x1 x2 x3 x4 x5 x6 x7 x8 x9 x10 ?_
      ·
        refine D91 _ x0 x1 x2 x3 x4 x5 x6 x7 x8 x9 x10 ?_
        ·
          refine D90 _ x0 x1 x2 x3 x4 x5 x6 x7 x8 x9 x10 ?_ ?_
          ·
            refine D89 _ ?_
            ·
              exact D88 _
          ·
            refine (K89_call2_v0 _).trans ?_
            refine (K88_call2_v0 _).trans ?_
            refine D87 _ x0 x1 x2 x3 x4 x5 x6 x7 x8 x9 x10 ?_ ?_
            ·
              refine (K86_v68 _).trans ?_
              exact h68
            ·
              exact D86 _
  ·
    refine D99 _ x0 x1 x2 x3 x4 x5 x6 x7 x8 x9 x10 ?_
    ·
      refine D98 _ x0 x1 x2 x3 x4 x5 x6 x7 x8 x9 x10 ?_
      ·
        refine D97 _ x0 x1 x2 x3 x4 x5 x6 x7 x8 x9 x10 ?_
        ·
          refine D96 _ x0 x1 x2 x3 x4 x5 x6 x7 x8 x9 x10 ?_ ?_
          ·
            refine (K95_call2_v6 _).trans ?_
            refine D94 _ x0 x1 x2 x3 x4 x5 x6 x7 x8 x9 x10 ?_
            ·
              refine D93 _ x0 x1 x2 x3 x4 x5 x6 x7 x8 x9 x10 ?_ ?_
              ·
                refine (K92_v68 _).trans ?_
                refine (K91_v68 _).trans ?_
                refine (K90_v68 _).trans ?_
                refine (K89_v68 _).trans ?_
                refine (K88_v68 _).trans ?_
                refine (K87_v68 _).trans ?_
                refine (K86_v68 _).trans ?_
                exact h68
              ·
                refine D92 _ x0 x1 x2 x3 x4 x5 x6 x7 x8 x9 x10 ?_
                ·
                  refine D91 _ x0 x1 x2 x3 x4 x5 x6 x7 x8 x9 x10 ?_
                  ·
                    refine D90 _ x0 x1 x2 x3 x4 x5 x6 x7 x8 x9 x10 ?_ ?_
                    ·
                      refine D89 _ ?_
                      ·
                        exact D88 _
                    ·
                      refine (K89_call2_v0 _).trans ?_
                      refine (K88_call2_v0 _).trans ?_
                      refine D87 _ x0 x1 x2 x3 x4 x5 x6 x7 x8 x9 x10 ?_ ?_
                      ·
                        refine (K86_v68 _).trans ?_
                        exact h68
                      ·
                        exact D86 _
          ·
            exact D95 _

/-! ## The four together -/

/-- THE REFERENCE'S RESULT: what its run leaves in the result buffer is the last stage's function of the
    argument arrays. -/
theorem result_eq (m : (ℓ : Loc nD τ sig) → Buf (Elt F) ℓ) (c : Dev nD) :
    res_main_v69 (F := F) m c = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v69
  rw [ops_cut, after_append, after_append, after_append]
  have hB := B_v50 (after opsA (launchContents m c)) _ _ _ _ _ (A_v31 _) (A_v12 _) (A_v1 _) (A_v3 _)
  rw [A_keeps_main_arg5, A_keeps_main_arg6, A_keeps_main_arg7] at hB
  have hC := C_v68 (after opsB (after opsA (launchContents m c))) _ _ _ _ _ _ _ _ hB
    ((B_keeps_main_v12 _).trans (A_v12 _)) ((B_keeps_main_v1 _).trans (A_v1 _)) ((B_keeps_main_v3 _).trans (A_v3 _))
  rw [B_keeps_main_arg8, B_keeps_main_arg9, B_keeps_main_arg10, A_keeps_main_arg8, A_keeps_main_arg9, A_keeps_main_arg10] at hC
  exact D_v69 (after opsC (after opsB (after opsA (launchContents m c)))) _ _ _ _ _ _ _ _ _ _ _ hC

end Cert.MeanAgg.RefValue

end
-- ==== Proof.Finite.lean ====
/-
  From the finiteness precondition to real-valued arguments.

  The precondition is the conjunction, over the ten floating-point arguments, of "every entry has absolute value
  strictly below plus infinity".  When floats are read as extended reals the absolute value of x is max x (-x),
  which is the top element for either infinity; so the conjunction says that no entry of any argument is an
  infinity, that is, every argument is an array of real numbers.
-/
import proofs.«169150_j15985868276093_2_alg».proof.Proof.Gen.Pre_finite_inputs
import proofs.«169150_j15985868276093_2_alg».proof.Proof.Linear
import Idealize.ShloMosaic.Lib.ValueIdx
import Idealize.ShloMosaic.Lib.ReduceAll
import Idealize.ShloMosaic.PureOps.Ideal.Laws

noncomputable section

namespace Cert.MeanAgg

open Idealize.ShloMosaic Idealize.ShloMosaic.ValueIdx

/-- The rank-0 shape has exactly one index. -/
instance subsingleton_scalarIdx : Subsingleton (⟨0, ![]⟩ : Shape).Idx := ⟨fun a b => funext fun d => d.elim0⟩

/-- The bit pattern of the positive infinity of the 32-bit format denotes the top element. -/
theorem ofBits_posInf : Ideal.ofBits .f32 0x7F800000#32 = (⊤ : EReal) := by
  simp [Ideal.ofBits, Ideal.ieee]

/-- An extended real whose absolute value max x (-x) lies strictly below the top element is neither infinity. -/
theorem ne_bot_top_of_abs_lt_top (x : EReal) (h : max x (-x) < ⊤) : x ≠ ⊥ ∧ x ≠ ⊤ := by
  constructor
  · rintro rfl; simp at h
  · rintro rfl; simp at h

/-- If the conjunction over all entries of "the absolute value is strictly below plus infinity" holds,
    then no entry of the array is an infinity. -/
theorem finite_of_all_abs_lt_inf {S : Shape} {axes : List (Fin S.rank)}
    (hb : (⟨0, ![]⟩ : Shape).BroadcastsInDim S (![] : Fin 0 → Fin S.rank))
    (hr : S.ReducesTo axes (⟨0, ![]⟩ : Shape)) (hu : 0 < (⟨0, ![]⟩ : Shape).numel)
    (x : FVec Ideal S .f32)
    (e : Host.reduce IntOp.andi
          (cmpf .olt (Host.absf x) (broadcastInDim S ![] hb (constant (F := Ideal) (⟨0, ![]⟩ : Shape) .f32 0x7F800000#32)))
          (constantI (⟨0, ![]⟩ : Shape) 1 1#1) hr hu ix0 = 1#1) :
    ∀ i, x i ≠ ⊥ ∧ x i ≠ ⊤ := by
  intro i
  have h1 := Host.reduce_andi_all _ _ hr hu _ e i
  have h2 : Ideal.cmp .olt (max (x i) (-(x i))) (Ideal.ofBits .f32 0x7F800000#32) = 1#1 := h1
  rw [ofBits_posInf] at h2
  refine ne_bot_top_of_abs_lt_top (x i) ?_
  by_contra hn
  simp [Ideal.cmp, hn] at h2

/-- The same, concluding that the array is real-valued. -/
theorem realValued_of_all_abs_lt_inf {S : Shape} {axes : List (Fin S.rank)}
    (hb : (⟨0, ![]⟩ : Shape).BroadcastsInDim S (![] : Fin 0 → Fin S.rank))
    (hr : S.ReducesTo axes (⟨0, ![]⟩ : Shape)) (hu : 0 < (⟨0, ![]⟩ : Shape).numel)
    (x : FVec Ideal S .f32)
    (e : Host.reduce IntOp.andi
          (cmpf .olt (Host.absf x) (broadcastInDim S ![] hb (constant (F := Ideal) (⟨0, ![]⟩ : Shape) .f32 0x7F800000#32)))
          (constantI (⟨0, ![]⟩ : Shape) 1 1#1) hr hu ix0 = 1#1) :
    RealValued x :=
  realValued_of_finite (finite_of_all_abs_lt_inf hb hr hu x e)

/-- A conjunction of two one-bit scalars that is 1 has both conjuncts 1. -/
theorem andi_scalar_eq_one {a b : IVec (⟨0, ![]⟩ : Shape) 1} (h : andi a b ix0 = 1#1) : a ix0 = 1#1 ∧ b ix0 = 1#1 :=
  IntOp.andi_eq_one.1 h

open Cert.Pre_finite_inputs in
/-- The precondition, the conjunction over the ten float arguments of "every |entry| is below plus infinity",
    makes every float argument real-valued. -/
theorem realValued_of_pre (x0 : FVec Ideal S100000x64 .f32) (x1 : IVec S2x1250000 32) (x2 x3 : FVec Ideal S64x64 .f32)
    (x4 : FVec Ideal S64 .f32) (x5 x6 : FVec Ideal S64x64 .f32) (x7 : FVec Ideal S64 .f32)
    (x8 x9 : FVec Ideal S64x40 .f32) (x10 : FVec Ideal S40 .f32)
    (h : Cert.Pre_finite_inputs.fn (F := Ideal) x0 x1 x2 x3 x4 x5 x6 x7 x8 x9 x10 = fun _ => 1#1) :
    RealValued x0 ∧ RealValued x2 ∧ RealValued x3 ∧ RealValued x4 ∧ RealValued x5 ∧ RealValued x6 ∧ RealValued x7
      ∧ RealValued x8 ∧ RealValued x9 ∧ RealValued x10 := by
  have h0 := congrFun h ix0
  dsimp only [Cert.Pre_finite_inputs.fn, Cert.Pre_finite_inputs.fn_part1, Cert.Pre_finite_inputs.fn_part2] at h0
  obtain ⟨h0, e10⟩ := andi_scalar_eq_one h0
  obtain ⟨h0, e9⟩ := andi_scalar_eq_one h0
  obtain ⟨h0, e8⟩ := andi_scalar_eq_one h0
  obtain ⟨h0, e7⟩ := andi_scalar_eq_one h0
  obtain ⟨h0, e6⟩ := andi_scalar_eq_one h0
  obtain ⟨h0, e5⟩ := andi_scalar_eq_one h0
  obtain ⟨h0, e4⟩ := andi_scalar_eq_one h0
  obtain ⟨h0, e3⟩ := andi_scalar_eq_one h0
  obtain ⟨e0, e2⟩ := andi_scalar_eq_one h0
  exact ⟨realValued_of_all_abs_lt_inf _ _ _ x0 e0, realValued_of_all_abs_lt_inf _ _ _ x2 e2,
    realValued_of_all_abs_lt_inf _ _ _ x3 e3, realValued_of_all_abs_lt_inf _ _ _ x4 e4,
    realValued_of_all_abs_lt_inf _ _ _ x5 e5, realValued_of_all_abs_lt_inf _ _ _ x6 e6,
    realValued_of_all_abs_lt_inf _ _ _ x7 e7, realValued_of_all_abs_lt_inf _ _ _ x8 e8,
    realValued_of_all_abs_lt_inf _ _ _ x9 e9, realValued_of_all_abs_lt_inf _ _ _ x10 e10⟩

end Cert.MeanAgg
-- ==== Proof.Claims.lean ====
/-
  The five claims.

  The word-level kernel and its idealization run and leave their arguments alone: their frame certificates.
  The reference runs and leaves its arguments alone: its run, with the result dropped.  The idealization
  rewrote nothing, so there is nothing to preserve.  And at the exact values the two programs, started from
  memories that agree on the arguments, end with one result: the kernel's result array is the row-wise
  log-softmax of the scores formed from the neighbour sums of the projected features, the reference's is the
  same function of the scores formed from the projected neighbour sums, and the two scores agree because the
  finite arguments make every entry a real number, where the neighbour sum commutes with the projection.
-/
import proofs.«169150_j15985868276093_2_alg».proof.Defs
import proofs.«169150_j15985868276093_2_alg».proof.Proof.Patched.Kernel.Frame
import proofs.«169150_j15985868276093_2_alg».proof.Proof.Patched.KernelIdeal.Frame
import proofs.«169150_j15985868276093_2_alg».proof.Proof.Patched.ReferenceIdeal.Run
import proofs.«169150_j15985868276093_2_alg».proof.Proof.Gen.Pre_finite_inputs
import proofs.«169150_j15985868276093_2_alg».proof.Proof.KernelRun
import proofs.«169150_j15985868276093_2_alg».proof.Proof.KernelValue
import proofs.«169150_j15985868276093_2_alg».proof.Proof.Bridge
import proofs.«169150_j15985868276093_2_alg».proof.Proof.RefValue
import proofs.«169150_j15985868276093_2_alg».proof.Proof.Finite

set_option maxRecDepth 16384

noncomputable section

open Idealize.ShloMosaic Idealize.ShloMosaic.TcCoe Idealize.SL.Sem

namespace Cert.Proof.Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The zero array the kernel's last neighbour sum starts from is zero everywhere. -/
theorem zeros40 (hb : (⟨0, ![]⟩ : Shape).BroadcastsInDim (⟨2, ![100000, 40]⟩ : Shape) (![] : Fin 0 → Fin 2))
    (i : (⟨2, ![100000, 40]⟩ : Shape).Idx) :
    broadcastInDim (⟨2, ![100000, 40]⟩ : Shape) ![] hb (constant (F := Ideal) (⟨0, ![]⟩ : Shape) .f32 0x00000000#32) i = (0 : EReal) := by
  show Ideal.ofBits .f32 0x00000000#32 = 0
  exact Ideal.ofBits_zero_f32

theorem algebraic : Cert.algebraic_KernelIdeal_ReferenceIdeal := by
  intro m ρ m' ρ' hpre hagree
  refine ⟨fun c => Cert.ReferenceIdeal.Read.val_main_v69 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · -- the kernel's run: its result array is that function of its arguments
    refine (θ_run Cert.KernelIdeal.defs _ _).mono (fun r h c => ⟨(h c).1.trans ?_, (h c).2⟩)
      (Cert.MeanAgg.Run.run_result (F := Ideal) m ρ)
    obtain ⟨h0, h2, h3, h4, h5, h6, h7, h8, h9, h10⟩ := Cert.MeanAgg.realValued_of_pre _ _ _ _ _ _ _ _ _ _ _ (hpre c)
    rw [Cert.MeanAgg.KernelValue.result]
    exact Cert.MeanAgg.Bridge.projected_eq_reference _ _ _ _ _ _ _ _ _ _ _ h0 h2 h3 h4 h5 h6 h7 h8 _ (zeros40 _)
  · -- the reference's run: its result is the same function of ITS arguments, which are the kernel's
    refine (θ_run Cert.ReferenceIdeal.defs _ _).mono (fun r h c => ⟨(h c).1.trans ?_, (h c).2⟩)
      (Cert.ReferenceIdeal.Value.run (F := Ideal) m' ρ')
    rw [Cert.MeanAgg.RefValue.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

end Cert.Proof.Claims

end
-- ==== Proof.lean ====
/- The certificate of a three-layer graph network over 100000 nodes and 1250000 edges: its Pallas kernels against
   a plain jnp reference.  Each layer takes, for every node, the sum of its in-neighbours' feature rows scaled by
   the node's reciprocal degree, multiplies it by one weight matrix, adds the node's own features times a second
   matrix and a bias; two hidden layers end in max(·, 0), the last in a row-wise log-softmax.  The kernel fuses
   the scaling into the matrix products and, in the last layer, projects the 64 hidden features to the 40 classes
   BEFORE summing over the neighbours, where the reference sums first.  At the exact values the two are one
   function on finite inputs: the neighbour sum is linear, and on real numbers it commutes with the projection.
   Proof/Claims.lean states and proves the five claims; this file assembles them behind the witnesses of the
   programs' stated facts. -/
import proofs.«169150_j15985868276093_2_alg».proof.Defs
import proofs.«169150_j15985868276093_2_alg».proof.Proof.Gen.Kernel
import proofs.«169150_j15985868276093_2_alg».proof.Proof.Gen.KernelIdeal
import proofs.«169150_j15985868276093_2_alg».proof.Proof.Gen.ReferenceIdeal
import proofs.«169150_j15985868276093_2_alg».proof.Proof.Gen.Pre_finite_inputs
import proofs.«169150_j15985868276093_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
